-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩
abbrev S512x512 : Shape := ⟨2, ![512, 512]⟩
abbrev S4096 : Shape := ⟨1, ![4096]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1, .f32⟩
  | .hbm, ⟨4, _⟩ => ⟨S4096x1, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_26 : BitVec 32 := 0#32
  let v64 : BitVec 1 := Scalar.cmpi .ne v63 c0_i32_26
  v64

def k0_cond2 (i : grid0.Coords) : BitVec 1 :=
  let arg1 : BitVec 32 := BitVec.ofNat 32 (i 1).val
  let arg0 : BitVec 32 := BitVec.ofNat 32 (i 0).val
  let v59 : BitVec 1 := Scalar.cmpi .eq arg1 arg0
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  reduces_S512x512_S512 : S512x512.Reduces [1] S512
  broadcasts_S512x1_S512x512 : S512x1.Broadcasts S512x512
  shapeCasts_S4096x1_S4096 : S4096x1.ShapeCasts S4096
  reducesTo_S4096_S_d0 : S4096.ReducesTo [0] S_
  h_S_ : 0 < S_.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond3 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S8192x1024 : Shape := ⟨2, ![8192, 1024]⟩
abbrev S8192 : Shape := ⟨1, ![8192]⟩
abbrev S8192x1 : Shape := ⟨2, ![8192, 1]⟩
abbrev S4096x8192 : Shape := ⟨2, ![4096, 8192]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096, .i32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S4096x1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S_, .i32⟩
  | .hbm, ⟨49, _⟩ => ⟨S4096x1, .i32⟩
  | .hbm, ⟨50, _⟩ => ⟨S4096x1, .i32⟩
  | .hbm, ⟨51, _⟩ => ⟨S4096x1, .i32⟩
  | .hbm, ⟨52, _⟩ => ⟨S4096x1x1, .i32⟩
  | .hbm, ⟨53, _⟩ => ⟨S1, .i32⟩
  | .hbm, ⟨54, _⟩ => ⟨S_, .i32⟩
  | .hbm, ⟨55, _⟩ => ⟨S4096x1x1, .i32⟩
  | .hbm, ⟨56, _⟩ => ⟨S4096x1x1, .i1⟩
  | .hbm, ⟨57, _⟩ => ⟨S1x1x1, .i32⟩
  | .hbm, ⟨58, _⟩ => ⟨S4096x1x1, .i32⟩
  | .hbm, ⟨59, _⟩ => ⟨S4096x1x1, .i1⟩
  | .hbm, ⟨60, _⟩ => ⟨S4096x1x1, .i1⟩
  | .hbm, ⟨61, _⟩ => ⟨S_, .i1⟩
  | .hbm, ⟨62, _⟩ => ⟨S4096x1, .i1⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v21 : Ref sig .tc := ⟨.hbm, 43, rfl⟩
abbrev main_v22 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v23 : Ref sig .tc := ⟨.hbm, 66, rfl⟩
abbrev main_cst_4 : Ref sig .tc := ⟨.hbm, 67, rfl⟩
abbrev main_v24 : Ref sig .tc := ⟨.hbm, 68, rfl⟩
abbrev main_cst_5 : Ref sig .tc := ⟨.hbm, 69, rfl⟩
abbrev main_v25 : Ref sig .tc := ⟨.hbm, 70, rfl⟩
abbrev main_v26 : Ref sig .tc := ⟨.hbm, 71, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  concatenates_S4096x1024_S4096x1024_S8192x1024_d0 : Shape.Concatenates [S4096x1024, S4096x1024] S8192x1024 0
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  bcast_S4096x1_S4096x8192_0_1 : S4096x1.BroadcastsInDim S4096x8192 (![0, 1] : Fin 2 → Fin S4096x8192.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x1024_S8192x1024_S4096x8192_1_1_0_0_n_n_wf : DotDims.WF S4096x1024 S8192x1024 S4096x8192 [1] [1] [0] [0] [] []
  gather_S4096x8192_S4096x1x1_S4096x1_n_1_0_0_1_2_11_wf : GatherDims.WF S4096x8192 S4096x1x1 S4096x1 [] [1] [0] [1] [0] 2 ![1, 1]

variable [Facts₀]

def dot_S4096x1024_S8192x1024_S4096x8192_1_1_0_0_n_n : DotDims S4096x1024 S8192x1024 S4096x8192 where
  lhsContracting := [1]
  rhsContracting := [1]
  lhsNonContracting := [0]
  rhsNonContracting := [0]
  lhsBatch := []
  rhsBatch := []
  wf := dot_S4096x1024_S8192x1024_S4096x8192_1_1_0_0_n_n_wf
def gather_S4096x8192_S4096x1x1_S4096x1_n_1_0_0_1_2_11 : GatherDims S4096x8192 S4096x1x1 S4096x1 where
  offsetDims := []
  collapsedSliceDims := [1]
  operandBatchingDims := [0]
  startIndicesBatchingDims := [0]
  startIndexMap := [1]
  indexVectorDim := 2
  sliceSizes := ![1, 1]
  wf := gather_S4096x8192_S4096x1x1_S4096x1_n_1_0_0_1_2_11_wf

class Facts : Prop extends Facts₀ where

variable [Facts]
-- ==== Proof.K.Sched.lean ====
/-
  The grid is 8 row tiles by 16 column tiles, visited row by row: point t is row tile t / 16 and column
  tile t % 16.  The body branches three times on the point: at the first column of a row it resets the
  running maximum and the running sum; on the diagonal (column = row, i.e. t divisible by 17) it writes the
  positive-pair score; at the last column it writes the log-sum-exp.  This module decides those branch
  conditions, the idle pattern of the two output windows and their freshness over the 128 points.
-/
import proofs.«148176_j63874753626759_2_alg».proof.Proof.Gen.Kernel.Frame
import proofs.«148176_j63874753626759_2_alg».proof.Proof.Gen.Kernel.Skeleton
import Idealize.ShloMosaic.Lib.Pipeline.TableIdle
import Idealize.ShloMosaic.Lib.Pipeline.Value
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions, in closed form over the grid -/

/-- The body's first branch: the column coordinate is zero. -/
abbrev firstCol (i : grid0.Coords) : Prop :=
  (Scalar.cmpi .ne (Scalar.extui (Scalar.cmpi .eq (BitVec.ofNat 32 (i 1).val) 0#32)) 0#32) = 1#1
/-- The body's second branch: the column coordinate equals the row coordinate. -/
abbrev onDiag (i : grid0.Coords) : Prop := k0_cond2 i = 1#1
/-- The body's third branch: the column coordinate is the last one. -/
abbrev lastCol (i : grid0.Coords) : Prop := k0_cond3 i = 1#1

theorem firstCol_iff : ∀ t : Fin cfg0.N, firstCol (grid0.coords t) ↔ t.val % 16 = 0 :=
  (by decide +kernel : ∀ t : Fin grid0.N, firstCol (grid0.coords t) ↔ t.val % 16 = 0)
theorem onDiag_iff : ∀ t : Fin cfg0.N, onDiag (grid0.coords t) ↔ t.val % 17 = 0 :=
  (by decide +kernel : ∀ t : Fin grid0.N, onDiag (grid0.coords t) ↔ t.val % 17 = 0)
theorem lastCol_iff : ∀ t : Fin cfg0.N, lastCol (grid0.coords t) ↔ t.val % 16 = 15 :=
  (by decide +kernel : ∀ t : Fin grid0.N, lastCol (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The log-sum-exp window is stored into exactly at the last column. -/
theorem idle3_iff : ∀ t : Fin cfg0.N, cfg0.idle 3 (grid0.coords t) = true ↔ ¬ t.val % 16 = 15 :=
  (by decide +kernel : ∀ t : Fin grid0.N, cfg0.idle 3 (grid0.coords t) = true ↔ ¬ t.val % 16 = 15)
/-- The positive-score window is stored into exactly on the diagonal. -/
theorem idle4_iff : ∀ t : Fin cfg0.N, cfg0.idle 4 (grid0.coords t) = true ↔ ¬ t.val % 17 = 0 :=
  (by decide +kernel : ∀ t : Fin grid0.N, cfg0.idle 4 (grid0.coords t) = true ↔ ¬ t.val % 17 = 0)

/-- The positive-score buffer of a row holds nothing of that row until the diagonal point has run:
    it is fresh at point n exactly when the column has not passed the row. -/
theorem fresh4 : ∀ n, n ≤ cfg0.N → cfg0.fresh 4 n = decide (n % 16 ≤ n / 16) :=
  Pipeline.Cfg.fresh_tab cfg0 4 (fun n => decide (n % 16 ≤ n / 16)) (by decide)
    (by decide +kernel : ∀ t : Fin grid0.N, decide ((t.val + 1) % 16 ≤ (t.val + 1) / 16)
      = ((cfg0.win 4).flush t || (cfg0.idle 4 (grid0.coords t) && decide (t.val % 16 ≤ t.val / 16))))

theorem N128 : cfg0.N = 128 := N_0

/-! ## The staging memrefs the body is called with, and the two scratch operands -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The running maximum and the running sum live in two scratch buffers of the kernel's own. -/
abbrev scMax : Memref sig .tc .vmem S512x1 .f32 := Memref.whole cc0_scratch0
abbrev scSum : Memref sig .tc .vmem S512x1 .f32 := Memref.whole cc0_scratch1

/-- What the launch lends the body besides the windows: the two scratch buffers at some contents and the
    generator register. -/
theorem PhiA_eq (c : Dev nD) :
    (Pipeline.ΦA spec0 c : sProp 𝕄)
      = iprop(iprop((∃ d, owns (c : Thread nD τ) scMax fullShare d) ∗ (∃ d, owns (c : Thread nD τ) scSum fullShare d)) ∗ (∃ r, prngReg c r)) := by
  unfold Pipeline.ΦA; rw [scopedRest0_eq]; simp only [scMax, scSum, owns_whole]; try rfl

/-! ## A whole-block store, made last, decides what the buffer reads -/

theorem zero2 : (![0, 0] : Fin 2 → ℕ) = fun _ => 0 := by
  funext a; fin_cases a <;> rfl

/-- After a list of stores whose LAST one (the head) is through the whole-block rectangle, the buffer reads that
    store's payload. -/
theorem read_after_whole_store {S : Shape} {e : EltTy} {sig' : RefSig} {κ : Kind} {sp : Space}
    (v : View sig' κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

end Cert.Kernel.Body

end
-- ==== Proof.K.Runs.lean ====
/-
  The kernel body run symbolically, once per assignment of its three branch conditions that the grid meets.
  Each run is stated on whole staging buffers at given contents: the three input blocks x0 (queries), x1
  (positives), x2 (negatives), the two output buffers y5 (log-sum-exp) and y6 (positive score), and the two
  scratch buffers (running maximum mx, running sum sm).  With S the scaled score tile of the point, every run
  leaves the running maximum at max(old, rowmax S) and the running sum at exp(old max - new max) * old sum +
  rowsum exp(S - new max); the first column starts from (-inf, 0) instead of the old contents, the diagonal
  writes the positive score 20 * rowsum(q̂ * p̂), the last column writes maximum + log sum.
-/
import proofs.«148176_j63874753626759_2_alg».proof.Proof.Gen.Kernel.Frame
import proofs.«148176_j63874753626759_2_alg».proof.Proof.Gen.Kernel.Skeleton
import Idealize.ShloMosaic.Lib.Pipeline.TableIdle
import Idealize.ShloMosaic.Lib.Pipeline.Value
import proofs.«148176_j63874753626759_2_alg».proof.Proof.K.Sched
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
  (x0 x1 x2 : Vec F S512x1024 .f32) (y5 y6 : Vec F S512x1 .f32)

/-- The scaled score tile of a point: 20 * q̂ · d̂ᵀ with d̂ the normalized positives in the first eight columns
    and the normalized negatives in the last eight. -/
abbrev scoreTile (i : grid0.Coords) (x0 x1 x2 : Vec F S512x1024 .f32) : Vec F S512x512 .f32 := k0_pay10 i x0 x1 x2
/-- The running maximum after a tile. -/
abbrev newMax (S : Vec F S512x512 .f32) (mx : Vec F S512x1 .f32) : Vec F S512x1 .f32 := k0_pay3 S mx
/-- The running sum after a tile. -/
abbrev newSum (S : Vec F S512x512 .f32) (mx sm : Vec F S512x1 .f32) : Vec F S512x1 .f32 := k0_pay2 S mx mx sm
/-- The positive-pair score of a row tile. -/
abbrev posScore (x0 x1 : Vec F S512x1024 .f32) : Vec F S512x1 .f32 := k0_pay4 (k0_pay8 x0) (k0_pay9 x1)
/-- The running maximum a row starts from. -/
abbrev max0 : Vec F S512x1 .f32 := k0_pay6 (F := F)
/-- The running sum a row starts from. -/
abbrev sum0 : Vec F S512x1 .f32 := k0_pay7 (F := F)
/-- The log-sum-exp from the final maximum and sum. -/
abbrev lseOf (mx sm : Vec F S512x1 .f32) : Vec F S512x1 .f32 := k0_pay5 mx sm

/-- A buffer whose last store was a whole-block store reads that store's payload; the loads the payload was
    computed from read the buffers' contents (or an earlier whole-block store's payload). -/
local macro "stored_whole" : tactic => `(tactic| (
  refine (read_after_whole_store _ _ zero2 _ _ _).trans ?_
  sl_unfold_run_names
  simp only [View.readAt_eq_ld, Memref.IsWhole.read_unread, View.readCov_unit_zero (S := S512x1) _ zero2,
    View.ld_unit_zero (S := S512x1) zero2, View.ld_unit_zero (S := S512x1024) zero2]))

set_option maxHeartbeats 1000000 in
/-- An interior point: not the first column, not the diagonal, not the last column. -/
theorem run_interior (hc0 : ¬firstCol i) (hc1 : ¬onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (y6)
            ∗ owns (c : Thread nD τ) arg7 fullShare (newMax (scoreTile i x0 x1 x2) (mx))
            ∗ owns (c : Thread nD τ) arg8 fullShare (newSum (scoreTile i x0 x1 x2) (mx) (sm))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; stored_whole
  · iexists _; isplitr; swap; · iexact H8
    ipureintro; stored_whole

set_option maxHeartbeats 1000000 in
/-- The last column (never the first, never the diagonal): the log-sum-exp is written. -/
theorem run_last (hc0 : ¬firstCol i) (hc1 : ¬onDiag i) (hc2 : lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (lseOf (newMax (scoreTile i x0 x1 x2) mx) (newSum (scoreTile i x0 x1 x2) mx sm)) ∗ owns (c : Thread nD τ) arg6 fullShare (y6)
            ∗ owns (c : Thread nD τ) arg7 fullShare (newMax (scoreTile i x0 x1 x2) (mx))
            ∗ owns (c : Thread nD τ) arg8 fullShare (newSum (scoreTile i x0 x1 x2) (mx) (sm))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; stored_whole
  isplitl [H6]
  · iexists _; isplitr; swap; · iexact H6
    ipureintro; exact harg6.read_unread _
  isplitl [H7]
  · iexists _; isplitr; swap; · iexact H7
    ipureintro; stored_whole
  · iexists _; isplitr; swap; · iexact H8
    ipureintro; stored_whole

set_option maxHeartbeats 1000000 in
/-- A diagonal point that is not in the first column: the positive score is written. -/
theorem run_diag (hc0 : ¬firstCol i) (hc1 : onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (posScore x0 x1)
            ∗ owns (c : Thread nD τ) arg7 fullShare (newMax (scoreTile i x0 x1 x2) (mx))
            ∗ owns (c : Thread nD τ) arg8 fullShare (newSum (scoreTile i x0 x1 x2) (mx) (sm))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; stored_whole
  isplitl [H7]
  · iexists _; isplitr; swap; · iexact H7
    ipureintro; stored_whole
  · iexists _; isplitr; swap; · iexact H8
    ipureintro; stored_whole

set_option maxHeartbeats 1000000 in
/-- The first column off the diagonal: the accumulators restart. -/
theorem run_first (hc0 : firstCol i) (hc1 : ¬onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (y6)
            ∗ owns (c : Thread nD τ) arg7 fullShare (newMax (scoreTile i x0 x1 x2) (max0))
            ∗ owns (c : Thread nD τ) arg8 fullShare (newSum (scoreTile i x0 x1 x2) (max0) (sum0))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; stored_whole
  · iexists _; isplitr; swap; · iexact H8
    ipureintro; stored_whole

set_option maxHeartbeats 1000000 in
/-- The first point of the grid: first column and diagonal at once. -/
theorem run_first_diag (hc0 : firstCol i) (hc1 : onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (posScore x0 x1)
            ∗ owns (c : Thread nD τ) arg7 fullShare (newMax (scoreTile i x0 x1 x2) (max0))
            ∗ owns (c : Thread nD τ) arg8 fullShare (newSum (scoreTile i x0 x1 x2) (max0) (sum0))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; stored_whole
  isplitl [H7]
  · iexists _; isplitr; swap; · iexact H7
    ipureintro; stored_whole
  · iexists _; isplitr; swap; · iexact H8
    ipureintro; stored_whole

end Cert.Kernel.Body

end
-- ==== Proof.K.Data.lean ====
/-
  The proof data of the one pipelined region, and the body obligation.
  The scratch pair (running maximum, running sum) after point t is defined by recursion on t: a row's first
  point starts from (-inf, 0), every other point from what the previous point left, and each point folds in its
  own score tile.  The log-sum-exp buffer after the last column of a row is maximum + log sum of that pair; the
  positive-score buffer of row r holds, from the diagonal point 17 r on, the positive score of the row's own
  query and positive blocks.  The latter is written back at the last column of the row, eight to fifteen points
  after it was stored: the buffer is carried unchanged through the idle points in between.
-/
import proofs.«148176_j63874753626759_2_alg».proof.Proof.Gen.Kernel.Frame
import proofs.«148176_j63874753626759_2_alg».proof.Proof.Gen.Kernel.Skeleton
import Idealize.ShloMosaic.Lib.Pipeline.TableIdle
import Idealize.ShloMosaic.Lib.Pipeline.Value
import proofs.«148176_j63874753626759_2_alg».proof.Proof.K.Runs
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators point by point -/

/-- One point's update of the pair (running maximum, running sum). -/
def stepAt (c : Dev nD) (t : Fin cfg0.N) (p : Vec F S512x1 .f32 × Vec F S512x1 .f32) :
    Vec F S512x1 .f32 × Vec F S512x1 .f32 :=
  (newMax (scoreTile (grid0.coords t) (iblk m c 0 t) (iblk m c 1 t) (iblk m c 2 t)) p.1,
   newSum (scoreTile (grid0.coords t) (iblk m c 0 t) (iblk m c 1 t) (iblk m c 2 t)) p.1 p.2)

/-- The pair after point n. -/
def accAt (c : Dev nD) : (n : ℕ) → n < cfg0.N → Vec F S512x1 .f32 × Vec F S512x1 .f32
  | 0, h => stepAt m c ⟨0, h⟩ (max0, sum0)
  | n + 1, h => stepAt m c ⟨n + 1, h⟩
      (if (n + 1) % 16 = 0 then (max0, sum0) else accAt c n (Nat.lt_of_succ_lt h))

theorem accAt_first (c : Dev nD) (t : Fin cfg0.N) (h : t.val % 16 = 0) :
    accAt m c t.val t.isLt = stepAt m c t (max0, sum0) := by
  obtain ⟨n, hn⟩ := t
  cases n with
  | zero => rfl
  | succ n => show stepAt m c _ (if (n + 1) % 16 = 0 then _ else _) = _; rw [if_pos h]

theorem accAt_later (c : Dev nD) (t : Fin cfg0.N) (h : ¬t.val % 16 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 16 = 0 then _ else _) = _; rw [if_neg h]; rfl

/-- What the log-sum-exp buffer is left at by the last column of a row. -/
def lseAt (c : Dev nD) (t : Fin cfg0.N) : Vec F S512x1 .f32 :=
  lseOf (accAt m c t.val t.isLt).1 (accAt m c t.val t.isLt).2

/-- The diagonal point of row r. -/
def diagPt (r : ℕ) (hr : r < 8) : Fin cfg0.N := ⟨17 * r, by have := N128; omega⟩

/-- The positive score of row r: of the query block and the positive block of its diagonal point. -/
def diagRow (c : Dev nD) (r : ℕ) (hr : r < 8) : Vec F S512x1 .f32 :=
  posScore (iblk m c 0 (diagPt r hr)) (iblk m c 1 (diagPt r hr))

theorem diagRow_congr (c : Dev nD) {r r' : ℕ} (e : r = r') (hr : r < 8) (hr' : r' < 8) :
    diagRow m c r hr = diagRow m c r' hr' := by subst e; rfl

theorem row_lt (t : Fin cfg0.N) : t.val / 16 < 8 := by have := t.isLt; have := N128; omega

/-! ## The invariant: the scratch pair at what the point before left -/

def PhiS (c : Dev nD) : (n : ℕ) → n ≤ cfg0.N → sProp 𝕄
  | 0, _ => Pipeline.ΦA spec0 c
  | n + 1, hn => iprop(iprop(owns (c : Thread nD τ) scMax fullShare ((accAt m c n hn).1) ∗ owns (c : Thread nD τ) scSum fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((accAt m c n hn).1) ∗ owns (c : Thread nD τ) scSum fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scMax fullShare ((accAt m c (n - 1) (by omega)).1) ∗ owns (c : Thread nD τ) scSum fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lseAt m c t
    | ⟨4, _⟩ => diagRow m c (t.val / 16) (row_lt t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = lseAt m c t := by dsimp only [dats]
theorem after4 (c : Dev nD) (t : Fin cfg0.N) : (dats m 0 c).after 4 t = diagRow m c (t.val / 16) (row_lt t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the last column of a row the positive-score buffer still holds what the row's diagonal point stored:
    the points in between are idle for the window and none of them writes it back. -/
theorem before4_last (c : Dev nD) (t : Fin cfg0.N) (h : t.val % 16 = 15) (d) :
    (dats m 0 c).before 4 t d = (dats m 0 c).after 4 t := by
  have hN := N128
  have ht := t.isLt
  rw [Pipeline.Dat.before_out_traj (dats m 0 c) 4 rfl (fun _ _ => rfl) (fun u hu hidle hfr => by
      rw [fresh4 u.val (Nat.le_of_lt u.isLt)] at hfr
      have hu' := u.isLt
      have h1 : ¬ (u.val % 16 ≤ u.val / 16) := by simpa using hfr
      rw [after4, after4]
      exact diagRow_congr m c (by show u.val / 16 = (u.val - 1) / 16; omega) _ _) t.val t rfl d,
    fresh4 t.val (Nat.le_of_lt t.isLt)]
  have h1 : ¬ (t.val % 16 ≤ t.val / 16) := by omega
  rw [if_neg (by simpa using h1), after4, after4]
  exact diagRow_congr m c (by show (t.val - 1) / 16 = t.val / 16; omega) _ _

/-- On the diagonal the row's positive score is the one of the point's own blocks. -/
theorem after4_diag (c : Dev nD) (t : Fin cfg0.N) (h : t.val % 17 = 0) :
    (dats m 0 c).after 4 t = posScore (iblk m c 0 t) (iblk m c 1 t) := by
  have hN := N128
  have ht := t.isLt
  rw [after4]
  have e : diagPt (t.val / 16) (row_lt t) = t := Fin.ext (by show 17 * (t.val / 16) = t.val; omega)
  unfold diagRow; rw [e]

end Cert.Kernel.Body

end
-- ==== Proof.K.Body.lean ====
/-
  The body obligation of the pipelined region and the run of the whole program around it.
  At every point the body is handed the three input blocks, the two output buffers at what they hold, and the
  scratch pair at what the point before left; the point's column decides which of the five runs applies, and
  each hands back the scratch pair folded with the point's score tile, the log-sum-exp buffer written at the
  last column, the positive-score buffer written on the diagonal and otherwise untouched.
-/
import proofs.«148176_j63874753626759_2_alg».proof.Proof.Gen.Kernel.Frame
import proofs.«148176_j63874753626759_2_alg».proof.Proof.Gen.Kernel.Skeleton
import Idealize.ShloMosaic.Lib.Pipeline.TableIdle
import Idealize.ShloMosaic.Lib.Pipeline.Value
import proofs.«148176_j63874753626759_2_alg».proof.Proof.K.Data
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer is handed back at -/

theorem flush3_false (t : Fin cfg0.N) (h : ¬t.val % 16 = 15) : (cfg0.win 3).flush t = false :=
  Bool.eq_false_iff.mpr fun hf => h ((flush0_3 t).mp hf)
theorem flush4_false (t : Fin cfg0.N) (h : ¬t.val % 16 = 15) : (cfg0.win 4).flush t = false :=
  Bool.eq_false_iff.mpr fun hf => h ((flush0_4 t).mp hf)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

theorem leaves3_idle (c : Dev nD) (t : Fin cfg0.N) (h : ¬t.val % 16 = 15) :
    (dats m 0 c).leavesExact 3 t = iprop(∃ d, owns (c : Thread nD τ) (ms3 t) fullShare ((dats m 0 c).before 3 t d)) :=
  (dats m 0 c).leavesExact_idle 3 t ((idle3_iff t).mpr h) (flush3_false t h)
theorem leaves3_live (c : Dev nD) (t : Fin cfg0.N) (h : t.val % 16 = 15) :
    (dats m 0 c).leavesExact 3 t = owns (c : Thread nD τ) (ms3 t) fullShare ((dats m 0 c).after 3 t) := by
  unfold Dat.leavesExact
  rw [show cfg0.idle 3 (grid0.coords t) = false from Bool.eq_false_iff.mpr fun hi => (idle3_iff t).mp hi h]
theorem leaves4_idle (c : Dev nD) (t : Fin cfg0.N) (h1 : ¬t.val % 17 = 0) (h2 : ¬t.val % 16 = 15) :
    (dats m 0 c).leavesExact 4 t = iprop(∃ d, owns (c : Thread nD τ) (ms4 t) fullShare ((dats m 0 c).before 4 t d)) :=
  (dats m 0 c).leavesExact_idle 4 t ((idle4_iff t).mpr h1) (flush4_false t h2)
theorem leaves4_live (c : Dev nD) (t : Fin cfg0.N) (h1 : t.val % 17 = 0) :
    (dats m 0 c).leavesExact 4 t = owns (c : Thread nD τ) (ms4 t) fullShare ((dats m 0 c).after 4 t) := by
  unfold Dat.leavesExact
  rw [show cfg0.idle 4 (grid0.coords t) = false from Bool.eq_false_iff.mpr fun hi => (idle4_iff t).mp hi h1]
theorem leaves4_flush (c : Dev nD) (t : Fin cfg0.N) (h1 : ¬t.val % 17 = 0) (h2 : t.val % 16 = 15) :
    (dats m 0 c).leavesExact 4 t = owns (c : Thread nD τ) (ms4 t) fullShare ((dats m 0 c).after 4 t) := by
  unfold Dat.leavesExact
  rw [(idle4_iff t).mpr h1, (flush0_4 t).mpr h2]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 128 := lt_of_lt_of_eq t.isLt N128
  by_cases h0 : t.val % 16 = 0
  · have h2 : ¬t.val % 16 = 15 := by omega
    by_cases h1 : t.val % 17 = 0
    · have hz : t.val = 0 := by omega
      rw [leaves3_idle m c t h2]
      rw [leaves4_live m c t h1, after4_diag m c t h1]
      rw [accAt_first m c t h0]; simp only [stepAt]
      rw [Phi_castSucc m c t, PhiS_zero m c _ _ hz, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩⟩
      iapply (run_first_diag c (grid0.coords t) _ _ _ _ _ _ _ _ _ _ _ _ _ _ (iblk m c 0 t) (iblk m c 1 t) (iblk m c 2 t) _ _ ((firstCol_iff t).mpr h0) ((onDiag_iff t).mpr h1) (fun h => h2 ((lastCol_iff t).mp h)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      iexact H4
    · have hz : t.val ≠ 0 := fun hz => h1 (by rw [hz])
      rw [leaves3_idle m c t h2]
      rw [leaves4_idle m c t h1 h2]
      rw [accAt_first m c t h0]; simp only [stepAt]
      rw [Phi_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ (iblk m c 0 t) (iblk m c 1 t) (iblk m c 2 t) _ _ ((firstCol_iff t).mpr h0) (fun h => h1 ((onDiag_iff t).mp h)) (fun h => h2 ((lastCol_iff t).mp h)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun hz => h0 (by rw [hz])
    by_cases h1 : t.val % 17 = 0
    · have h2 : ¬t.val % 16 = 15 := by omega
      rw [leaves3_idle m c t h2]
      rw [leaves4_live m c t h1, after4_diag m c t h1]
      rw [accAt_later m c t h0]; simp only [stepAt]
      rw [Phi_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_diag c (grid0.coords t) _ _ _ _ _ _ _ _ _ _ _ _ _ _ (iblk m c 0 t) (iblk m c 1 t) (iblk m c 2 t) _ _ (fun h => h0 ((firstCol_iff t).mp h)) ((onDiag_iff t).mpr h1) (fun h => h2 ((lastCol_iff t).mp h)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      iexact H4
    · by_cases h2 : t.val % 16 = 15
      ·
        rw [leaves3_live m c t h2, after3]
        rw [leaves4_flush m c t h1 h2]
        simp only [before4_last m c t h2]
        unfold lseAt
        rw [accAt_later m c t h0]; simp only [stepAt]
        rw [Phi_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply (run_last c (grid0.coords t) _ _ _ _ _ _ _ _ _ _ _ _ _ _ (iblk m c 0 t) (iblk m c 1 t) (iblk m c 2 t) _ _ (fun h => h0 ((firstCol_iff t).mp h)) (fun h => h1 ((onDiag_iff t).mp h)) ((lastCol_iff t).mpr h2) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
      ·
        rw [leaves3_idle m c t h2]
        rw [leaves4_idle m c t h1 h2]
        rw [accAt_later m c t h0]; simp only [stepAt]
        rw [Phi_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply (run_interior c (grid0.coords t) _ _ _ _ _ _ _ _ _ _ _ _ _ _ (iblk m c 0 t) (iblk m c 1 t) (iblk m c 2 t) _ _ (fun h => h0 ((firstCol_iff t).mp h)) (fun h => h1 ((onDiag_iff t).mp h)) (fun h => h2 ((lastCol_iff t).mp h)) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N128; omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates; the windowed arrays end as the proof data say (the
    inputs unchanged, each output array at its blocks as written back), the host lines after the region run on
    those arrays. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Sched.lean ====
/-
  The grid is 8 row tiles by 16 column tiles, visited row by row: point t is row tile t / 16 and column
  tile t % 16.  The body branches three times on the point: at the first column of a row it resets the
  running maximum and the running sum; on the diagonal (column = row, i.e. t divisible by 17) it writes the
  positive-pair score; at the last column it writes the log-sum-exp.  This module decides those branch
  conditions, the idle pattern of the two output windows and their freshness over the 128 points.
-/
import proofs.«148176_j63874753626759_2_alg».proof.Proof.Gen.KernelIdeal.Frame
import proofs.«148176_j63874753626759_2_alg».proof.Proof.Gen.KernelIdeal.Skeleton
import Idealize.ShloMosaic.Lib.Pipeline.TableIdle
import Idealize.ShloMosaic.Lib.Pipeline.Value
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions, in closed form over the grid -/

/-- The body's first branch: the column coordinate is zero. -/
abbrev firstCol (i : grid0.Coords) : Prop :=
  (Scalar.cmpi .ne (Scalar.extui (Scalar.cmpi .eq (BitVec.ofNat 32 (i 1).val) 0#32)) 0#32) = 1#1
/-- The body's second branch: the column coordinate equals the row coordinate. -/
abbrev onDiag (i : grid0.Coords) : Prop := k0_cond2 i = 1#1
/-- The body's third branch: the column coordinate is the last one. -/
abbrev lastCol (i : grid0.Coords) : Prop := k0_cond3 i = 1#1

theorem firstCol_iff : ∀ t : Fin cfg0.N, firstCol (grid0.coords t) ↔ t.val % 16 = 0 :=
  (by decide +kernel : ∀ t : Fin grid0.N, firstCol (grid0.coords t) ↔ t.val % 16 = 0)
theorem onDiag_iff : ∀ t : Fin cfg0.N, onDiag (grid0.coords t) ↔ t.val % 17 = 0 :=
  (by decide +kernel : ∀ t : Fin grid0.N, onDiag (grid0.coords t) ↔ t.val % 17 = 0)
theorem lastCol_iff : ∀ t : Fin cfg0.N, lastCol (grid0.coords t) ↔ t.val % 16 = 15 :=
  (by decide +kernel : ∀ t : Fin grid0.N, lastCol (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The log-sum-exp window is stored into exactly at the last column. -/
theorem idle3_iff : ∀ t : Fin cfg0.N, cfg0.idle 3 (grid0.coords t) = true ↔ ¬ t.val % 16 = 15 :=
  (by decide +kernel : ∀ t : Fin grid0.N, cfg0.idle 3 (grid0.coords t) = true ↔ ¬ t.val % 16 = 15)
/-- The positive-score window is stored into exactly on the diagonal. -/
theorem idle4_iff : ∀ t : Fin cfg0.N, cfg0.idle 4 (grid0.coords t) = true ↔ ¬ t.val % 17 = 0 :=
  (by decide +kernel : ∀ t : Fin grid0.N, cfg0.idle 4 (grid0.coords t) = true ↔ ¬ t.val % 17 = 0)

/-- The positive-score buffer of a row holds nothing of that row until the diagonal point has run:
    it is fresh at point n exactly when the column has not passed the row. -/
theorem fresh4 : ∀ n, n ≤ cfg0.N → cfg0.fresh 4 n = decide (n % 16 ≤ n / 16) :=
  Pipeline.Cfg.fresh_tab cfg0 4 (fun n => decide (n % 16 ≤ n / 16)) (by decide)
    (by decide +kernel : ∀ t : Fin grid0.N, decide ((t.val + 1) % 16 ≤ (t.val + 1) / 16)
      = ((cfg0.win 4).flush t || (cfg0.idle 4 (grid0.coords t) && decide (t.val % 16 ≤ t.val / 16))))

theorem N128 : cfg0.N = 128 := N_0

/-! ## The staging memrefs the body is called with, and the two scratch operands -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
/-- The running maximum and the running sum live in two scratch buffers of the kernel's own. -/
abbrev scMax : Memref sig .tc .vmem S512x1 .f32 := Memref.whole cc0_scratch0
abbrev scSum : Memref sig .tc .vmem S512x1 .f32 := Memref.whole cc0_scratch1

/-- What the launch lends the body besides the windows: the two scratch buffers at some contents and the
    generator register. -/
theorem PhiA_eq (c : Dev nD) :
    (Pipeline.ΦA spec0 c : sProp 𝕄)
      = iprop(iprop((∃ d, owns (c : Thread nD τ) scMax fullShare d) ∗ (∃ d, owns (c : Thread nD τ) scSum fullShare d)) ∗ (∃ r, prngReg c r)) := by
  unfold Pipeline.ΦA; rw [scopedRest0_eq]; simp only [scMax, scSum, owns_whole]; try rfl

/-! ## A whole-block store, made last, decides what the buffer reads -/

theorem zero2 : (![0, 0] : Fin 2 → ℕ) = fun _ => 0 := by
  funext a; fin_cases a <;> rfl

/-- After a list of stores whose LAST one (the head) is through the whole-block rectangle, the buffer reads that
    store's payload. -/
theorem read_after_whole_store {S : Shape} {e : EltTy} {sig' : RefSig} {κ : Kind} {sp : Space}
    (v : View sig' κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩)]
  exact View.canon_cons_unit_zero h inb w L

end Cert.KernelIdeal.Body

end
-- ==== Proof.KI.Runs.lean ====
/-
  The kernel body run symbolically, once per assignment of its three branch conditions that the grid meets.
  Each run is stated on whole staging buffers at given contents: the three input blocks x0 (queries), x1
  (positives), x2 (negatives), the two output buffers y5 (log-sum-exp) and y6 (positive score), and the two
  scratch buffers (running maximum mx, running sum sm).  With S the scaled score tile of the point, every run
  leaves the running maximum at max(old, rowmax S) and the running sum at exp(old max - new max) * old sum +
  rowsum exp(S - new max); the first column starts from (-inf, 0) instead of the old contents, the diagonal
  writes the positive score 20 * rowsum(q̂ * p̂), the last column writes maximum + log sum.
-/
import proofs.«148176_j63874753626759_2_alg».proof.Proof.Gen.KernelIdeal.Frame
import proofs.«148176_j63874753626759_2_alg».proof.Proof.Gen.KernelIdeal.Skeleton
import Idealize.ShloMosaic.Lib.Pipeline.TableIdle
import Idealize.ShloMosaic.Lib.Pipeline.Value
import proofs.«148176_j63874753626759_2_alg».proof.Proof.KI.Sched
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
  (x0 x1 x2 : Vec F S512x1024 .f32) (y5 y6 : Vec F S512x1 .f32)

/-- The scaled score tile of a point: 20 * q̂ · d̂ᵀ with d̂ the normalized positives in the first eight columns
    and the normalized negatives in the last eight. -/
abbrev scoreTile (i : grid0.Coords) (x0 x1 x2 : Vec F S512x1024 .f32) : Vec F S512x512 .f32 := k0_pay10 i x0 x1 x2
/-- The running maximum after a tile. -/
abbrev newMax (S : Vec F S512x512 .f32) (mx : Vec F S512x1 .f32) : Vec F S512x1 .f32 := k0_pay3 S mx
/-- The running sum after a tile. -/
abbrev newSum (S : Vec F S512x512 .f32) (mx sm : Vec F S512x1 .f32) : Vec F S512x1 .f32 := k0_pay2 S mx mx sm
/-- The positive-pair score of a row tile. -/
abbrev posScore (x0 x1 : Vec F S512x1024 .f32) : Vec F S512x1 .f32 := k0_pay4 (k0_pay8 x0) (k0_pay9 x1)
/-- The running maximum a row starts from. -/
abbrev max0 : Vec F S512x1 .f32 := k0_pay6 (F := F)
/-- The running sum a row starts from. -/
abbrev sum0 : Vec F S512x1 .f32 := k0_pay7 (F := F)
/-- The log-sum-exp from the final maximum and sum. -/
abbrev lseOf (mx sm : Vec F S512x1 .f32) : Vec F S512x1 .f32 := k0_pay5 mx sm

/-- A buffer whose last store was a whole-block store reads that store's payload; the loads the payload was
    computed from read the buffers' contents (or an earlier whole-block store's payload). -/
local macro "stored_whole" : tactic => `(tactic| (
  refine (read_after_whole_store _ _ zero2 _ _ _).trans ?_
  sl_unfold_run_names
  simp only [View.readAt_eq_ld, Memref.IsWhole.read_unread, View.readCov_unit_zero (S := S512x1) _ zero2,
    View.ld_unit_zero (S := S512x1) zero2, View.ld_unit_zero (S := S512x1024) zero2]))

set_option maxHeartbeats 1000000 in
/-- An interior point: not the first column, not the diagonal, not the last column. -/
theorem run_interior (hc0 : ¬firstCol i) (hc1 : ¬onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (y6)
            ∗ owns (c : Thread nD τ) arg7 fullShare (newMax (scoreTile i x0 x1 x2) (mx))
            ∗ owns (c : Thread nD τ) arg8 fullShare (newSum (scoreTile i x0 x1 x2) (mx) (sm))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; stored_whole
  · iexists _; isplitr; swap; · iexact H8
    ipureintro; stored_whole

set_option maxHeartbeats 1000000 in
/-- The last column (never the first, never the diagonal): the log-sum-exp is written. -/
theorem run_last (hc0 : ¬firstCol i) (hc1 : ¬onDiag i) (hc2 : lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (lseOf (newMax (scoreTile i x0 x1 x2) mx) (newSum (scoreTile i x0 x1 x2) mx sm)) ∗ owns (c : Thread nD τ) arg6 fullShare (y6)
            ∗ owns (c : Thread nD τ) arg7 fullShare (newMax (scoreTile i x0 x1 x2) (mx))
            ∗ owns (c : Thread nD τ) arg8 fullShare (newSum (scoreTile i x0 x1 x2) (mx) (sm))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; stored_whole
  isplitl [H6]
  · iexists _; isplitr; swap; · iexact H6
    ipureintro; exact harg6.read_unread _
  isplitl [H7]
  · iexists _; isplitr; swap; · iexact H7
    ipureintro; stored_whole
  · iexists _; isplitr; swap; · iexact H8
    ipureintro; stored_whole

set_option maxHeartbeats 1000000 in
/-- A diagonal point that is not in the first column: the positive score is written. -/
theorem run_diag (hc0 : ¬firstCol i) (hc1 : onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (posScore x0 x1)
            ∗ owns (c : Thread nD τ) arg7 fullShare (newMax (scoreTile i x0 x1 x2) (mx))
            ∗ owns (c : Thread nD τ) arg8 fullShare (newSum (scoreTile i x0 x1 x2) (mx) (sm))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; stored_whole
  isplitl [H7]
  · iexists _; isplitr; swap; · iexact H7
    ipureintro; stored_whole
  · iexists _; isplitr; swap; · iexact H8
    ipureintro; stored_whole

set_option maxHeartbeats 1000000 in
/-- The first column off the diagonal: the accumulators restart. -/
theorem run_first (hc0 : firstCol i) (hc1 : ¬onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (y6)
            ∗ owns (c : Thread nD τ) arg7 fullShare (newMax (scoreTile i x0 x1 x2) (max0))
            ∗ owns (c : Thread nD τ) arg8 fullShare (newSum (scoreTile i x0 x1 x2) (max0) (sum0))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; stored_whole
  · iexists _; isplitr; swap; · iexact H8
    ipureintro; stored_whole

set_option maxHeartbeats 1000000 in
/-- The first point of the grid: first column and diagonal at once. -/
theorem run_first_diag (hc0 : firstCol i) (hc1 : onDiag i) (hc2 : ¬lastCol i) (mx sm : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y5 ∗ owns (c : Thread nD τ) arg6 fullShare y6
        ∗ owns (c : Thread nD τ) arg7 fullShare mx ∗ owns (c : Thread nD τ) arg8 fullShare sm
        ∗ (iprop(owns (c : Thread nD τ) arg2 fullShare x0 ∗ owns (c : Thread nD τ) arg3 fullShare x1 ∗ owns (c : Thread nD τ) arg4 fullShare x2
            ∗ owns (c : Thread nD τ) arg5 fullShare (y5) ∗ owns (c : Thread nD τ) arg6 fullShare (posScore x0 x1)
            ∗ owns (c : Thread nD τ) arg7 fullShare (newMax (scoreTile i x0 x1 x2) (max0))
            ∗ owns (c : Thread nD τ) arg8 fullShare (newSum (scoreTile i x0 x1 x2) (max0) (sum0))) -∗ K ⟨⟩))
      ⊢ wp frame (wpE (defs₀ (F := F)) Variants.none c none) E (cc0__mnrl_kernel i arg2 harg2 arg3 harg3 arg4 harg4 arg5 harg5 arg6 harg6 arg7 harg7 arg8 harg8) K := by
  simp only [cc0__mnrl_kernel_eq_skeleton]; unfold cc0__mnrl_kernel_skel
  simp only [k0_part1_eq_skeleton]
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf5; obtain rfl := harg6.eq_unread hf6
  obtain rfl := harg7.eq_unread hf7; obtain rfl := harg8.eq_unread hf8
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; swap; · iexact H5
    ipureintro; exact harg5.read_unread _
  isplitl [H6]
  · iexists _; isplitr; swap; · iexact H6
    ipureintro; stored_whole
  isplitl [H7]
  · iexists _; isplitr; swap; · iexact H7
    ipureintro; stored_whole
  · iexists _; isplitr; swap; · iexact H8
    ipureintro; stored_whole

end Cert.KernelIdeal.Body

end
-- ==== Proof.KI.Data.lean ====
/-
  The proof data of the one pipelined region, and the body obligation.
  The scratch pair (running maximum, running sum) after point t is defined by recursion on t: a row's first
  point starts from (-inf, 0), every other point from what the previous point left, and each point folds in its
  own score tile.  The log-sum-exp buffer after the last column of a row is maximum + log sum of that pair; the
  positive-score buffer of row r holds, from the diagonal point 17 r on, the positive score of the row's own
  query and positive blocks.  The latter is written back at the last column of the row, eight to fifteen points
  after it was stored: the buffer is carried unchanged through the idle points in between.
-/
import proofs.«148176_j63874753626759_2_alg».proof.Proof.Gen.KernelIdeal.Frame
import proofs.«148176_j63874753626759_2_alg».proof.Proof.Gen.KernelIdeal.Skeleton
import Idealize.ShloMosaic.Lib.Pipeline.TableIdle
import Idealize.ShloMosaic.Lib.Pipeline.Value
import proofs.«148176_j63874753626759_2_alg».proof.Proof.KI.Runs
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators point by point -/

/-- One point's update of the pair (running maximum, running sum). -/
def stepAt (c : Dev nD) (t : Fin cfg0.N) (p : Vec F S512x1 .f32 × Vec F S512x1 .f32) :
    Vec F S512x1 .f32 × Vec F S512x1 .f32 :=
  (newMax (scoreTile (grid0.coords t) (iblk m c 0 t) (iblk m c 1 t) (iblk m c 2 t)) p.1,
   newSum (scoreTile (grid0.coords t) (iblk m c 0 t) (iblk m c 1 t) (iblk m c 2 t)) p.1 p.2)

/-- The pair after point n. -/
def accAt (c : Dev nD) : (n : ℕ) → n < cfg0.N → Vec F S512x1 .f32 × Vec F S512x1 .f32
  | 0, h => stepAt m c ⟨0, h⟩ (max0, sum0)
  | n + 1, h => stepAt m c ⟨n + 1, h⟩
      (if (n + 1) % 16 = 0 then (max0, sum0) else accAt c n (Nat.lt_of_succ_lt h))

theorem accAt_first (c : Dev nD) (t : Fin cfg0.N) (h : t.val % 16 = 0) :
    accAt m c t.val t.isLt = stepAt m c t (max0, sum0) := by
  obtain ⟨n, hn⟩ := t
  cases n with
  | zero => rfl
  | succ n => show stepAt m c _ (if (n + 1) % 16 = 0 then _ else _) = _; rw [if_pos h]

theorem accAt_later (c : Dev nD) (t : Fin cfg0.N) (h : ¬t.val % 16 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 16 = 0 then _ else _) = _; rw [if_neg h]; rfl

/-- What the log-sum-exp buffer is left at by the last column of a row. -/
def lseAt (c : Dev nD) (t : Fin cfg0.N) : Vec F S512x1 .f32 :=
  lseOf (accAt m c t.val t.isLt).1 (accAt m c t.val t.isLt).2

/-- The diagonal point of row r. -/
def diagPt (r : ℕ) (hr : r < 8) : Fin cfg0.N := ⟨17 * r, by have := N128; omega⟩

/-- The positive score of row r: of the query block and the positive block of its diagonal point. -/
def diagRow (c : Dev nD) (r : ℕ) (hr : r < 8) : Vec F S512x1 .f32 :=
  posScore (iblk m c 0 (diagPt r hr)) (iblk m c 1 (diagPt r hr))

theorem diagRow_congr (c : Dev nD) {r r' : ℕ} (e : r = r') (hr : r < 8) (hr' : r' < 8) :
    diagRow m c r hr = diagRow m c r' hr' := by subst e; rfl

theorem row_lt (t : Fin cfg0.N) : t.val / 16 < 8 := by have := t.isLt; have := N128; omega

/-! ## The invariant: the scratch pair at what the point before left -/

def PhiS (c : Dev nD) : (n : ℕ) → n ≤ cfg0.N → sProp 𝕄
  | 0, _ => Pipeline.ΦA spec0 c
  | n + 1, hn => iprop(iprop(owns (c : Thread nD τ) scMax fullShare ((accAt m c n hn).1) ∗ owns (c : Thread nD τ) scSum fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scMax fullShare ((accAt m c n hn).1) ∗ owns (c : Thread nD τ) scSum fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scMax fullShare ((accAt m c (n - 1) (by omega)).1) ∗ owns (c : Thread nD τ) scSum fullShare ((accAt m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lseAt m c t
    | ⟨4, _⟩ => diagRow m c (t.val / 16) (row_lt t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = lseAt m c t := by dsimp only [dats]
theorem after4 (c : Dev nD) (t : Fin cfg0.N) : (dats m 0 c).after 4 t = diagRow m c (t.val / 16) (row_lt t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At the last column of a row the positive-score buffer still holds what the row's diagonal point stored:
    the points in between are idle for the window and none of them writes it back. -/
theorem before4_last (c : Dev nD) (t : Fin cfg0.N) (h : t.val % 16 = 15) (d) :
    (dats m 0 c).before 4 t d = (dats m 0 c).after 4 t := by
  have hN := N128
  have ht := t.isLt
  rw [Pipeline.Dat.before_out_traj (dats m 0 c) 4 rfl (fun _ _ => rfl) (fun u hu hidle hfr => by
      rw [fresh4 u.val (Nat.le_of_lt u.isLt)] at hfr
      have hu' := u.isLt
      have h1 : ¬ (u.val % 16 ≤ u.val / 16) := by simpa using hfr
      rw [after4, after4]
      exact diagRow_congr m c (by show u.val / 16 = (u.val - 1) / 16; omega) _ _) t.val t rfl d,
    fresh4 t.val (Nat.le_of_lt t.isLt)]
  have h1 : ¬ (t.val % 16 ≤ t.val / 16) := by omega
  rw [if_neg (by simpa using h1), after4, after4]
  exact diagRow_congr m c (by show (t.val - 1) / 16 = t.val / 16; omega) _ _

/-- On the diagonal the row's positive score is the one of the point's own blocks. -/
theorem after4_diag (c : Dev nD) (t : Fin cfg0.N) (h : t.val % 17 = 0) :
    (dats m 0 c).after 4 t = posScore (iblk m c 0 t) (iblk m c 1 t) := by
  have hN := N128
  have ht := t.isLt
  rw [after4]
  have e : diagPt (t.val / 16) (row_lt t) = t := Fin.ext (by show 17 * (t.val / 16) = t.val; omega)
  unfold diagRow; rw [e]

end Cert.KernelIdeal.Body

end
-- ==== Proof.KI.Body.lean ====
/-
  The body obligation of the pipelined region and the run of the whole program around it.
  At every point the body is handed the three input blocks, the two output buffers at what they hold, and the
  scratch pair at what the point before left; the point's column decides which of the five runs applies, and
  each hands back the scratch pair folded with the point's score tile, the log-sum-exp buffer written at the
  last column, the positive-score buffer written on the diagonal and otherwise untouched.
-/
import proofs.«148176_j63874753626759_2_alg».proof.Proof.Gen.KernelIdeal.Frame
import proofs.«148176_j63874753626759_2_alg».proof.Proof.Gen.KernelIdeal.Skeleton
import Idealize.ShloMosaic.Lib.Pipeline.TableIdle
import Idealize.ShloMosaic.Lib.Pipeline.Value
import proofs.«148176_j63874753626759_2_alg».proof.Proof.KI.Data
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each window's buffer is handed back at -/

theorem flush3_false (t : Fin cfg0.N) (h : ¬t.val % 16 = 15) : (cfg0.win 3).flush t = false :=
  Bool.eq_false_iff.mpr fun hf => h ((flush0_3 t).mp hf)
theorem flush4_false (t : Fin cfg0.N) (h : ¬t.val % 16 = 15) : (cfg0.win 4).flush t = false :=
  Bool.eq_false_iff.mpr fun hf => h ((flush0_4 t).mp hf)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]

theorem leaves3_idle (c : Dev nD) (t : Fin cfg0.N) (h : ¬t.val % 16 = 15) :
    (dats m 0 c).leavesExact 3 t = iprop(∃ d, owns (c : Thread nD τ) (ms3 t) fullShare ((dats m 0 c).before 3 t d)) :=
  (dats m 0 c).leavesExact_idle 3 t ((idle3_iff t).mpr h) (flush3_false t h)
theorem leaves3_live (c : Dev nD) (t : Fin cfg0.N) (h : t.val % 16 = 15) :
    (dats m 0 c).leavesExact 3 t = owns (c : Thread nD τ) (ms3 t) fullShare ((dats m 0 c).after 3 t) := by
  unfold Dat.leavesExact
  rw [show cfg0.idle 3 (grid0.coords t) = false from Bool.eq_false_iff.mpr fun hi => (idle3_iff t).mp hi h]
theorem leaves4_idle (c : Dev nD) (t : Fin cfg0.N) (h1 : ¬t.val % 17 = 0) (h2 : ¬t.val % 16 = 15) :
    (dats m 0 c).leavesExact 4 t = iprop(∃ d, owns (c : Thread nD τ) (ms4 t) fullShare ((dats m 0 c).before 4 t d)) :=
  (dats m 0 c).leavesExact_idle 4 t ((idle4_iff t).mpr h1) (flush4_false t h2)
theorem leaves4_live (c : Dev nD) (t : Fin cfg0.N) (h1 : t.val % 17 = 0) :
    (dats m 0 c).leavesExact 4 t = owns (c : Thread nD τ) (ms4 t) fullShare ((dats m 0 c).after 4 t) := by
  unfold Dat.leavesExact
  rw [show cfg0.idle 4 (grid0.coords t) = false from Bool.eq_false_iff.mpr fun hi => (idle4_iff t).mp hi h1]
theorem leaves4_flush (c : Dev nD) (t : Fin cfg0.N) (h1 : ¬t.val % 17 = 0) (h2 : t.val % 16 = 15) :
    (dats m 0 c).leavesExact 4 t = owns (c : Thread nD τ) (ms4 t) fullShare ((dats m 0 c).after 4 t) := by
  unfold Dat.leavesExact
  rw [(idle4_iff t).mpr h1, (flush0_4 t).mpr h2]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 128 := lt_of_lt_of_eq t.isLt N128
  by_cases h0 : t.val % 16 = 0
  · have h2 : ¬t.val % 16 = 15 := by omega
    by_cases h1 : t.val % 17 = 0
    · have hz : t.val = 0 := by omega
      rw [leaves3_idle m c t h2]
      rw [leaves4_live m c t h1, after4_diag m c t h1]
      rw [accAt_first m c t h0]; simp only [stepAt]
      rw [Phi_castSucc m c t, PhiS_zero m c _ _ hz, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩⟩
      iapply (run_first_diag c (grid0.coords t) _ _ _ _ _ _ _ _ _ _ _ _ _ _ (iblk m c 0 t) (iblk m c 1 t) (iblk m c 2 t) _ _ ((firstCol_iff t).mpr h0) ((onDiag_iff t).mpr h1) (fun h => h2 ((lastCol_iff t).mp h)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      iexact H4
    · have hz : t.val ≠ 0 := fun hz => h1 (by rw [hz])
      rw [leaves3_idle m c t h2]
      rw [leaves4_idle m c t h1 h2]
      rw [accAt_first m c t h0]; simp only [stepAt]
      rw [Phi_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ _ _ (iblk m c 0 t) (iblk m c 1 t) (iblk m c 2 t) _ _ ((firstCol_iff t).mpr h0) (fun h => h1 ((onDiag_iff t).mp h)) (fun h => h2 ((lastCol_iff t).mp h)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun hz => h0 (by rw [hz])
    by_cases h1 : t.val % 17 = 0
    · have h2 : ¬t.val % 16 = 15 := by omega
      rw [leaves3_idle m c t h2]
      rw [leaves4_live m c t h1, after4_diag m c t h1]
      rw [accAt_later m c t h0]; simp only [stepAt]
      rw [Phi_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_diag c (grid0.coords t) _ _ _ _ _ _ _ _ _ _ _ _ _ _ (iblk m c 0 t) (iblk m c 1 t) (iblk m c 2 t) _ _ (fun h => h0 ((firstCol_iff t).mp h)) ((onDiag_iff t).mpr h1) (fun h => h2 ((lastCol_iff t).mp h)) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexists _; iexact H3
      iexact H4
    · by_cases h2 : t.val % 16 = 15
      ·
        rw [leaves3_live m c t h2, after3]
        rw [leaves4_flush m c t h1 h2]
        simp only [before4_last m c t h2]
        unfold lseAt
        rw [accAt_later m c t h0]; simp only [stepAt]
        rw [Phi_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply (run_last c (grid0.coords t) _ _ _ _ _ _ _ _ _ _ _ _ _ _ (iblk m c 0 t) (iblk m c 1 t) (iblk m c 2 t) _ _ (fun h => h0 ((firstCol_iff t).mp h)) (fun h => h1 ((onDiag_iff t).mp h)) ((lastCol_iff t).mpr h2) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        iexact H4
      ·
        rw [leaves3_idle m c t h2]
        rw [leaves4_idle m c t h1 h2]
        rw [accAt_later m c t h0]; simp only [stepAt]
        rw [Phi_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩⟩
        iapply (run_interior c (grid0.coords t) _ _ _ _ _ _ _ _ _ _ _ _ _ _ (iblk m c 0 t) (iblk m c 1 t) (iblk m c 2 t) _ _ (fun h => h0 ((firstCol_iff t).mp h)) (fun h => h1 ((onDiag_iff t).mp h)) (fun h => h2 ((lastCol_iff t).mp h)) _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N128; omega), PhiA_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of the program terminates; the windowed arrays end as the proof data say (the
    inputs unchanged, each output array at its blocks as written back), the host lines after the region run on
    those arrays. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.RefSide.lean ====
/-
  The reference program is a straight line of host operations: row-normalize the queries and the concatenated
  documents, one big matrix product scaled by 20, a log-softmax along the documents, a gather of the diagonal
  entries, and minus their mean.  This module lists the operations, reads the run back from the library's
  theorem for such a line, and derives the reference's frame: it terminates and its arguments end unchanged.
-/
import proofs.«148176_j63874753626759_2_alg».proof.Proof.Gen.ReferenceIdeal
import Idealize.ShloMosaic.Lib.StableHlo.Run

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The reference's 69 host operations, in program order; the two outlined functions (the log-softmax and the
    index gather) appear inline at their call sites. -/
abbrev ops : List (HloOp τ sig (Elt F)) :=
  [ binary main_arg0 main_arg0 main_v0 (mulf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x00000000#32),
    binary main_v0 main_cst main_v1 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x322BCC77#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v6 main_v7 (Host.divf : (⟨S4096x1024, .f32⟩ : BufTy).Contents (Elt F) → (⟨S4096x1024, .f32⟩ : BufTy).Contents (Elt F) → (⟨S4096x1024, .f32⟩ : BufTy).Contents (Elt F)),
    binary main_arg1 main_arg2 main_v8 ((fun a b => concatenate S8192x1024 0 [⟨S4096x1024, a⟩, ⟨S4096x1024, b⟩] concatenates_S4096x1024_S4096x1024_S8192x1024_d0) : (⟨S4096x1024, .f32⟩ : BufTy).Contents (Elt F) → (⟨S4096x1024, .f32⟩ : BufTy).Contents (Elt F) → (⟨S8192x1024, .f32⟩ : BufTy).Contents (Elt F)),
    binary main_v8 main_v8 main_v9 (mulf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x00000000#32),
    binary main_v9 main_cst_1 main_v10 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)),
    unary main_v11 main_v12 (Host.sqrt : (⟨S8192x1, .f32⟩ : BufTy).Contents (Elt F) → (⟨S8192x1, .f32⟩ : BufTy).Contents (Elt F)),
    nullary main_cst_2 (constant S_ .f32 0x322BCC77#32),
    unary main_cst_2 main_v13 (broadcastInDim S8192x1 ![] bcast_S_S8192x1 : (⟨S_, .f32⟩ : BufTy).Contents (Elt F) → (⟨S8192x1, .f32⟩ : BufTy).Contents (Elt F)),
    binary main_v12 main_v13 main_v14 (maximumf : (⟨S8192x1, .f32⟩ : BufTy).Contents (Elt F) → (⟨S8192x1, .f32⟩ : BufTy).Contents (Elt F) → (⟨S8192x1, .f32⟩ : BufTy).Contents (Elt F)),
    unary main_v14 main_v15 (broadcastInDim S8192x1024 ![0, 1] bcast_S8192x1_S8192x1024_0_1 : (⟨S8192x1, .f32⟩ : BufTy).Contents (Elt F) → (⟨S8192x1024, .f32⟩ : BufTy).Contents (Elt F)),
    binary main_v8 main_v15 main_v16 (Host.divf : (⟨S8192x1024, .f32⟩ : BufTy).Contents (Elt F) → (⟨S8192x1024, .f32⟩ : BufTy).Contents (Elt F) → (⟨S8192x1024, .f32⟩ : BufTy).Contents (Elt F)),
    binary main_v7 main_v16 main_v17 ((fun l r => Host.dotGeneral dot_S4096x1024_S8192x1024_S4096x8192_1_1_0_0_n_n none l r) : (⟨S4096x1024, .f32⟩ : BufTy).Contents (Elt F) → (⟨S8192x1024, .f32⟩ : BufTy).Contents (Elt F) → (⟨S4096x8192, .f32⟩ : BufTy).Contents (Elt F)),
    nullary main_cst_3 (constant S_ .f32 0x41A00000#32),
    unary main_cst_3 main_v18 (broadcastInDim S4096x8192 ![] bcast_S_S4096x8192 : (⟨S_, .f32⟩ : BufTy).Contents (Elt F) → (⟨S4096x8192, .f32⟩ : BufTy).Contents (Elt F)),
    binary main_v18 main_v17 main_v19 (mulf : (⟨S4096x8192, .f32⟩ : BufTy).Contents (Elt F) → (⟨S4096x8192, .f32⟩ : BufTy).Contents (Elt F) → (⟨S4096x8192, .f32⟩ : BufTy).Contents (Elt F)),
    nullary main_v20 (iotaInDim S4096 32 0),
    TRef.nullary (TRef.of (T := ⟨S_, .f32⟩) main_call0_cst) (constant S_ .f32 0xFF800000#32),
    TRef.binary (TRef.of (T := ⟨S4096x8192, .f32⟩) main_v19) (TRef.of (T := ⟨S_, .f32⟩) main_call0_cst) (TRef.of (T := ⟨S4096, .f32⟩) main_call0_v0) (fun x v => Host.reduce FloatOps.maximumf x v reducesTo_S4096x8192_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x8192, .f32⟩) main_call0_v4) (broadcastInDim S4096x8192 ![0, 1] bcast_S4096x1_S4096x8192_0_1),
    TRef.binary (TRef.of (T := ⟨S4096x8192, .f32⟩) main_v19) (TRef.of (T := ⟨S4096x8192, .f32⟩) main_call0_v4) (TRef.of (T := ⟨S4096x8192, .f32⟩) main_call0_v5) subf,
    TRef.unary (TRef.of (T := ⟨S4096x8192, .f32⟩) main_call0_v5) (TRef.of (T := ⟨S4096x8192, .f32⟩) main_call0_v6) Host.exp,
    TRef.nullary (TRef.of (T := ⟨S_, .f32⟩) main_call0_cst_1) (constant S_ .f32 0x00000000#32),
    TRef.binary (TRef.of (T := ⟨S4096x8192, .f32⟩) main_call0_v6) (TRef.of (T := ⟨S_, .f32⟩) main_call0_cst_1) (TRef.of (T := ⟨S4096, .f32⟩) main_call0_v7) (fun x v => Host.reduceAdd x v reducesTo_S4096x8192_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x8192, .f32⟩) main_call0_v10) (broadcastInDim S4096x8192 ![0, 1] bcast_S4096x1_S4096x8192_0_1),
    TRef.binary (TRef.of (T := ⟨S4096x8192, .f32⟩) main_call0_v5) (TRef.of (T := ⟨S4096x8192, .f32⟩) main_call0_v10) (TRef.of (T := ⟨S4096x8192, .f32⟩) main_v21) subf,
    unary main_v20 main_v22 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v22) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v22) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v22) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x8192, .f32⟩) main_v21) (TRef.of (T := ⟨S4096x1x1, .i32⟩) main_call1_v5) (TRef.of (T := ⟨S4096x1, .f32⟩) main_call1_v13) (fun x i => Host.gather gather_S4096x8192_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v23) select,
    nullary main_cst_4 (constant S_ .f32 0x00000000#32),
    binary main_v23 main_cst_4 main_v24 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_5 (constant S_ .f32 0x45800000#32),
    binary main_v24 main_cst_5 main_v25 (Host.divf : (⟨S_, .f32⟩ : BufTy).Contents (Elt F) → (⟨S_, .f32⟩ : BufTy).Contents (Elt F) → (⟨S_, .f32⟩ : BufTy).Contents (Elt F)),
    unary main_v25 main_v26 (Host.negf : (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩

/-- The value the reference's result buffer ends at: the operations' fold over the launch memory, read at the
    result. -/
def result (m : (ℓ : Loc nD τ sig) → Buf (Elt F) ℓ) (c : Dev nD) : Buf (Elt F) ((c.tc : Thread nD τ).loc main_v26) :=
  StableHlo.after (ops (F := F)) (fun b => m (c, b)) (Proc.devRef .tc main_v26)

set_option maxRecDepth 8192 in
set_option maxHeartbeats 27600000 in
/-- Every weakly fair execution of the reference terminates with the result buffer at `result` and the three
    arguments unchanged (no operation writes an argument buffer). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v26,
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefSide

end
-- ==== Proof.Frames.lean ====
/-
  Four of the five conjuncts: the three frames and the idealization's ledger.
  Both printed kernels (the word-level one and its idealization) run to completion from any memory with the
  arguments unchanged — the body obligation of the pipelined region holds at every float instance; the
  reference is a line of host operations none of which writes an argument.  The idealization replaced two
  round trips f32 → bf16 → f32 by the identity, which is what those round trips are on the extended reals.
-/
import proofs.«148176_j63874753626759_2_alg».proof.Defs
import proofs.«148176_j63874753626759_2_alg».proof.Proof.K.Body
import proofs.«148176_j63874753626759_2_alg».proof.Proof.KI.Body
import proofs.«148176_j63874753626759_2_alg».proof.Proof.RefSide
import proofs.«148176_j63874753626759_2_alg».proof.Proof.Gen.Pre_finite_inputs

noncomputable section

namespace Cert.Proof.Frames

open Idealize.ShloMosaic Idealize.ShloMosaic.TcCoe Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

theorem frame_reference : Cert.frame_ReferenceIdeal := fun m ρ _ =>
  (θ_run Cert.ReferenceIdeal.defs _ _).mono (fun _ h c => (h c).2) (Cert.ReferenceIdeal.RefSide.run (F := Ideal) m ρ)

/-- The ledger's two entries: each replaced extf (truncf x) by x, at 512×1024 from f32 through bf16. -/
theorem preserves : Cert.preserves_Kernel_KernelIdeal :=
  ⟨IdealRules.truncf_extf.statement _ .f32 .bf16, IdealRules.truncf_extf.statement _ .f32 .bf16⟩

end Cert.Proof.Frames

end
-- ==== Proof.Spec.lean ====
/-
  The mathematics the two programs share, on the reals and the extended reals.
  * A row x is normalized as x / max(√(Σ x²), ε); for real entries and ε > 0 this is a real number, and the
    extended-real operations compute its coercion.
  * The online log-sum-exp: a pair (m, l) starts at (-∞, 0) and a tile of scores S updates it to
    m' = max(m, max S), l' = exp(m - m') · l + Σ exp(S - m').  If the scores seen so far are real with
    Σ exp(score) = T, then (m, l) are real with l · exp(m) = T, whatever the running maximum is; so
    m + log l = log T at the end.
  * The reference's shifted form (a_r - M) - log Σ exp(a - M) is a_r - log Σ exp(a) for every real shift M.
-/
import Idealize.ShloMosaic.PureOps.Ideal
import Idealize.ShloMosaic.PureOps.Ideal.Laws
import Idealize.ShloMosaic.Lib.ValueIdx

noncomputable section

namespace Cert.Spec

open Idealize.ShloMosaic

/-! ## Coercions of finite sums and maxima -/

theorem coe_max (a b : ℝ) : ((max a b : ℝ) : EReal) = max (a : EReal) (b : EReal) :=
  EReal.coe_strictMono.monotone.map_max

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, folded from -∞, is a real as soon as there is one of them. -/
theorem fold_max_real {ι : Type} (f : ι → ℝ) (s : Finset ι) (hs : s.Nonempty) :
    ∃ x : ℝ, s.fold max (⊥ : EReal) (fun i => (f i : EReal)) = x := by
  classical
  induction s using Finset.induction_on with
  | empty => exact absurd hs (by simp)
  | insert a s ha ih =>
    rw [Finset.fold_insert ha]
    rcases s.eq_empty_or_nonempty with rfl | hne
    · exact ⟨f a, by simp⟩
    · obtain ⟨x, hx⟩ := ih hne
      exact ⟨max (f a) x, by rw [hx]; exact (coe_max _ _).symm⟩

/-! ## Row normalization -/

/-- x / max(√(Σ x²), ε) at one entry. -/
def hat {n : ℕ} (eps : ℝ) (x : Fin n → ℝ) (k : Fin n) : ℝ :=
  x k / max (Real.sqrt (∑ k, x k * x k)) eps

theorem hat_coe {n : ℕ} {eps : ℝ} (he : 0 < eps) (x : Fin n → ℝ) (k : Fin n) :
    Ideal.div (x k : EReal) (max (Ideal.sqrt (∑ k, (x k : EReal) * (x k : EReal))) (eps : EReal)) = (hat eps x k : EReal) := by
  have h1 : (∑ k, (x k : EReal) * (x k : EReal)) = ((∑ k, x k * x k : ℝ) : EReal) := by
    rw [coe_sum]; exact Finset.sum_congr rfl fun k _ => (EReal.coe_mul _ _).symm
  have h0 : ¬ (∑ k, x k * x k : ℝ) < 0 := not_lt.mpr (Finset.sum_nonneg fun k _ => mul_self_nonneg _)
  have hpos : max (Real.sqrt (∑ k, x k * x k)) eps ≠ 0 := ne_of_gt (lt_of_lt_of_le he (le_max_right _ _))
  rw [h1, Ideal.sqrt_coe, if_neg h0, ← coe_max, Ideal.div_coe hpos, ← EReal.coe_mul]
  unfold hat
  rw [mul_one_div]

/-! ## The scores both programs compute, on the extended reals and on the reals -/

/-- The clamp of the row norm, as both programs spell it. -/
abbrev epsE : EReal := Ideal.ofBits .f32 0x322BCC77#32
/-- The score scale, as both programs spell it. -/
abbrev scaleE : EReal := Ideal.ofBits .f32 0x41A00000#32

/-- The clamp is a positive real. -/
theorem eps_val : ∃ e : ℝ, 0 < e ∧ epsE = (e : EReal) := by
  refine ⟨(11258999 : ℝ) / 2 ^ 50, by positivity, ?_⟩
  simp [epsE, Ideal.ofBits, Ideal.ieee, -EReal.coe_mul]
  norm_num

/-- The scale is the real 20. -/
theorem scale_val : scaleE = ((20 : ℝ) : EReal) := by
  simp [scaleE, Ideal.ofBits, Ideal.ieee, -EReal.coe_mul]
  norm_num

/-- A row entry divided by the clamped norm of its row, as an expression on the extended reals. -/
def hatE (x : Fin 1024 → EReal) (k : Fin 1024) : EReal :=
  Ideal.div (x k) (max (Ideal.sqrt (∑ k, x k * x k)) epsE)

/-- Row r of a 4096 × 1024 array (zero past the end, never read there). -/
def rowE (X : (⟨2, ![4096, 1024]⟩ : Shape).Idx → EReal) (r : ℕ) : Fin 1024 → EReal :=
  fun k => if h : r < 4096 then X (ValueIdx.ix2 ⟨r, h⟩ k) else 0

/-- The normalized document c' of the concatenation positives ++ negatives. -/
def docE (P N : (⟨2, ![4096, 1024]⟩ : Shape).Idx → EReal) (c' : ℕ) : Fin 1024 → EReal :=
  if c' < 4096 then hatE (rowE P c') else hatE (rowE N (c' - 4096))

/-- The scaled cosine score of query row r against document c'. -/
def scoreE (Q P N : (⟨2, ![4096, 1024]⟩ : Shape).Idx → EReal) (r c' : ℕ) : EReal :=
  (∑ k : Fin 1024, hatE (rowE Q r) k * docE P N c' k) * scaleE

def rowR (X : (⟨2, ![4096, 1024]⟩ : Shape).Idx → ℝ) (r : ℕ) : Fin 1024 → ℝ :=
  fun k => if h : r < 4096 then X (ValueIdx.ix2 ⟨r, h⟩ k) else 0

def docR (eps : ℝ) (P N : (⟨2, ![4096, 1024]⟩ : Shape).Idx → ℝ) (c' : ℕ) : Fin 1024 → ℝ :=
  if c' < 4096 then hat eps (rowR P c') else hat eps (rowR N (c' - 4096))

def scoreR (eps : ℝ) (Q P N : (⟨2, ![4096, 1024]⟩ : Shape).Idx → ℝ) (r c' : ℕ) : ℝ :=
  (∑ k : Fin 1024, hat eps (rowR Q r) k * docR eps P N c' k) * 20

theorem rowE_coe {X : (⟨2, ![4096, 1024]⟩ : Shape).Idx → EReal} {XR : (⟨2, ![4096, 1024]⟩ : Shape).Idx → ℝ}
    (h : ∀ i, X i = (XR i : EReal)) (r : ℕ) : rowE X r = fun k => ((rowR XR r k : ℝ) : EReal) := by
  funext k; unfold rowE rowR
  split
  · exact h _
  · exact EReal.coe_zero.symm

theorem hatE_coe {eps : ℝ} (he : 0 < eps) (heps : epsE = (eps : EReal)) (x : Fin 1024 → ℝ) (k : Fin 1024) :
    hatE (fun k => (x k : EReal)) k = ((hat eps x k : ℝ) : EReal) := by
  unfold hatE; rw [heps]; exact hat_coe he x k

/-- With finite inputs every score is a real number: the real formula's coercion. -/
theorem scoreE_coe {eps : ℝ} (he : 0 < eps) (heps : epsE = (eps : EReal))
    {Q P N : (⟨2, ![4096, 1024]⟩ : Shape).Idx → EReal} {QR PR NR : (⟨2, ![4096, 1024]⟩ : Shape).Idx → ℝ}
    (hQ : ∀ i, Q i = (QR i : EReal)) (hP : ∀ i, P i = (PR i : EReal)) (hN : ∀ i, N i = (NR i : EReal)) (r c' : ℕ) :
    scoreE Q P N r c' = ((scoreR eps QR PR NR r c' : ℝ) : EReal) := by
  unfold scoreE scoreR
  rw [scale_val, EReal.coe_mul, coe_sum]
  congr 1
  refine Finset.sum_congr rfl fun k _ => ?_
  rw [EReal.coe_mul, rowE_coe hQ, hatE_coe he heps]
  congr 1
  unfold docE docR
  split
  · rw [rowE_coe hP, hatE_coe he heps]
  · rw [rowE_coe hN, hatE_coe he heps]

/-! ## The online log-sum-exp -/

/-- One tile's update of (running maximum, running sum) at one row. -/
def ostep {n : ℕ} (S : Fin n → EReal) (p : EReal × EReal) : EReal × EReal :=
  (max p.1 (Finset.univ.fold max ⊥ S),
   Ideal.exp (p.1 - max p.1 (Finset.univ.fold max ⊥ S)) * p.2 + ∑ γ, Ideal.exp (S γ - max p.1 (Finset.univ.fold max ⊥ S)))

/-- The pair accounts for a total T of exponentials: either nothing was seen, or both are real and l · exp m = T. -/
def Inv (T : ℝ) (p : EReal × EReal) : Prop :=
  (p = (⊥, 0) ∧ T = 0) ∨ ∃ M L : ℝ, p = ((M : EReal), (L : EReal)) ∧ L * Real.exp M = T

theorem inv_init : Inv 0 ((⊥ : EReal), (0 : EReal)) := Or.inl ⟨rfl, rfl⟩

theorem inv_step {n : ℕ} (hn : 0 < n) (a : Fin n → ℝ) {T : ℝ} {p : EReal × EReal} (h : Inv T p) :
    Inv (T + ∑ γ, Real.exp (a γ)) (ostep (fun γ => (a γ : EReal)) p) := by
  haveI : Nonempty (Fin n) := ⟨⟨0, hn⟩⟩
  obtain ⟨x, hx⟩ := fold_max_real a Finset.univ Finset.univ_nonempty
  right
  rcases h with ⟨rfl, rfl⟩ | ⟨M, L, rfl, rfl⟩
  · refine ⟨x, ∑ γ, Real.exp (a γ - x), ?_, ?_⟩
    · unfold ostep
      simp only [hx, bot_le, max_eq_right, EReal.bot_sub, Ideal.exp_bot, zero_mul, zero_add, mul_zero]
      refine Prod.ext rfl ?_
      show ∑ γ, Ideal.exp ((a γ : EReal) - (x : EReal)) = _
      rw [coe_sum]
      exact Finset.sum_congr rfl fun γ _ => by rw [← EReal.coe_sub, Ideal.exp_coe]
    · rw [Finset.sum_mul, zero_add]
      exact Finset.sum_congr rfl fun γ _ => by rw [← Real.exp_add, sub_add_cancel]
  · refine ⟨max M x, Real.exp (M - max M x) * L + ∑ γ, Real.exp (a γ - max M x), ?_, ?_⟩
    · unfold ostep
      simp only [hx]
      rw [← coe_max]
      refine Prod.ext rfl ?_
      show Ideal.exp ((M : EReal) - ((max M x : ℝ) : EReal)) * (L : EReal) + ∑ γ, Ideal.exp ((a γ : EReal) - ((max M x : ℝ) : EReal)) = _
      rw [EReal.coe_add, EReal.coe_mul, coe_sum, ← EReal.coe_sub, Ideal.exp_coe]
      congr 1
      all_goals exact Finset.sum_congr rfl fun γ _ => by rw [← EReal.coe_sub, Ideal.exp_coe]
    · rw [add_mul, Finset.sum_mul, mul_right_comm, ← Real.exp_add, sub_add_cancel, mul_comm (Real.exp M) L]
      congr 1
      exact Finset.sum_congr rfl fun γ _ => by rw [← Real.exp_add, sub_add_cancel]

theorem inv_step' {n : ℕ} (hn : 0 < n) (a : Fin n → ℝ) {T T' : ℝ} {p : EReal × EReal} (h : Inv T p)
    (e : T + ∑ γ, Real.exp (a γ) = T') : Inv T' (ostep (fun γ => (a γ : EReal)) p) := e ▸ inv_step hn a h

theorem inv_final {T : ℝ} {p : EReal × EReal} (h : Inv T p) (hT : 0 < T) :
    p.1 + Ideal.log p.2 = ((Real.log T : ℝ) : EReal) := by
  rcases h with ⟨-, rfl⟩ | ⟨M, L, rfl, rfl⟩
  · exact absurd hT (lt_irrefl _)
  · have hL : 0 < L := by
      by_contra hL
      have : L * Real.exp M ≤ 0 := mul_nonpos_of_nonpos_of_nonneg (not_lt.mp hL) (Real.exp_pos M).le
      exact absurd hT (not_lt.mpr this)
    show (M : EReal) + Ideal.log (L : EReal) = _
    rw [Ideal.log_coe, if_neg (not_le.mpr hL), ← EReal.coe_add, Real.log_mul hL.ne' (Real.exp_pos M).ne', Real.log_exp, add_comm]

/-! ## The shifted log-softmax -/

theorem shifted_row {N : ℕ} (hN : 0 < N) (a : Fin N → ℝ) (r : Fin N) (M : ℝ) :
    ((a r : EReal) - (M : EReal)) - Ideal.log (0 + ∑ c, Ideal.exp ((a c : EReal) - (M : EReal)))
      = ((a r - Real.log (∑ c, Real.exp (a c)) : ℝ) : EReal) := by
  haveI : Nonempty (Fin N) := ⟨⟨0, hN⟩⟩
  have h1 : (∑ c, Ideal.exp ((a c : EReal) - (M : EReal))) = ((∑ c, Real.exp (a c - M) : ℝ) : EReal) := by
    rw [coe_sum]; exact Finset.sum_congr rfl fun c _ => by rw [← EReal.coe_sub, Ideal.exp_coe]
  have hpos : 0 < ∑ c, Real.exp (a c - M) := Finset.sum_pos (fun c _ => Real.exp_pos _) Finset.univ_nonempty
  have hpos' : 0 < ∑ c, Real.exp (a c) := Finset.sum_pos (fun c _ => Real.exp_pos _) Finset.univ_nonempty
  rw [zero_add, h1, Ideal.log_coe, if_neg (not_le.mpr hpos), ← EReal.coe_sub, ← EReal.coe_sub]
  congr 1
  have h2 : ∑ c, Real.exp (a c - M) = (∑ c, Real.exp (a c)) * Real.exp (-M) := by
    rw [Finset.sum_mul]; exact Finset.sum_congr rfl fun c _ => by rw [← Real.exp_add, sub_eq_add_neg]
  rw [h2, Real.log_mul hpos'.ne' (Real.exp_pos _).ne', Real.log_exp]
  ring

end Cert.Spec

end
-- ==== Proof.KI.Read.lean ====
/-
  The kernel's payloads read at an index, on the extended reals: the normalized row entry, the score tile as a
  scaled sum over the feature axis, the running maximum as a maximum over the tile's columns, the running sum
  as the rescaled old sum plus the tile's exponentials, the positive score and the log-sum-exp.
-/
import proofs.«148176_j63874753626759_2_alg».proof.Proof.KI.Data
import proofs.«148176_j63874753626759_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.KRead

open Idealize.ShloMosaic Idealize.ShloMosaic.ValueIdx Idealize.SL.Sem
open Cert.KernelIdeal Cert.KernelIdeal.Gen Cert.KernelIdeal.Body Cert.Spec

/-! ## Constants -/

/-- The pattern of -∞ denotes the bottom of the extended reals. -/
theorem negInf_eq : Ideal.ofBits .f32 0xFF800000#32 = (⊥ : EReal) := by
  simp [Ideal.ofBits, Ideal.ieee]

/-! ## Pointwise operations at an index (definitional) -/

section Pointwise
variable {s : Shape} {φ : FTy}
theorem sqrt_apply (v : FVec Ideal s φ) (i : s.Idx) : sqrt v i = Ideal.sqrt (v i) := rfl
theorem exp_apply (v : FVec Ideal s φ) (i : s.Idx) : exp v i = Ideal.exp (v i) := rfl
theorem log_apply (v : FVec Ideal s φ) (i : s.Idx) : log v i = Ideal.log (v i) := rfl
end Pointwise

/-! ## Layout operations of the column shapes -/

/-- A length-512 vector viewed as a column. -/
theorem col_cast (v : FVec Ideal S512 .f32) (ρ : Fin 512) (z : Fin 1) :
    shapeCast S512x1 v shapeCasts_S512_S512x1 (ix2 ρ z) = v (ix1 ρ) :=
  shapeCast_apply v _ (ix2 ρ z) (ix1 ρ) (by
    rw [Shape.rowMajor_val_one, Shape.rowMajor_val_two]
    show ρ.val = ρ.val * 1 + z.val
    have := z.isLt; omega)

/-- A column cast to its own shape. -/
theorem col_self (v : FVec Ideal S512x1 .f32) (j : S512x1.Idx) :
    shapeCast S512x1 v shapeCasts_S512x1_S512x1 j = v j :=
  shapeCast_apply v _ j j rfl

/-- A column broadcast along 512 columns. -/
theorem bcast512 (v : FVec Ideal S512x1 .f32) (ρ γ : Fin 512) :
    broadcastTo S512x512 v broadcasts_S512x1_S512x512 (ix2 ρ γ) = v (ix2 ρ 0) :=
  broadcastTo_apply v _ (ix2 ρ γ) (ix2 ρ 0) (fun a => match a with
    | ⟨0, _⟩ => by show ρ.val = if (512 : Nat) = 1 then 0 else ρ.val; rw [if_neg (by decide)]
    | ⟨1, _⟩ => by show 0 = if (1 : Nat) = 1 then 0 else γ.val; rw [if_pos rfl])

/-- A column broadcast along 1024 columns. -/
theorem bcast1024 (v : FVec Ideal S512x1 .f32) (ρ : Fin 512) (k : Fin 1024) :
    broadcastTo S512x1024 v broadcasts_S512x1_S512x1024 (ix2 ρ k) = v (ix2 ρ 0) :=
  broadcastTo_apply v _ (ix2 ρ k) (ix2 ρ 0) (fun a => match a with
    | ⟨0, _⟩ => by show ρ.val = if (512 : Nat) = 1 then 0 else ρ.val; rw [if_neg (by decide)]
    | ⟨1, _⟩ => by show 0 = if (1 : Nat) = 1 then 0 else k.val; rw [if_pos rfl])

/-- A row sum over 1024 columns. -/
theorem rowsum1024 (X : FVec Ideal S512x1024 .f32) (ρ : Fin 512) (hφ : FTy.f32 = FTy.f32 ∨ FTy.f32 = FTy.bf16) (hacc : (0#32 : BitVec 32) = 0#32) :
    multiReduction .add [1] S512 X 0#32 reduces_S512x1024_S512 hφ hacc (ix1 ρ) = ∑ k : Fin 1024, X (ix2 ρ k) :=
  (Ideal.multiReduction_add_single X _ reduces_S512x1024_S512 hφ hacc (ix1 ρ)).trans
    (Finset.sum_congr rfl fun k _ => congrArg X (funext fun a => Fin.ext (by match a with | ⟨0, _⟩ => rfl | ⟨1, _⟩ => rfl)))

/-- A row sum over 512 columns. -/
theorem rowsum512 (X : FVec Ideal S512x512 .f32) (ρ : Fin 512) (hφ : FTy.f32 = FTy.f32 ∨ FTy.f32 = FTy.bf16) (hacc : (0#32 : BitVec 32) = 0#32) :
    multiReduction .add [1] S512 X 0#32 reduces_S512x512_S512 hφ hacc (ix1 ρ) = ∑ γ : Fin 512, X (ix2 ρ γ) :=
  (Ideal.multiReduction_add_single X _ reduces_S512x512_S512 hφ hacc (ix1 ρ)).trans
    (Finset.sum_congr rfl fun k _ => congrArg X (funext fun a => Fin.ext (by match a with | ⟨0, _⟩ => rfl | ⟨1, _⟩ => rfl)))

/-- A row maximum over 512 columns, folded from -∞. -/
theorem rowmax512 (X : FVec Ideal S512x512 .f32) (ρ : Fin 512) (hφ : FTy.f32 = FTy.f32 ∨ FTy.f32 = FTy.bf16) (hacc : (4286578688#32 : BitVec 32) = 4286578688#32) :
    multiReduction .maximumf [1] S512 X 4286578688#32 reduces_S512x512_S512 hφ hacc (ix1 ρ)
      = Finset.univ.fold max (⊥ : EReal) (fun γ : Fin 512 => X (ix2 ρ γ)) := by
  refine (Ideal.multiReduction_maximumf_single X _ reduces_S512x512_S512 hφ hacc (ix1 ρ)).trans ?_
  rw [show FloatOps.ofBits (F := Ideal) .f32 0xFF800000#32 = (⊥ : EReal) from negInf_eq]
  exact congrArg (Finset.univ.fold max (⊥ : EReal)) (funext fun γ => congrArg X (funext fun a => Fin.ext (by match a with | ⟨0, _⟩ => rfl | ⟨1, _⟩ => rfl)))

/-! ## The matrix product of the score tile -/

/-- The tile product's dimension numbers: both operands contract their feature axis. -/
abbrev DD := dot_S512x1024_S512x1024_S512x512_1_1_0_0_n_n

theorem dd_lhs0 (j : S512x512.Idx) (q : DD.contr.Idx) : (DD.lhsIdx j q 0).val = (j 0).val := by
  unfold DotDims.lhsIdx
  rw [dif_neg (show ¬(0 : Fin S512x1024.rank) ∈ DD.lhsBatch by decide), dif_pos (show (0 : Fin S512x1024.rank) ∈ DD.lhsNonContracting by decide)]
  rfl
theorem dd_lhs1 (j : S512x512.Idx) (q : DD.contr.Idx) : (DD.lhsIdx j q 1).val = (q ⟨0, by decide⟩).val :=
  DD.lhsIdx_val_of_single rfl j q
theorem dd_rhs0 (j : S512x512.Idx) (q : DD.contr.Idx) : (DD.rhsIdx j q 0).val = (j 1).val := by
  unfold DotDims.rhsIdx
  rw [dif_neg (show ¬(0 : Fin S512x1024.rank) ∈ DD.rhsBatch by decide), dif_pos (show (0 : Fin S512x1024.rank) ∈ DD.rhsNonContracting by decide)]
  rfl
theorem dd_rhs1 (j : S512x512.Idx) (q : DD.contr.Idx) : (DD.rhsIdx j q 1).val = (q ⟨0, by decide⟩).val :=
  DD.rhsIdx_val_of_single rfl j q

/-- Row ρ of the left operand against row γ of the right operand, summed over the 1024 features. -/
theorem matmul512 (l r : FVec Ideal S512x1024 .bf16) (ρ γ : Fin 512) :
    matmul DD none l r (constant S512x512 .f32 0x00000000#32) (ix2 ρ γ) = ∑ k : Fin 1024, l (ix2 ρ k) * r (ix2 γ k) := by
  simp only [matmul]
  rw [Ideal.matmul_constant_zero_apply, ← Equiv.sum_comp (contrEquiv1 DD 1024 rfl rfl).symm]
  refine Finset.sum_congr rfl fun k _ => ?_
  have hk := contrEquiv1_symm_val DD 1024 rfl rfl k
  have el : DD.lhsIdx (ix2 ρ γ) ((contrEquiv1 DD 1024 rfl rfl).symm k) = ix2 ρ k := funext fun a => Fin.ext (by
    match a with
    | ⟨0, _⟩ => exact dd_lhs0 _ _
    | ⟨1, _⟩ => exact (dd_lhs1 _ _).trans hk)
  have er : DD.rhsIdx (ix2 ρ γ) ((contrEquiv1 DD 1024 rfl rfl).symm k) = ix2 γ k := funext fun a => Fin.ext (by
    match a with
    | ⟨0, _⟩ => exact dd_rhs0 _ _
    | ⟨1, _⟩ => exact (dd_rhs1 _ _).trans hk)
  rw [el, er]

/-- A selection between two vectors, read at an index. -/
theorem select_vec_apply {s : Shape} {α : Type} (b : BitVec 1) (f g : s.Idx → α) (j : s.Idx) :
    (Scalar.select b f g) j = Scalar.select b (f j) (g j) := by
  unfold Scalar.select; split <;> rfl

/-! ## The payloads -/

/-- The normalized query block. -/
theorem pay8_apply (x : Vec Ideal S512x1024 .f32) (ρ : Fin 512) (k : Fin 1024) :
    k0_pay8 x (ix2 ρ k) = hatE (fun k => x (ix2 ρ k)) k := by
  unfold k0_pay8 hatE
  simp only [divf_apply, bcast1024, maximumf_apply, sqrt_apply, col_cast, mulf_apply, broadcast_apply]
  rw [rowsum1024]
  rfl

/-- The normalized positive block. -/
theorem pay9_apply (x : Vec Ideal S512x1024 .f32) (ρ : Fin 512) (k : Fin 1024) :
    k0_pay9 x (ix2 ρ k) = hatE (fun k => x (ix2 ρ k)) k := by
  unfold k0_pay9 hatE
  simp only [divf_apply, bcast1024, maximumf_apply, sqrt_apply, col_cast, mulf_apply, broadcast_apply]
  rw [rowsum1024]
  rfl

/-- Which document block the point's column tile takes: the positives in the first eight columns. -/
abbrev fromPos (i : grid0.Coords) : BitVec 1 := Scalar.cmpi .slt (BitVec.ofNat 32 (i 1).val) 8#32

/-- The score tile: the scaled inner product of the normalized query row ρ and the normalized document row γ. -/
theorem scoreTile_apply (i : grid0.Coords) (x0 x1 x2 : Vec Ideal S512x1024 .f32) (ρ γ : Fin 512) :
    scoreTile i x0 x1 x2 (ix2 ρ γ)
      = (∑ k : Fin 1024, hatE (fun k => x0 (ix2 ρ k)) k
          * Scalar.select (fromPos i) (hatE (fun k => x1 (ix2 γ k)) k) (hatE (fun k => x2 (ix2 γ k)) k)) * scaleE := by
  unfold scoreTile k0_pay10
  simp only [mulf_apply, broadcast_apply]
  rw [matmul512]
  simp only [truncf_apply, select_vec_apply, pay8_apply, pay9_apply]
  unfold hatE
  simp only [divf_apply, bcast1024, maximumf_apply, sqrt_apply, col_cast, mulf_apply, broadcast_apply]
  rw [rowsum1024]
  rfl

theorem newMax_eq (S : Vec Ideal S512x512 .f32) (mx : Vec Ideal S512x1 .f32) (j : S512x1.Idx) :
    newMax S mx j = k0_pay1 S mx j := by
  unfold newMax k0_pay3; exact col_self _ j

/-- The running maximum after a tile, at a row. -/
theorem newMax_apply (S : Vec Ideal S512x512 .f32) (mx : Vec Ideal S512x1 .f32) (ρ : Fin 512) :
    newMax S mx (ix2 ρ 0) = max (mx (ix2 ρ 0)) (Finset.univ.fold max (⊥ : EReal) (fun γ : Fin 512 => S (ix2 ρ γ))) := by
  rw [newMax_eq]; unfold k0_pay1
  simp only [maximumf_apply, col_cast]
  rw [rowmax512]

/-- The running sum after a tile, at a row. -/
theorem newSum_apply (S : Vec Ideal S512x512 .f32) (mx sm : Vec Ideal S512x1 .f32) (ρ : Fin 512) :
    newSum S mx sm (ix2 ρ 0)
      = Ideal.exp (mx (ix2 ρ 0) - newMax S mx (ix2 ρ 0)) * sm (ix2 ρ 0) + ∑ γ : Fin 512, Ideal.exp (S (ix2 ρ γ) - newMax S mx (ix2 ρ 0)) := by
  simp only [newMax_eq]
  unfold newSum k0_pay2
  simp only [col_self, addf_apply, mulf_apply, exp_apply, subf_apply, col_cast]
  rw [rowsum512]
  simp only [exp_apply, subf_apply, bcast512]

/-- One tile's update at a row is the scalar online step on that row of the tile. -/
theorem step_row (S : Vec Ideal S512x512 .f32) (mx sm : Vec Ideal S512x1 .f32) (ρ : Fin 512) :
    (newMax S mx (ix2 ρ 0), newSum S mx sm (ix2 ρ 0)) = Cert.Spec.ostep (fun γ : Fin 512 => S (ix2 ρ γ)) (mx (ix2 ρ 0), sm (ix2 ρ 0)) := by
  unfold Cert.Spec.ostep
  rw [newSum_apply, newMax_apply]

theorem max0_apply (j : S512x1.Idx) : (max0 : Vec Ideal S512x1 .f32) j = (⊥ : EReal) := by
  unfold max0 k0_pay6
  rw [col_self]
  exact negInf_eq

theorem sum0_apply (j : S512x1.Idx) : (sum0 : Vec Ideal S512x1 .f32) j = (0 : EReal) := by
  unfold sum0 k0_pay7
  rw [col_self]
  exact Ideal.ofBits_zero_f32

theorem lseOf_apply (mx sm : Vec Ideal S512x1 .f32) (j : S512x1.Idx) : lseOf mx sm j = mx j + Ideal.log (sm j) := rfl

/-- The positive score of a row: the scaled inner product of its normalized query and positive rows. -/
theorem posScore_apply (x0 x1 : Vec Ideal S512x1024 .f32) (ρ : Fin 512) :
    posScore x0 x1 (ix2 ρ 0) = scaleE * ∑ k : Fin 1024, hatE (fun k => x0 (ix2 ρ k)) k * hatE (fun k => x1 (ix2 ρ k)) k := by
  unfold posScore k0_pay4
  simp only [mulf_apply, broadcast_apply, col_cast]
  rw [rowsum1024]
  simp only [mulf_apply, pay8_apply, pay9_apply]
  rfl

end Cert.KernelIdeal.KRead

end
-- ==== Proof.KI.Value.lean ====
/-
  The kernel's blocks and tiles in global coordinates, on the extended reals.
  Point t = 16 i + j reads query rows 512 i + ρ, and document rows 512 j + γ of the concatenation positives ++
  negatives (the positives' block min(j, 7) is selected for j < 8, the negatives' block j - 8 otherwise).  The
  score tile at (ρ, γ) is therefore the global score of query row 512 i + ρ against document 512 j + γ, and
  the scratch pair at a row after point t is the scalar online step applied to that row of the tile.
-/
import proofs.«148176_j63874753626759_2_alg».proof.Proof.KI.Read

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.KernelIdeal.KRead Cert.Spec

variable (m : (ℓ : Loc nD τ sig) → Buf (Elt Ideal) ℓ) (c : Dev nD)

/-! ## The printed index maps over the grid -/

theorem idx_facts : ∀ t : Fin cfg0.N,
    win0_0.index t (0 : Fin 2) = t.val / 16 ∧ win0_0.index t (1 : Fin 2) = 0
    ∧ win0_1.index t (0 : Fin 2) = min (t.val % 16) 7 ∧ win0_1.index t (1 : Fin 2) = 0
    ∧ win0_2.index t (0 : Fin 2) = t.val % 16 - 8 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- The column tile takes the positives exactly in the first eight columns. -/
theorem fromPos_iff : ∀ t : Fin cfg0.N, (fromPos (grid0.coords t) = 1#1 ↔ t.val % 16 < 8) :=
  (by decide +kernel : ∀ t : Fin grid0.N, (fromPos (grid0.coords t) = 1#1 ↔ t.val % 16 < 8))

/-! ## Rows of the argument arrays -/

/-- The queries, the positives, the negatives, as the kernel is launched with them. -/
abbrev QE : S4096x1024.Idx → EReal := m ((c.tc : Thread nD τ).loc main_arg0)
abbrev PE : S4096x1024.Idx → EReal := m ((c.tc : Thread nD τ).loc main_arg1)
abbrev NE : S4096x1024.Idx → EReal := m ((c.tc : Thread nD τ).loc main_arg2)

theorem iblk0_apply (t : Fin cfg0.N) (ρ : Fin 512) (k : Fin 1024) :
    (iblk m c 0 t : Vec Ideal S512x1024 .f32) (ix2 ρ k) = rowE (QE m c) (512 * (t.val / 16) + ρ.val) k := by
  have hN := N128; have ht := t.isLt; have hρ := ρ.isLt
  obtain ⟨e0, e1, -⟩ := idx_facts t
  unfold rowE; rw [dif_pos (by omega)]
  show V m c main_arg0 (((cfg0.win 0).blk t).view.emb (ix2 ρ k)) = V m c main_arg0 _
  refine congrArg _ (funext fun a => Fin.ext ?_)
  match a with
  | ⟨0, _⟩ => show win0_0.index t (0 : Fin 2) * 512 + 1 * ρ.val = 512 * (t.val / 16) + ρ.val; omega
  | ⟨1, _⟩ => show win0_0.index t (1 : Fin 2) * 1024 + 1 * k.val = k.val; omega

theorem iblk1_apply (t : Fin cfg0.N) (γ : Fin 512) (k : Fin 1024) :
    (iblk m c 1 t : Vec Ideal S512x1024 .f32) (ix2 γ k) = rowE (PE m c) (512 * min (t.val % 16) 7 + γ.val) k := by
  have hN := N128; have ht := t.isLt; have hγ := γ.isLt
  obtain ⟨-, -, e0, e1, -⟩ := idx_facts t
  unfold rowE; rw [dif_pos (by omega)]
  show V m c main_arg1 (((cfg0.win 1).blk t).view.emb (ix2 γ k)) = V m c main_arg1 _
  refine congrArg _ (funext fun a => Fin.ext ?_)
  match a with
  | ⟨0, _⟩ => show win0_1.index t (0 : Fin 2) * 512 + 1 * γ.val = 512 * min (t.val % 16) 7 + γ.val; omega
  | ⟨1, _⟩ => show win0_1.index t (1 : Fin 2) * 1024 + 1 * k.val = k.val; omega

theorem iblk2_apply (t : Fin cfg0.N) (γ : Fin 512) (k : Fin 1024) :
    (iblk m c 2 t : Vec Ideal S512x1024 .f32) (ix2 γ k) = rowE (NE m c) (512 * (t.val % 16 - 8) + γ.val) k := by
  have hN := N128; have ht := t.isLt; have hγ := γ.isLt
  obtain ⟨-, -, -, -, e0, e1, -⟩ := idx_facts t
  unfold rowE; rw [dif_pos (by omega)]
  show V m c main_arg2 (((cfg0.win 2).blk t).view.emb (ix2 γ k)) = V m c main_arg2 _
  refine congrArg _ (funext fun a => Fin.ext ?_)
  match a with
  | ⟨0, _⟩ => show win0_2.index t (0 : Fin 2) * 512 + 1 * γ.val = 512 * (t.val % 16 - 8) + γ.val; omega
  | ⟨1, _⟩ => show win0_2.index t (1 : Fin 2) * 1024 + 1 * k.val = k.val; omega

/-! ## Global scores -/

/-- The scaled cosine score of query row r against document c', at the kernel's arrays. -/
abbrev scoreK (r c' : ℕ) : EReal := scoreE (QE m c) (PE m c) (NE m c) r c'

/-- The score tile of point t is the block (t / 16, t % 16) of the global scores. -/
theorem tile_apply (t : Fin cfg0.N) (ρ γ : Fin 512) :
    scoreTile (grid0.coords t) (iblk m c 0 t) (iblk m c 1 t) (iblk m c 2 t) (ix2 ρ γ)
      = scoreK m c (512 * (t.val / 16) + ρ.val) (512 * (t.val % 16) + γ.val) := by
  have hγ := γ.isLt
  rw [scoreTile_apply]
  have h0 : (fun k => (iblk m c 0 t : Vec Ideal S512x1024 .f32) (ix2 ρ k)) = rowE (QE m c) (512 * (t.val / 16) + ρ.val) :=
    funext fun k => iblk0_apply m c t ρ k
  have h1 : (fun k => (iblk m c 1 t : Vec Ideal S512x1024 .f32) (ix2 γ k)) = rowE (PE m c) (512 * min (t.val % 16) 7 + γ.val) :=
    funext fun k => iblk1_apply m c t γ k
  have h2 : (fun k => (iblk m c 2 t : Vec Ideal S512x1024 .f32) (ix2 γ k)) = rowE (NE m c) (512 * (t.val % 16 - 8) + γ.val) :=
    funext fun k => iblk2_apply m c t γ k
  rw [h0, h1, h2]
  unfold scoreK scoreE docE
  by_cases hj : t.val % 16 < 8
  · rw [(fromPos_iff t).mpr hj, if_pos (by omega), show min (t.val % 16) 7 = t.val % 16 by omega]
    simp only [select_one]
  · have hsel : fromPos (grid0.coords t) = 0#1 := eq_zero_of_ne_one fun h => hj ((fromPos_iff t).mp h)
    rw [hsel, if_neg (by omega), show 512 * (t.val % 16) + γ.val - 4096 = 512 * (t.val % 16 - 8) + γ.val by omega]
    simp only [select_zero]

/-! ## The scratch pair at a row, point by point -/

/-- The pair (running maximum, running sum) of local row ρ after point n. -/
def rowPair (ρ : Fin 512) (n : ℕ) (hn : n < cfg0.N) : EReal × EReal :=
  (((accAt m c n hn).1 : Vec Ideal S512x1 .f32) (ix2 ρ 0), ((accAt m c n hn).2 : Vec Ideal S512x1 .f32) (ix2 ρ 0))

theorem rowPair_step (ρ : Fin 512) (t : Fin cfg0.N) :
    rowPair m c ρ t.val t.isLt
      = Cert.Spec.ostep (fun γ : Fin 512 => scoreK m c (512 * (t.val / 16) + ρ.val) (512 * (t.val % 16) + γ.val))
          (if t.val % 16 = 0 then ((⊥ : EReal), (0 : EReal)) else rowPair m c ρ (t.val - 1) (Nat.lt_of_le_of_lt (Nat.sub_le _ _) t.isLt)) := by
  have hS : (fun γ : Fin 512 => scoreTile (grid0.coords t) (iblk m c 0 t) (iblk m c 1 t) (iblk m c 2 t) (ix2 ρ γ))
      = fun γ : Fin 512 => scoreK m c (512 * (t.val / 16) + ρ.val) (512 * (t.val % 16) + γ.val) :=
    funext fun γ => tile_apply m c t ρ γ
  unfold rowPair
  by_cases h0 : t.val % 16 = 0
  · rw [if_pos h0, accAt_first m c t h0]
    unfold stepAt
    rw [step_row, hS]
    simp only [max0_apply, sum0_apply]
  · rw [if_neg h0, accAt_later m c t h0]
    unfold stepAt
    rw [step_row, hS]

/-- The log-sum-exp buffer's entry at a row, from the pair. -/
theorem lseAt_apply (ρ : Fin 512) (t : Fin cfg0.N) :
    (lseAt m c t : Vec Ideal S512x1 .f32) (ix2 ρ 0) = (rowPair m c ρ t.val t.isLt).1 + Ideal.log (rowPair m c ρ t.val t.isLt).2 := rfl

/-- The positive score of row ρ of row tile r is the global score of the row against its own positive. -/
theorem diagRow_apply (r : ℕ) (hr : r < 8) (ρ : Fin 512) :
    (diagRow m c r hr : Vec Ideal S512x1 .f32) (ix2 ρ 0) = scoreK m c (512 * r + ρ.val) (512 * r + ρ.val) := by
  have hρ := ρ.isLt
  have hdiv : (17 * r) / 16 = r := (by decide : ∀ r < 8, (17 * r) / 16 = r) r hr
  have hmod : (17 * r) % 16 = r := (by decide : ∀ r < 8, (17 * r) % 16 = r) r hr
  unfold diagRow
  rw [posScore_apply]
  have h0 : (fun k => (iblk m c 0 (diagPt r hr) : Vec Ideal S512x1024 .f32) (ix2 ρ k)) = rowE (QE m c) (512 * r + ρ.val) :=
    funext fun k => (iblk0_apply m c (diagPt r hr) ρ k).trans (by
      show rowE (QE m c) (512 * ((17 * r) / 16) + ρ.val) k = _
      rw [hdiv])
  have h1 : (fun k => (iblk m c 1 (diagPt r hr) : Vec Ideal S512x1024 .f32) (ix2 ρ k)) = rowE (PE m c) (512 * r + ρ.val) :=
    funext fun k => (iblk1_apply m c (diagPt r hr) ρ k).trans (by
      show rowE (PE m c) (512 * min ((17 * r) % 16) 7 + ρ.val) k = _
      rw [hmod, show min r 7 = r by omega])
  rw [h0, h1]
  unfold scoreK scoreE docE
  rw [if_pos (by omega), mul_comm]

end Cert.KernelIdeal.KValue

end
-- ==== Proof.KI.Final.lean ====
/-
  The two output arrays after the run, and the host lines that follow the region.
  The log-sum-exp array's row 512 i + ρ is written back once, at the last column of row tile i, from the
  buffer the body stored at that point; the positive-score array's row 512 i + ρ likewise, from the buffer
  stored at the diagonal point of row tile i.  The host then subtracts the two, sums the 4096 differences,
  divides by 4096 and negates.
-/
import proofs.«148176_j63874753626759_2_alg».proof.Proof.KI.Value
import proofs.«148176_j63874753626759_2_alg».proof.Proof.KI.Body

set_option maxRecDepth 16384

noncomputable section

namespace Cert.KernelIdeal.KFinal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.KernelIdeal.KRead Cert.KernelIdeal.KValue

variable (m : (ℓ : Loc nD τ sig) → Buf (Elt Ideal) ℓ) (ρ : Dev nD → PrngReg) (c : Dev nD)

/-! ## The arrays -/

/-- The last point of row tile i. -/
def lastPt (i : ℕ) (hi : i < 8) : Fin cfg0.N := ⟨16 * i + 15, by have := N128; omega⟩

theorem lseAt_congr {t t' : Fin cfg0.N} {a a' : Fin 512} (ht : t = t') (ha : a = a') :
    (lseAt m c t : Vec Ideal S512x1 .f32) (ix2 a 0) = (lseAt m c t' : Vec Ideal S512x1 .f32) (ix2 a' 0) := by
  subst ht ha; rfl

theorem diagRow_entry_congr {r r' : ℕ} {hr : r < 8} {hr' : r' < 8} {a a' : Fin 512} (e : r = r') (ha : a = a') :
    (diagRow m c r hr : Vec Ideal S512x1 .f32) (ix2 a 0) = (diagRow m c r' hr' : Vec Ideal S512x1 .f32) (ix2 a' 0) := by
  subst e ha; rfl

/-- The log-sum-exp of global row r. -/
def lseRow (r : ℕ) : EReal :=
  if h : r < 4096 then (lseAt m c (lastPt (r / 512) (by omega)) : Vec Ideal S512x1 .f32) (ix2 ⟨r % 512, by omega⟩ 0) else 0

/-- The positive score of global row r. -/
def posRow (r : ℕ) : EReal :=
  if h : r < 4096 then (diagRow m c (r / 512) (by omega) : Vec Ideal S512x1 .f32) (ix2 ⟨r % 512, by omega⟩ 0) else 0

theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v0_0).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0_1).slice (win0_4.rect t)).set ↔ _
  rw [View.set_slice_whole, Rect.mem_set_unit]
  exact Iff.rfl

/-- The log-sum-exp array after the run. -/
theorem final3 : (dats m 0 c).arrAt 3 cfg0.N = (fun i : S4096x1.Idx => lseRow m c (i 0).val) := by
  have hN := N128
  refine (dats m 0 c).arrAt_eq_of_cover 3 _ (fun t hf => ?_) (fun i => ?_)
  · have h15 := (flush0_3 t).mp hf
    have ht := t.isLt
    obtain ⟨-, -, -, -, -, -, e0, e1, -⟩ := idx_facts t
    show (cfg0.win 3).cut (grid0.coords t) ((dats m 0 c).after 3 t) = _
    rw [after3]
    funext y
    obtain ⟨a, z, rfl⟩ : ∃ (a : Fin 512) (z : Fin 1), y = ix2 a z := ⟨y 0, y 1, eq_ix2 y⟩
    obtain rfl : z = 0 := Subsingleton.elim _ _
    have ha := a.isLt
    show (lseAt m c t : Vec Ideal S512x1 .f32) (ix2 a 0) = lseRow m c (win0_3.index t (0 : Fin 2) * 512 + 1 * a.val)
    unfold lseRow
    rw [dif_pos (by omega)]
    exact lseAt_congr m c (Fin.ext (by show t.val = 16 * ((win0_3.index t (0 : Fin 2) * 512 + 1 * a.val) / 512) + 15; omega))
      (Fin.ext (by show a.val = (win0_3.index t (0 : Fin 2) * 512 + 1 * a.val) % 512; omega))
  · have hi0 : (i 0).val < 4096 := idx2_lt0 i
    have hi1 : (i 1).val < 1 := idx2_lt1 i
    refine ⟨lastPt ((i 0).val / 512) (by omega), (flush0_3 _).mpr (by show (16 * ((i 0).val / 512) + 15) % 16 = 15; omega), ?_⟩
    obtain ⟨-, -, -, -, -, -, e0, e1, -⟩ := idx_facts (lastPt ((i 0).val / 512) (by omega))
    have e0' : win0_3.index (lastPt ((i 0).val / 512) (by omega)) (0 : Fin 2) = (16 * ((i 0).val / 512) + 15) / 16 := e0
    rw [mem_blk3]
    intro a
    match a with
    | ⟨0, _⟩ => show win0_3.index _ (0 : Fin 2) * 512 ≤ (i 0).val ∧ (i 0).val < win0_3.index _ (0 : Fin 2) * 512 + 512; omega
    | ⟨1, _⟩ => show win0_3.index _ (1 : Fin 2) * 1 ≤ (i 1).val ∧ (i 1).val < win0_3.index _ (1 : Fin 2) * 1 + 1; omega

/-- The positive-score array after the run. -/
theorem final4 : (dats m 0 c).arrAt 4 cfg0.N = (fun i : S4096x1.Idx => posRow m c (i 0).val) := by
  have hN := N128
  refine (dats m 0 c).arrAt_eq_of_cover 4 _ (fun t hf => ?_) (fun i => ?_)
  · have h15 := (flush0_4 t).mp hf
    have ht := t.isLt
    obtain ⟨-, -, -, -, -, -, -, -, e0, e1⟩ := idx_facts t
    show (cfg0.win 4).cut (grid0.coords t) ((dats m 0 c).after 4 t) = _
    rw [after4]
    funext y
    obtain ⟨a, z, rfl⟩ : ∃ (a : Fin 512) (z : Fin 1), y = ix2 a z := ⟨y 0, y 1, eq_ix2 y⟩
    obtain rfl : z = 0 := Subsingleton.elim _ _
    have ha := a.isLt
    show (diagRow m c (t.val / 16) (row_lt t) : Vec Ideal S512x1 .f32) (ix2 a 0) = posRow m c (win0_4.index t (0 : Fin 2) * 512 + 1 * a.val)
    unfold posRow
    rw [dif_pos (by omega)]
    exact diagRow_entry_congr m c (by omega) (Fin.ext (by show a.val = (win0_4.index t (0 : Fin 2) * 512 + 1 * a.val) % 512; omega))
  · have hi0 : (i 0).val < 4096 := idx2_lt0 i
    have hi1 : (i 1).val < 1 := idx2_lt1 i
    refine ⟨lastPt ((i 0).val / 512) (by omega), (flush0_4 _).mpr (by show (16 * ((i 0).val / 512) + 15) % 16 = 15; omega), ?_⟩
    obtain ⟨-, -, -, -, -, -, -, -, e0, e1⟩ := idx_facts (lastPt ((i 0).val / 512) (by omega))
    have e0' : win0_4.index (lastPt ((i 0).val / 512) (by omega)) (0 : Fin 2) = (16 * ((i 0).val / 512) + 15) / 16 := e0
    rw [mem_blk4]
    intro a
    match a with
    | ⟨0, _⟩ => show win0_4.index _ (0 : Fin 2) * 512 ≤ (i 0).val ∧ (i 0).val < win0_4.index _ (0 : Fin 2) * 512 + 512; omega
    | ⟨1, _⟩ => show win0_4.index _ (1 : Fin 2) * 1 ≤ (i 1).val ∧ (i 1).val < win0_4.index _ (1 : Fin 2) * 1 + 1; omega

/-! ## The host lines after the region -/

/-- Minus the mean of (positive score - log-sum-exp), as the host lines compute it from the two arrays. -/
def tailOf (A3 A4 : S4096x1.Idx → EReal) : S_.Idx → EReal :=
  Host.negf (F := Ideal) (Host.divf (F := Ideal)
    (Host.reduceAdd (F := Ideal) (subf (F := Ideal) (shapeCast S4096 A4 shapeCasts_S4096x1_S4096) (shapeCast S4096 A3 shapeCasts_S4096x1_S4096))
      (constant (F := Ideal) S_ .f32 0x00000000#32) reducesTo_S4096_S_d0 h_S_)
    (constant (F := Ideal) S_ .f32 0x45800000#32))

theorem tail_eq : Pipeline.afterTail₀ cfgs (dats m) 0 (V0 m) [hostOps1] c main_v6
    = tailOf (fun i : S4096x1.Idx => lseRow m c (i 0).val) (fun i : S4096x1.Idx => posRow m c (i 0).val) := by
  unfold Pipeline.afterTail₀
  show StableHlo.after hostOps1 _ (Proc.devRef .tc main_v6) = _
  after_results
  rw [show Pipeline.withArrays spec0 c (V0 m c) (fun w => (dats m 0 c).arrAt w cfg0.N) (Proc.devRef .tc main_v0_0) = _ from
      (Pipeline.withArrays_arr spec0 launch0.win.arr_inj c _ _ 3).trans (final3 m c),
    show Pipeline.withArrays spec0 c (V0 m c) (fun w => (dats m 0 c).arrAt w cfg0.N) (Proc.devRef .tc main_v0_1) = _ from
      (Pipeline.withArrays_arr spec0 launch0.win.arr_inj c _ _ 4).trans (final4 m c)]
  rfl

/-- The kernel's run, read: the result buffer ends at the host lines' value of the two arrays; the arguments
    end unchanged. -/
theorem run : θ_run defs (onTc (τ := τ) (main (F := Ideal))) ⟨m, fun _ => 0, ρ⟩ fun r => ∀ c : Dev nD,
      r.2.mem ((c.tc : Thread nD τ).loc main_v6)
        = tailOf (fun i : S4096x1.Idx => lseRow m c (i 0).val) (fun i : S4096x1.Idx => posRow m c (i 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v6 (by decide)).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main (F := Ideal) m ρ)

end Cert.KernelIdeal.KFinal

end
-- ==== Proof.KI.Rows.lean ====
/-
  The kernel's two arrays row by row, for finite inputs.
  With every input entry a real number the scores are real; along the sixteen column tiles of a row tile the
  scratch pair of a row accounts for the exponentials of the scores seen so far, so the log-sum-exp entry of
  global row r is log Σ_{c' < 8192} exp(score r c'), and the positive-score entry is score r r.
-/
import proofs.«148176_j63874753626759_2_alg».proof.Proof.KI.Final

set_option maxRecDepth 16384

noncomputable section

namespace Cert.KernelIdeal.KRows

open Idealize.ShloMosaic Idealize.ShloMosaic.TcCoe Idealize.ShloMosaic.ValueIdx Idealize.SL.Sem
open Cert.KernelIdeal Cert.KernelIdeal.Gen Cert.KernelIdeal.Body Cert.KernelIdeal.KRead Cert.KernelIdeal.KValue Cert.KernelIdeal.KFinal Cert.Spec

variable (m : (ℓ : Loc nD τ sig) → Buf (Elt Ideal) ℓ) (c : Dev nD)
variable {eps : ℝ} (he : 0 < eps) (heps : epsE = (eps : EReal))
variable {QR PR NR : (⟨2, ![4096, 1024]⟩ : Shape).Idx → ℝ}
variable (hQ : ∀ i, QE m c i = (QR i : EReal)) (hP : ∀ i, PE m c i = (PR i : EReal)) (hN : ∀ i, NE m c i = (NR i : EReal))

include he heps hQ hP hN

theorem scoreK_coe (r c' : ℕ) : scoreK m c r c' = ((scoreR eps QR PR NR r c' : ℝ) : EReal) :=
  scoreE_coe he heps hQ hP hN r c'

/-- After point n the pair of local row ρ accounts for the scores of the columns seen so far in the row tile. -/
theorem rowPair_inv (ρ : Fin 512) : ∀ (n : ℕ) (hn : n < cfg0.N),
    Inv (∑ x ∈ Finset.range (512 * (n % 16 + 1)), Real.exp (scoreR eps QR PR NR (512 * (n / 16) + ρ.val) x)) (rowPair m c ρ n hn) := by
  intro n
  induction n with
  | zero =>
    intro hn
    have hstep : rowPair m c ρ 0 hn = ostep (fun γ : Fin 512 => scoreK m c (512 * (0 / 16) + ρ.val) (512 * (0 % 16) + γ.val))
        (if 0 % 16 = 0 then ((⊥ : EReal), (0 : EReal)) else rowPair m c ρ (0 - 1) (Nat.lt_of_le_of_lt (Nat.sub_le _ _) hn)) :=
      rowPair_step m c ρ ⟨0, hn⟩
    rw [hstep, if_pos (by norm_num)]
    have hf : (fun γ : Fin 512 => scoreK m c (512 * (0 / 16) + ρ.val) (512 * (0 % 16) + γ.val))
        = fun γ : Fin 512 => ((scoreR eps QR PR NR (512 * (0 / 16) + ρ.val) (512 * (0 % 16) + γ.val) : ℝ) : EReal) :=
      funext fun γ => scoreK_coe m c he heps hQ hP hN _ _
    rw [hf]
    refine inv_step' (by norm_num : 0 < 512) (fun γ : Fin 512 => scoreR eps QR PR NR (512 * (0 / 16) + ρ.val) (512 * (0 % 16) + γ.val)) inv_init ?_
    rw [zero_add, Fin.sum_univ_eq_sum_range (fun x => Real.exp (scoreR eps QR PR NR (512 * (0 / 16) + ρ.val) (512 * (0 % 16) + x))) 512]
    norm_num
  | succ n ih =>
    intro hn
    have hN128 := N128
    have hstep : rowPair m c ρ (n + 1) hn = ostep (fun γ : Fin 512 => scoreK m c (512 * ((n + 1) / 16) + ρ.val) (512 * ((n + 1) % 16) + γ.val))
        (if (n + 1) % 16 = 0 then ((⊥ : EReal), (0 : EReal)) else rowPair m c ρ (n + 1 - 1) (Nat.lt_of_le_of_lt (Nat.sub_le _ _) hn)) :=
      rowPair_step m c ρ ⟨n + 1, hn⟩
    rw [hstep]
    have hf : (fun γ : Fin 512 => scoreK m c (512 * ((n + 1) / 16) + ρ.val) (512 * ((n + 1) % 16) + γ.val))
        = fun γ : Fin 512 => ((scoreR eps QR PR NR (512 * ((n + 1) / 16) + ρ.val) (512 * ((n + 1) % 16) + γ.val) : ℝ) : EReal) :=
      funext fun γ => scoreK_coe m c he heps hQ hP hN _ _
    rw [hf]
    by_cases h0 : (n + 1) % 16 = 0
    · rw [if_pos h0]
      refine inv_step' (by norm_num : 0 < 512) (fun γ : Fin 512 => scoreR eps QR PR NR (512 * ((n + 1) / 16) + ρ.val) (512 * ((n + 1) % 16) + γ.val)) inv_init ?_
      rw [zero_add, Fin.sum_univ_eq_sum_range (fun x => Real.exp (scoreR eps QR PR NR (512 * ((n + 1) / 16) + ρ.val) (512 * ((n + 1) % 16) + x))) 512, h0]
      norm_num
    · rw [if_neg h0]
      have ihn : Inv _ (rowPair m c ρ (n + 1 - 1) (Nat.lt_of_le_of_lt (Nat.sub_le _ _) hn)) := ih (Nat.lt_of_succ_lt hn)
      have e1 : n / 16 = (n + 1) / 16 := by omega
      have e2 : n % 16 + 1 = (n + 1) % 16 := by omega
      rw [e1, e2] at ihn
      refine inv_step' (by norm_num : 0 < 512) (fun γ : Fin 512 => scoreR eps QR PR NR (512 * ((n + 1) / 16) + ρ.val) (512 * ((n + 1) % 16) + γ.val)) ihn ?_
      rw [Fin.sum_univ_eq_sum_range (fun x => Real.exp (scoreR eps QR PR NR (512 * ((n + 1) / 16) + ρ.val) (512 * ((n + 1) % 16) + x))) 512,
        ← Finset.sum_range_add, show 512 * ((n + 1) % 16) + 512 = 512 * ((n + 1) % 16 + 1) by ring]

/-- The log-sum-exp of a global row. -/
theorem lseRow_eq (r : ℕ) (hr : r < 4096) :
    lseRow m c r = ((Real.log (∑ x ∈ Finset.range 8192, Real.exp (scoreR eps QR PR NR r x)) : ℝ) : EReal) := by
  have hN128 := N128
  unfold lseRow
  rw [dif_pos hr, lseAt_apply]
  have h := rowPair_inv m c he heps hQ hP hN ⟨r % 512, by omega⟩ (16 * (r / 512) + 15) (by omega)
  have e1 : (16 * (r / 512) + 15) / 16 = r / 512 := by omega
  have e2 : (16 * (r / 512) + 15) % 16 + 1 = 16 := by omega
  rw [e1, e2, show 512 * (r / 512) + r % 512 = r from Nat.div_add_mod r 512, show 512 * 16 = 8192 by norm_num] at h
  exact inv_final h (Finset.sum_pos (fun x _ => Real.exp_pos _) (Finset.nonempty_range_iff.mpr (by norm_num)))

/-- The positive score of a global row. -/
theorem posRow_eq (r : ℕ) (hr : r < 4096) : posRow m c r = ((scoreR eps QR PR NR r r : ℝ) : EReal) := by
  unfold posRow
  rw [dif_pos hr, diagRow_apply, show 512 * (r / 512) + r % 512 = r from Nat.div_add_mod r 512]
  exact scoreK_coe m c he heps hQ hP hN r r

end Cert.KernelIdeal.KRows

end
-- ==== Proof.RefRead.lean ====
/-
  The reference program read one operation at a time: each stage is the value one host operation writes, as a
  function of the three argument arrays, with a lemma reading it at an index from its operands at an index — a
  row sum as the initial value plus the sum over the row, the matrix product as a sum over the contracted
  axis, a broadcast at the source index.
-/
import proofs.«148176_j63874753626759_2_alg».proof.Proof.RefSide
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.multiply %arg0, %arg0 : tensor<4096x1024xf32>
def val_main_v0 (x0 : (⟨S4096x1024, .f32⟩ : BufTy).Contents (Elt F)) : (⟨S4096x1024, .f32⟩ : BufTy).Contents (Elt F) :=
  mulf (x0) (x0)
theorem val_main_v0_apply (x0 : (⟨S4096x1024, .f32⟩ : BufTy).Contents (Elt F)) (i : S4096x1024.Idx) :
    val_main_v0 (F := F) x0 i = FloatOps.mulf (x0 i) (x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [1] : (tensor<4096x1024xf32>, tensor<f32>) -> tensor<4096xf32> {
def val_main_v1 (x0 : (⟨S4096x1024, .f32⟩ : BufTy).Contents (Elt F)) : (⟨S4096, .f32⟩ : BufTy).Contents (Elt F) :=
  Host.reduceAdd (val_main_v0 (F := F) x0) (val_main_cst (F := F)) reducesTo_S4096x1024_S4096_d1 h_S_
abbrev idx_main_v1 (i : S4096.Idx) (k : Fin 1024) : S4096x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v1_apply (x0 : (⟨S4096x1024, .f32⟩ : BufTy).Contents (Elt Ideal)) (i : S4096.Idx) :
    val_main_v1 (F := Ideal) x0 i = (val_main_cst (F := Ideal)) (Shape.Idx.first h_S_) + ∑ k : Fin 1024, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S4096x1024_S4096_d1 (by decide)]
  refine congrArg (_ + ·) (Finset.sum_congr rfl fun k _ => ?_)
  exact congrArg y0 (funext fun a => Fin.ext (by match a with | ⟨0, _⟩ => rfl | ⟨1, _⟩ => rfl))

-- %2 = stablehlo.broadcast_in_dim %1, dims = [0] : (tensor<4096xf32>) -> tensor<4096x1xf32>
def val_main_v2 (x0 : (⟨S4096x1024, .f32⟩ : BufTy).Contents (Elt F)) : (⟨S4096x1, .f32⟩ : BufTy).Contents (Elt F) :=
  broadcastInDim S4096x1 ![0] bcast_S4096_S4096x1_0 (val_main_v1 (F := F) x0)
abbrev idx_main_v2 (i : S4096x1.Idx) : S4096.Idx := fun a => match a with
  | ⟨0, _⟩ => ⟨(i 0).val, (i 0).isLt⟩
theorem val_main_v2_apply (x0 : (⟨S4096x1024, .f32⟩ : BufTy).Contents (Elt F)) (i : S4096x1.Idx) :
    val_main_v2 (F := F) x0 i = val_main_v1 (F := F) x0 (idx_main_v2 i) := by
  unfold val_main_v2
  generalize val_main_v1 (F := F) x0 = y
  exact broadcastInDim_apply _ bcast_S4096_S4096x1_0 y i (idx_main_v2 i) (fun a => match a with
    | ⟨0, _⟩ => by show (i 0).val = if (4096 : Nat) = 1 then 0 else (i 0).val; rw [if_neg (by decide)])

-- %3 = stablehlo.sqrt %2 : tensor<4096x1xf32>
def val_main_v3 (x0 : (⟨S4096x1024, .f32⟩ : BufTy).Contents (Elt F)) : (⟨S4096x1, .f32⟩ : BufTy).Contents (Elt F) :=
  Host.sqrt (val_main_v2 (F := F) x0)
theorem val_main_v3_apply (x0 : (⟨S4096x1024, .f32⟩ : BufTy).Contents (Elt F)) (i : S4096x1.Idx) :
    val_main_v3 (F := F) x0 i = FloatOps.hostUnary .sqrt (val_main_v2 (F := F) x0 i) := rfl

-- %cst_0 = stablehlo.constant dense<9.99999993E-9> : tensor<f32>
def val_main_cst_0 : (⟨S_, .f32⟩ : BufTy).Contents (Elt F) :=
  constant S_ .f32 0x322BCC77#32
theorem val_main_cst_0_apply (i : S_.Idx) :
    val_main_cst_0 (F := F) i = FloatOps.ofBits .f32 0x322BCC77#32 := rfl

-- %4 = stablehlo.broadcast_in_dim %cst_0, dims = [] : (tensor<f32>) -> tensor<4096x1xf32>
def val_main_v4 : (⟨S4096x1, .f32⟩ : BufTy).Contents (Elt F) :=
  broadcastInDim S4096x1 ![] bcast_S_S4096x1 (val_main_cst_0 (F := F))
abbrev idx_main_v4 (i : S4096x1.Idx) : S_.Idx := fun a => a.elim0
theorem val_main_v4_apply (i : S4096x1.Idx) :
    val_main_v4 (F := F) i = val_main_cst_0 (F := F) (idx_main_v4 i) := by
  unfold val_main_v4
  generalize val_main_cst_0 (F := F) = y
  exact broadcastInDim_apply _ bcast_S_S4096x1 y i (idx_main_v4 i) (fun a => a.elim0)

-- %5 = stablehlo.maximum %3, %4 : tensor<4096x1xf32>
def val_main_v5 (x0 : (⟨S4096x1024, .f32⟩ : BufTy).Contents (Elt F)) : (⟨S4096x1, .f32⟩ : BufTy).Contents (Elt F) :=
  maximumf (val_main_v3 (F := F) x0) (val_main_v4 (F := F))
theorem val_main_v5_apply (x0 : (⟨S4096x1024, .f32⟩ : BufTy).Contents (Elt F)) (i : S4096x1.Idx) :
    val_main_v5 (F := F) x0 i = FloatOps.maximumf (val_main_v3 (F := F) x0 i) (val_main_v4 (F := F) i) := rfl

-- %6 = stablehlo.broadcast_in_dim %5, dims = [0, 1] : (tensor<4096x1xf32>) -> tensor<4096x1024xf32>
def val_main_v6 (x0 : (⟨S4096x1024, .f32⟩ : BufTy).Contents (Elt F)) : (⟨S4096x1024, .f32⟩ : BufTy).Contents (Elt F) :=
  broadcastInDim S4096x1024 ![0, 1] bcast_S4096x1_S4096x1024_0_1 (val_main_v5 (F := F) x0)
abbrev idx_main_v6 (i : S4096x1024.Idx) : S4096x1.Idx := fun a => match a with
  | ⟨0, _⟩ => ⟨(i 0).val, (i 0).isLt⟩
  | ⟨1, _⟩ => ⟨0, Nat.one_pos⟩
theorem val_main_v6_apply (x0 : (⟨S4096x1024, .f32⟩ : BufTy).Contents (Elt F)) (i : S4096x1024.Idx) :
    val_main_v6 (F := F) x0 i = val_main_v5 (F := F) x0 (idx_main_v6 i) := by
  unfold val_main_v6
  generalize val_main_v5 (F := F) x0 = y
  exact broadcastInDim_apply _ bcast_S4096x1_S4096x1024_0_1 y i (idx_main_v6 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %7 = stablehlo.divide %arg0, %6 : tensor<4096x1024xf32>
def val_main_v7 (x0 : (⟨S4096x1024, .f32⟩ : BufTy).Contents (Elt F)) : (⟨S4096x1024, .f32⟩ : BufTy).Contents (Elt F) :=
  Host.divf (x0) (val_main_v6 (F := F) x0)
theorem val_main_v7_apply (x0 : (⟨S4096x1024, .f32⟩ : BufTy).Contents (Elt F)) (i : S4096x1024.Idx) :
    val_main_v7 (F := F) x0 i = FloatOps.hostDivf (x0 i) (val_main_v6 (F := F) x0 i) := rfl

-- %8 = stablehlo.concatenate %arg1, %arg2, dim = 0 : (tensor<4096x1024xf32>, tensor<4096x1024xf32>) -> tensor<8192x1024xf32>
def val_main_v8 (x1 x2 : (⟨S4096x1024, .f32⟩ : BufTy).Contents (Elt F)) : (⟨S8192x1024, .f32⟩ : BufTy).Contents (Elt F) :=
  concatenate S8192x1024 0 [⟨S4096x1024, (x1)⟩, ⟨S4096x1024, (x2)⟩] concatenates_S4096x1024_S4096x1024_S8192x1024_d0

-- %9 = stablehlo.multiply %8, %8 : tensor<8192x1024xf32>
def val_main_v9 (x1 x2 : (⟨S4096x1024, .f32⟩ : BufTy).Contents (Elt F)) : (⟨S8192x1024, .f32⟩ : BufTy).Contents (Elt F) :=
  mulf (val_main_v8 (F := F) x1 x2) (val_main_v8 (F := F) x1 x2)
theorem val_main_v9_apply (x1 x2 : (⟨S4096x1024, .f32⟩ : BufTy).Contents (Elt F)) (i : S8192x1024.Idx) :
    val_main_v9 (F := F) x1 x2 i = FloatOps.mulf (val_main_v8 (F := F) x1 x2 i) (val_main_v8 (F := F) x1 x2 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %10 = stablehlo.reduce(%9 init: %cst_1) applies stablehlo.add across dimensions = [1] : (tensor<8192x1024xf32>, tensor<f32>) -> tensor<8192xf32> {
def val_main_v10 (x1 x2 : (⟨S4096x1024, .f32⟩ : BufTy).Contents (Elt F)) : (⟨S8192, .f32⟩ : BufTy).Contents (Elt F) :=
  Host.reduceAdd (val_main_v9 (F := F) x1 x2) (val_main_cst_1 (F := F)) reducesTo_S8192x1024_S8192_d1 h_S_
abbrev idx_main_v10 (i : S8192.Idx) (k : Fin 1024) : S8192x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v10_apply (x1 x2 : (⟨S4096x1024, .f32⟩ : BufTy).Contents (Elt Ideal)) (i : S8192.Idx) :
    val_main_v10 (F := Ideal) x1 x2 i = (val_main_cst_1 (F := Ideal)) (Shape.Idx.first h_S_) + ∑ k : Fin 1024, (val_main_v9 (F := Ideal) x1 x2) (idx_main_v10 i k) := by
  unfold val_main_v10
  generalize val_main_v9 (F := Ideal) x1 x2 = y0
  simp only [Host.reduceAdd, Ideal.hostReduceAdd_def]
  rw [Ideal.hostReduceAdd_single reducesTo_S8192x1024_S8192_d1 (by decide)]
  refine congrArg (_ + ·) (Finset.sum_congr rfl fun k _ => ?_)
  exact congrArg y0 (funext fun a => Fin.ext (by match a with | ⟨0, _⟩ => rfl | ⟨1, _⟩ => rfl))

-- %11 = stablehlo.broadcast_in_dim %10, dims = [0] : (tensor<8192xf32>) -> tensor<8192x1xf32>
def val_main_v11 (x1 x2 : (⟨S4096x1024, .f32⟩ : BufTy).Contents (Elt F)) : (⟨S8192x1, .f32⟩ : BufTy).Contents (Elt F) :=
  broadcastInDim S8192x1 ![0] bcast_S8192_S8192x1_0 (val_main_v10 (F := F) x1 x2)
abbrev idx_main_v11 (i : S8192x1.Idx) : S8192.Idx := fun a => match a with
  | ⟨0, _⟩ => ⟨(i 0).val, (i 0).isLt⟩
theorem val_main_v11_apply (x1 x2 : (⟨S4096x1024, .f32⟩ : BufTy).Contents (Elt F)) (i : S8192x1.Idx) :
    val_main_v11 (F := F) x1 x2 i = val_main_v10 (F := F) x1 x2 (idx_main_v11 i) := by
  unfold val_main_v11
  generalize val_main_v10 (F := F) x1 x2 = y
  exact broadcastInDim_apply _ bcast_S8192_S8192x1_0 y i (idx_main_v11 i) (fun a => match a with
    | ⟨0, _⟩ => by show (i 0).val = if (8192 : Nat) = 1 then 0 else (i 0).val; rw [if_neg (by decide)])

-- %12 = stablehlo.sqrt %11 : tensor<8192x1xf32>
def val_main_v12 (x1 x2 : (⟨S4096x1024, .f32⟩ : BufTy).Contents (Elt F)) : (⟨S8192x1, .f32⟩ : BufTy).Contents (Elt F) :=
  Host.sqrt (val_main_v11 (F := F) x1 x2)
theorem val_main_v12_apply (x1 x2 : (⟨S4096x1024, .f32⟩ : BufTy).Contents (Elt F)) (i : S8192x1.Idx) :
    val_main_v12 (F := F) x1 x2 i = FloatOps.hostUnary .sqrt (val_main_v11 (F := F) x1 x2 i) := rfl

-- %cst_2 = stablehlo.constant dense<9.99999993E-9> : tensor<f32>
def val_main_cst_2 : (⟨S_, .f32⟩ : BufTy).Contents (Elt F) :=
  constant S_ .f32 0x322BCC77#32
theorem val_main_cst_2_apply (i : S_.Idx) :
    val_main_cst_2 (F := F) i = FloatOps.ofBits .f32 0x322BCC77#32 := rfl

-- %13 = stablehlo.broadcast_in_dim %cst_2, dims = [] : (tensor<f32>) -> tensor<8192x1xf32>
def val_main_v13 : (⟨S8192x1, .f32⟩ : BufTy).Contents (Elt F) :=
  broadcastInDim S8192x1 ![] bcast_S_S8192x1 (val_main_cst_2 (F := F))
abbrev idx_main_v13 (i : S8192x1.Idx) : S_.Idx := fun a => a.elim0
theorem val_main_v13_apply (i : S8192x1.Idx) :
    val_main_v13 (F := F) i = val_main_cst_2 (F := F) (idx_main_v13 i) := by
  unfold val_main_v13
  generalize val_main_cst_2 (F := F) = y
  exact broadcastInDim_apply _ bcast_S_S8192x1 y i (idx_main_v13 i) (fun a => a.elim0)

-- %14 = stablehlo.maximum %12, %13 : tensor<8192x1xf32>
def val_main_v14 (x1 x2 : (⟨S4096x1024, .f32⟩ : BufTy).Contents (Elt F)) : (⟨S8192x1, .f32⟩ : BufTy).Contents (Elt F) :=
  maximumf (val_main_v12 (F := F) x1 x2) (val_main_v13 (F := F))
theorem val_main_v14_apply (x1 x2 : (⟨S4096x1024, .f32⟩ : BufTy).Contents (Elt F)) (i : S8192x1.Idx) :
    val_main_v14 (F := F) x1 x2 i = FloatOps.maximumf (val_main_v12 (F := F) x1 x2 i) (val_main_v13 (F := F) i) := rfl

-- %15 = stablehlo.broadcast_in_dim %14, dims = [0, 1] : (tensor<8192x1xf32>) -> tensor<8192x1024xf32>
def val_main_v15 (x1 x2 : (⟨S4096x1024, .f32⟩ : BufTy).Contents (Elt F)) : (⟨S8192x1024, .f32⟩ : BufTy).Contents (Elt F) :=
  broadcastInDim S8192x1024 ![0, 1] bcast_S8192x1_S8192x1024_0_1 (val_main_v14 (F := F) x1 x2)
abbrev idx_main_v15 (i : S8192x1024.Idx) : S8192x1.Idx := fun a => match a with
  | ⟨0, _⟩ => ⟨(i 0).val, (i 0).isLt⟩
  | ⟨1, _⟩ => ⟨0, Nat.one_pos⟩
theorem val_main_v15_apply (x1 x2 : (⟨S4096x1024, .f32⟩ : BufTy).Contents (Elt F)) (i : S8192x1024.Idx) :
    val_main_v15 (F := F) x1 x2 i = val_main_v14 (F := F) x1 x2 (idx_main_v15 i) := by
  unfold val_main_v15
  generalize val_main_v14 (F := F) x1 x2 = y
  exact broadcastInDim_apply _ bcast_S8192x1_S8192x1024_0_1 y i (idx_main_v15 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %16 = stablehlo.divide %8, %15 : tensor<8192x1024xf32>
def val_main_v16 (x1 x2 : (⟨S4096x1024, .f32⟩ : BufTy).Contents (Elt F)) : (⟨S8192x1024, .f32⟩ : BufTy).Contents (Elt F) :=
  Host.divf (val_main_v8 (F := F) x1 x2) (val_main_v15 (F := F) x1 x2)
theorem val_main_v16_apply (x1 x2 : (⟨S4096x1024, .f32⟩ : BufTy).Contents (Elt F)) (i : S8192x1024.Idx) :
    val_main_v16 (F := F) x1 x2 i = FloatOps.hostDivf (val_main_v8 (F := F) x1 x2 i) (val_main_v15 (F := F) x1 x2 i) := rfl

-- %17 = stablehlo.dot_general %7, %16, contracting_dims = [1] x [1], precision = [DEFAULT, DEFAULT] : (tensor<4096x1024xf32>, tensor<8192x1024xf32>) -> tensor<4096x8192xf32>
def val_main_v17 (x0 x1 x2 : (⟨S4096x1024, .f32⟩ : BufTy).Contents (Elt F)) : (⟨S4096x8192, .f32⟩ : BufTy).Contents (Elt F) :=
  Host.dotGeneral dot_S4096x1024_S8192x1024_S4096x8192_1_1_0_0_n_n none (val_main_v7 (F := F) x0) (val_main_v16 (F := F) x1 x2)
theorem lhs_main_v17_0 (i : S4096x8192.Idx) (q : dot_S4096x1024_S8192x1024_S4096x8192_1_1_0_0_n_n.contr.Idx) :
    (dot_S4096x1024_S8192x1024_S4096x8192_1_1_0_0_n_n.lhsIdx i q 0).val = (i 0).val := by
  unfold DotDims.lhsIdx
  rw [dif_neg (show ¬(0 : Fin S4096x1024.rank) ∈ dot_S4096x1024_S8192x1024_S4096x8192_1_1_0_0_n_n.lhsBatch by decide), dif_pos (show (0 : Fin S4096x1024.rank) ∈ dot_S4096x1024_S8192x1024_S4096x8192_1_1_0_0_n_n.lhsNonContracting by decide)]
  rfl
theorem lhs_main_v17_1 (i : S4096x8192.Idx) (q : dot_S4096x1024_S8192x1024_S4096x8192_1_1_0_0_n_n.contr.Idx) :
    (dot_S4096x1024_S8192x1024_S4096x8192_1_1_0_0_n_n.lhsIdx i q 1).val = (q ⟨0, by decide⟩).val :=
  dot_S4096x1024_S8192x1024_S4096x8192_1_1_0_0_n_n.lhsIdx_val_of_single rfl i q
theorem rhs_main_v17_0 (i : S4096x8192.Idx) (q : dot_S4096x1024_S8192x1024_S4096x8192_1_1_0_0_n_n.contr.Idx) :
    (dot_S4096x1024_S8192x1024_S4096x8192_1_1_0_0_n_n.rhsIdx i q 0).val = (i 1).val := by
  unfold DotDims.rhsIdx
  rw [dif_neg (show ¬(0 : Fin S8192x1024.rank) ∈ dot_S4096x1024_S8192x1024_S4096x8192_1_1_0_0_n_n.rhsBatch by decide), dif_pos (show (0 : Fin S8192x1024.rank) ∈ dot_S4096x1024_S8192x1024_S4096x8192_1_1_0_0_n_n.rhsNonContracting by decide)]
  rfl
theorem rhs_main_v17_1 (i : S4096x8192.Idx) (q : dot_S4096x1024_S8192x1024_S4096x8192_1_1_0_0_n_n.contr.Idx) :
    (dot_S4096x1024_S8192x1024_S4096x8192_1_1_0_0_n_n.rhsIdx i q 1).val = (q ⟨0, by decide⟩).val :=
  dot_S4096x1024_S8192x1024_S4096x8192_1_1_0_0_n_n.rhsIdx_val_of_single rfl i q
abbrev lidx_main_v17 (i : S4096x8192.Idx) (k : Fin 1024) : S4096x1024.Idx := fun a => match a with
  | ⟨0, _⟩ => ⟨(i 0).val, (i 0).isLt⟩
  | ⟨1, _⟩ => ⟨k.val, k.isLt⟩
abbrev ridx_main_v17 (i : S4096x8192.Idx) (k : Fin 1024) : S8192x1024.Idx := fun a => match a with
  | ⟨0, _⟩ => ⟨(i 1).val, (i 1).isLt⟩
  | ⟨1, _⟩ => ⟨k.val, k.isLt⟩
/-- Stated at `F := Ideal`, where the host's `dot_general` is this sum; at a bit-exact instance it is an opaque function of its operands. -/
theorem val_main_v17_apply (x0 x1 x2 : (⟨S4096x1024, .f32⟩ : BufTy).Contents (Elt Ideal)) (i : S4096x8192.Idx) :
    val_main_v17 (F := Ideal) x0 x1 x2 i = ∑ k : Fin 1024, (val_main_v7 (F := Ideal) x0) (lidx_main_v17 i k) * (val_main_v16 (F := Ideal) x1 x2) (ridx_main_v17 i k) := by
  unfold val_main_v17
  generalize val_main_v7 (F := Ideal) x0 = y0
  generalize val_main_v16 (F := Ideal) x1 x2 = y1
  simp only [Host.dotGeneral]
  rw [Ideal.dotGeneral_apply, ← Equiv.sum_comp (ValueIdx.contrEquiv1 dot_S4096x1024_S8192x1024_S4096x8192_1_1_0_0_n_n 1024 rfl rfl).symm]
  refine Finset.sum_congr rfl fun k _ => ?_
  have hk := ValueIdx.contrEquiv1_symm_val dot_S4096x1024_S8192x1024_S4096x8192_1_1_0_0_n_n 1024 rfl rfl k
  have el : dot_S4096x1024_S8192x1024_S4096x8192_1_1_0_0_n_n.lhsIdx i ((ValueIdx.contrEquiv1 dot_S4096x1024_S8192x1024_S4096x8192_1_1_0_0_n_n 1024 rfl rfl).symm k) = lidx_main_v17 i k := funext fun a => Fin.ext (by
    match a with
    | ⟨0, _⟩ => exact lhs_main_v17_0 _ _
    | ⟨1, _⟩ => exact (lhs_main_v17_1 _ _).trans hk)
  have er : dot_S4096x1024_S8192x1024_S4096x8192_1_1_0_0_n_n.rhsIdx i ((ValueIdx.contrEquiv1 dot_S4096x1024_S8192x1024_S4096x8192_1_1_0_0_n_n 1024 rfl rfl).symm k) = ridx_main_v17 i k := funext fun a => Fin.ext (by
    match a with
    | ⟨0, _⟩ => exact rhs_main_v17_0 _ _
    | ⟨1, _⟩ => exact (rhs_main_v17_1 _ _).trans hk)
  rw [el, er]

-- %cst_3 = stablehlo.constant dense<2.000000e+01> : tensor<f32>
def val_main_cst_3 : (⟨S_, .f32⟩ : BufTy).Contents (Elt F) :=
  constant S_ .f32 0x41A00000#32
theorem val_main_cst_3_apply (i : S_.Idx) :
    val_main_cst_3 (F := F) i = FloatOps.ofBits .f32 0x41A00000#32 := rfl

-- %18 = stablehlo.broadcast_in_dim %cst_3, dims = [] : (tensor<f32>) -> tensor<4096x8192xf32>
def val_main_v18 : (⟨S4096x8192, .f32⟩ : BufTy).Contents (Elt F) :=
  broadcastInDim S4096x8192 ![] bcast_S_S4096x8192 (val_main_cst_3 (F := F))
abbrev idx_main_v18 (i : S4096x8192.Idx) : S_.Idx := fun a => a.elim0
theorem val_main_v18_apply (i : S4096x8192.Idx) :
    val_main_v18 (F := F) i = val_main_cst_3 (F := F) (idx_main_v18 i) := by
  unfold val_main_v18
  generalize val_main_cst_3 (F := F) = y
  exact broadcastInDim_apply _ bcast_S_S4096x8192 y i (idx_main_v18 i) (fun a => a.elim0)

-- %19 = stablehlo.multiply %18, %17 : tensor<4096x8192xf32>
def val_main_v19 (x0 x1 x2 : (⟨S4096x1024, .f32⟩ : BufTy).Contents (Elt F)) : (⟨S4096x8192, .f32⟩ : BufTy).Contents (Elt F) :=
  mulf (val_main_v18 (F := F)) (val_main_v17 (F := F) x0 x1 x2)
theorem val_main_v19_apply (x0 x1 x2 : (⟨S4096x1024, .f32⟩ : BufTy).Contents (Elt F)) (i : S4096x8192.Idx) :
    val_main_v19 (F := F) x0 x1 x2 i = FloatOps.mulf (val_main_v18 (F := F) i) (val_main_v17 (F := F) x0 x1 x2 i) := rfl

-- %20 = stablehlo.iota dim = 0 : tensor<4096xi32>
def val_main_v20 : (⟨S4096, .i32⟩ : BufTy).Contents (Elt F) :=
  iotaInDim S4096 32 0
theorem val_main_v20_apply (i : S4096.Idx) :
    val_main_v20 (F := F) i = BitVec.ofNat 32 (i 0).val := rfl

-- @log_softmax's %cst = stablehlo.constant dense<0xFF800000> : tensor<f32>, in %21 = func.call @log_softmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @log_softmax's %0 = stablehlo.reduce(%arg0 init: %cst) applies stablehlo.maximum across dimensions = [1] : (tensor<4096x8192xf32>, tensor<f32>) -> tensor<4096xf32> {, in %21 = func.call @log_softmax(…) (record main_call0)
def val_main_call0_v0 (x0 x1 x2 : (⟨S4096x1024, .f32⟩ : BufTy).Contents (Elt F)) : (⟨S4096, .f32⟩ : BufTy).Contents (Elt F) :=
  Host.reduce FloatOps.maximumf (val_main_v19 (F := F) x0 x1 x2) (val_main_call0_cst (F := F)) reducesTo_S4096x8192_S4096_d1 h_S_

-- @log_softmax's %cst_0 = stablehlo.constant dense<0xFF800000> : tensor<f32>, in %21 = func.call @log_softmax(…) (record main_call0)
def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

-- @log_softmax's %1 = stablehlo.broadcast_in_dim %cst_0, dims = [] : (tensor<f32>) -> tensor<4096xf32>, in %21 = func.call @log_softmax(…) (record main_call0)
def val_main_call0_v1 : (⟨S4096, .f32⟩ : BufTy).Contents (Elt F) :=
  broadcastInDim S4096 ![] bcast_S_S4096 (val_main_call0_cst_0 (F := F))
abbrev idx_main_call0_v1 (i : S4096.Idx) : S_.Idx := fun a => a.elim0
theorem val_main_call0_v1_apply (i : S4096.Idx) :
    val_main_call0_v1 (F := F) i = val_main_call0_cst_0 (F := F) (idx_main_call0_v1 i) := by
  unfold val_main_call0_v1
  generalize val_main_call0_cst_0 (F := F) = y
  exact broadcastInDim_apply _ bcast_S_S4096 y i (idx_main_call0_v1 i) (fun a => a.elim0)

-- @log_softmax's %2 = stablehlo.maximum %1, %0 : tensor<4096xf32>, in %21 = func.call @log_softmax(…) (record main_call0)
def val_main_call0_v2 (x0 x1 x2 : (⟨S4096x1024, .f32⟩ : BufTy).Contents (Elt F)) : (⟨S4096, .f32⟩ : BufTy).Contents (Elt F) :=
  maximumf (val_main_call0_v1 (F := F)) (val_main_call0_v0 (F := F) x0 x1 x2)
theorem val_main_call0_v2_apply (x0 x1 x2 : (⟨S4096x1024, .f32⟩ : BufTy).Contents (Elt F)) (i : S4096.Idx) :
    val_main_call0_v2 (F := F) x0 x1 x2 i = FloatOps.maximumf (val_main_call0_v1 (F := F) i) (val_main_call0_v0 (F := F) x0 x1 x2 i) := rfl

-- @log_softmax's %3 = stablehlo.broadcast_in_dim %2, dims = [0] : (tensor<4096xf32>) -> tensor<4096x1xf32>, in %21 = func.call @log_softmax(…) (record main_call0)
def val_main_call0_v3 (x0 x1 x2 : (⟨S4096x1024, .f32⟩ : BufTy).Contents (Elt F)) : (⟨S4096x1, .f32⟩ : BufTy).Contents (Elt F) :=
  broadcastInDim S4096x1 ![0] bcast_S4096_S4096x1_0 (val_main_call0_v2 (F := F) x0 x1 x2)
abbrev idx_main_call0_v3 (i : S4096x1.Idx) : S4096.Idx := fun a => match a with
  | ⟨0, _⟩ => ⟨(i 0).val, (i 0).isLt⟩
theorem val_main_call0_v3_apply (x0 x1 x2 : (⟨S4096x1024, .f32⟩ : BufTy).Contents (Elt F)) (i : S4096x1.Idx) :
    val_main_call0_v3 (F := F) x0 x1 x2 i = val_main_call0_v2 (F := F) x0 x1 x2 (idx_main_call0_v3 i) := by
  unfold val_main_call0_v3
  generalize val_main_call0_v2 (F := F) x0 x1 x2 = y
  exact broadcastInDim_apply _ bcast_S4096_S4096x1_0 y i (idx_main_call0_v3 i) (fun a => match a with
    | ⟨0, _⟩ => by show (i 0).val = if (4096 : Nat) = 1 then 0 else (i 0).val; rw [if_neg (by decide)])

-- @log_softmax's %4 = stablehlo.broadcast_in_dim %3, dims = [0, 1] : (tensor<4096x1xf32>) -> tensor<4096x8192xf32>, in %21 = func.call @log_softmax(…) (record main_call0)
def val_main_call0_v4 (x0 x1 x2 : (⟨S4096x1024, .f32⟩ : BufTy).Contents (Elt F)) : (⟨S4096x8192, .f32⟩ : BufTy).Contents (Elt F) :=
  broadcastInDim S4096x8192 ![0, 1] bcast_S4096x1_S4096x8192_0_1 (val_main_call0_v3 (F := F) x0 x1 x2)
abbrev idx_main_call0_v4 (i : S4096x8192.Idx) : S4096x1.Idx := fun a => match a with
  | ⟨0, _⟩ => ⟨(i 0).val, (i 0).isLt⟩
  | ⟨1, _⟩ => ⟨0, Nat.one_pos⟩
theorem val_main_call0_v4_apply (x0 x1 x2 : (⟨S4096x1024, .f32⟩ : BufTy).Contents (Elt F)) (i : S4096x8192.Idx) :
    val_main_call0_v4 (F := F) x0 x1 x2 i = val_main_call0_v3 (F := F) x0 x1 x2 (idx_main_call0_v4 i) := by
  unfold val_main_call0_v4
  generalize val_main_call0_v3 (F := F) x0 x1 x2 = y
  exact broadcastInDim_apply _ bcast_S4096x1_S4096x8192_0_1 y i (idx_main_call0_v4 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- @log_softmax's %5 = stablehlo.subtract %arg0, %4 : tensor<4096x8192xf32>, in %21 = func.call @log_softmax(…) (record main_call0)
def val_main_call0_v5 (x0 x1 x2 : (⟨S4096x1024, .f32⟩ : BufTy).Contents (Elt F)) : (⟨S4096x8192, .f32⟩ : BufTy).Contents (Elt F) :=
  subf (val_main_v19 (F := F) x0 x1 x2) (val_main_call0_v4 (F := F) x0 x1 x2)
theorem val_main_call0_v5_apply (x0 x1 x2 : (⟨S4096x1024, .f32⟩ : BufTy).Contents (Elt F)) (i : S4096x8192.Idx) :
    val_main_call0_v5 (F := F) x0 x1 x2 i = FloatOps.subf (val_main_v19 (F := F) x0 x1 x2 i) (val_main_call0_v4 (F := F) x0 x1 x2 i) := rfl

-- @log_softmax's %6 = stablehlo.exponential %5 : tensor<4096x8192xf32>, in %21 = func.call @log_softmax(…) (record main_call0)
def val_main_call0_v6 (x0 x1 x2 : (⟨S4096x1024, .f32⟩ : BufTy).Contents (Elt F)) : (⟨S4096x8192, .f32⟩ : BufTy).Contents (Elt F) :=
  Host.exp (val_main_call0_v5 (F := F) x0 x1 x2)
theorem val_main_call0_v6_apply (x0 x1 x2 : (⟨S4096x1024, .f32⟩ : BufTy).Contents (Elt F)) (i : S4096x8192.Idx) :
    val_main_call0_v6 (F := F) x0 x1 x2 i = FloatOps.hostUnary .exp (val_main_call0_v5 (F := F) x0 x1 x2 i) := rfl

-- @log_softmax's %cst_1 = stablehlo.constant dense<0.000000e+00> : tensor<f32>, in %21 = func.call @log_softmax(…) (record main_call0)
def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

-- @log_softmax's %7 = stablehlo.reduce(%6 init: %cst_1) applies stablehlo.add across dimensions = [1] : (tensor<4096x8192xf32>, tensor<f32>) -> tensor<4096xf32> {, in %21 = func.call @log_softmax(…) (record main_call0)
def val_main_call0_v7 (x0 x1 x2 : (⟨S4096x1024, .f32⟩ : BufTy).Contents (Elt F)) : (⟨S4096, .f32⟩ : BufTy).Contents (Elt F) :=
  Host.reduceAdd (val_main_call0_v6 (F := F) x0 x1 x2) (val_main_call0_cst_1 (F := F)) reducesTo_S4096x8192_S4096_d1 h_S_
abbrev idx_main_call0_v7 (i : S4096.Idx) (k : Fin 8192) : S4096x8192.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_call0_v7_apply (x0 x1 x2 : (⟨S4096x1024, .f32⟩ : BufTy).Contents (Elt Ideal)) (i : S4096.Idx) :
    val_main_call0_v7 (F := Ideal) x0 x1 x2 i = (val_main_call0_cst_1 (F := Ideal)) (Shape.Idx.first h_S_) + ∑ k : Fin 8192, (val_main_call0_v6 (F := Ideal) x0 x1 x2) (idx_main_call0_v7 i k) := by
  unfold val_main_call0_v7
  generalize val_main_call0_v6 (F := Ideal) x0 x1 x2 = y0
  simp only [Host.reduceAdd, Ideal.hostReduceAdd_def]
  rw [Ideal.hostReduceAdd_single reducesTo_S4096x8192_S4096_d1 (by decide)]
  refine congrArg (_ + ·) (Finset.sum_congr rfl fun k _ => ?_)
  exact congrArg y0 (funext fun a => Fin.ext (by match a with | ⟨0, _⟩ => rfl | ⟨1, _⟩ => rfl))

-- @log_softmax's %8 = stablehlo.broadcast_in_dim %7, dims = [0] : (tensor<4096xf32>) -> tensor<4096x1xf32>, in %21 = func.call @log_softmax(…) (record main_call0)
def val_main_call0_v8 (x0 x1 x2 : (⟨S4096x1024, .f32⟩ : BufTy).Contents (Elt F)) : (⟨S4096x1, .f32⟩ : BufTy).Contents (Elt F) :=
  broadcastInDim S4096x1 ![0] bcast_S4096_S4096x1_0 (val_main_call0_v7 (F := F) x0 x1 x2)
abbrev idx_main_call0_v8 (i : S4096x1.Idx) : S4096.Idx := fun a => match a with
  | ⟨0, _⟩ => ⟨(i 0).val, (i 0).isLt⟩
theorem val_main_call0_v8_apply (x0 x1 x2 : (⟨S4096x1024, .f32⟩ : BufTy).Contents (Elt F)) (i : S4096x1.Idx) :
    val_main_call0_v8 (F := F) x0 x1 x2 i = val_main_call0_v7 (F := F) x0 x1 x2 (idx_main_call0_v8 i) := by
  unfold val_main_call0_v8
  generalize val_main_call0_v7 (F := F) x0 x1 x2 = y
  exact broadcastInDim_apply _ bcast_S4096_S4096x1_0 y i (idx_main_call0_v8 i) (fun a => match a with
    | ⟨0, _⟩ => by show (i 0).val = if (4096 : Nat) = 1 then 0 else (i 0).val; rw [if_neg (by decide)])

-- @log_softmax's %9 = stablehlo.log %8 : tensor<4096x1xf32>, in %21 = func.call @log_softmax(…) (record main_call0)
def val_main_call0_v9 (x0 x1 x2 : (⟨S4096x1024, .f32⟩ : BufTy).Contents (Elt F)) : (⟨S4096x1, .f32⟩ : BufTy).Contents (Elt F) :=
  Host.log (val_main_call0_v8 (F := F) x0 x1 x2)
theorem val_main_call0_v9_apply (x0 x1 x2 : (⟨S4096x1024, .f32⟩ : BufTy).Contents (Elt F)) (i : S4096x1.Idx) :
    val_main_call0_v9 (F := F) x0 x1 x2 i = FloatOps.hostUnary .log (val_main_call0_v8 (F := F) x0 x1 x2 i) := rfl

-- @log_softmax's %10 = stablehlo.broadcast_in_dim %9, dims = [0, 1] : (tensor<4096x1xf32>) -> tensor<4096x8192xf32>, in %21 = func.call @log_softmax(…) (record main_call0)
def val_main_call0_v10 (x0 x1 x2 : (⟨S4096x1024, .f32⟩ : BufTy).Contents (Elt F)) : (⟨S4096x8192, .f32⟩ : BufTy).Contents (Elt F) :=
  broadcastInDim S4096x8192 ![0, 1] bcast_S4096x1_S4096x8192_0_1 (val_main_call0_v9 (F := F) x0 x1 x2)
abbrev idx_main_call0_v10 (i : S4096x8192.Idx) : S4096x1.Idx := fun a => match a with
  | ⟨0, _⟩ => ⟨(i 0).val, (i 0).isLt⟩
  | ⟨1, _⟩ => ⟨0, Nat.one_pos⟩
theorem val_main_call0_v10_apply (x0 x1 x2 : (⟨S4096x1024, .f32⟩ : BufTy).Contents (Elt F)) (i : S4096x8192.Idx) :
    val_main_call0_v10 (F := F) x0 x1 x2 i = val_main_call0_v9 (F := F) x0 x1 x2 (idx_main_call0_v10 i) := by
  unfold val_main_call0_v10
  generalize val_main_call0_v9 (F := F) x0 x1 x2 = y
  exact broadcastInDim_apply _ bcast_S4096x1_S4096x8192_0_1 y i (idx_main_call0_v10 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %21 = func.call @log_softmax(…) (record main_call0) result 0: @log_softmax's %11 = stablehlo.subtract %5, %10 : tensor<4096x8192xf32>
def val_main_v21 (x0 x1 x2 : (⟨S4096x1024, .f32⟩ : BufTy).Contents (Elt F)) : (⟨S4096x8192, .f32⟩ : BufTy).Contents (Elt F) :=
  subf (val_main_call0_v5 (F := F) x0 x1 x2) (val_main_call0_v10 (F := F) x0 x1 x2)
theorem val_main_v21_apply (x0 x1 x2 : (⟨S4096x1024, .f32⟩ : BufTy).Contents (Elt F)) (i : S4096x8192.Idx) :
    val_main_v21 (F := F) x0 x1 x2 i = FloatOps.subf (val_main_call0_v5 (F := F) x0 x1 x2 i) (val_main_call0_v10 (F := F) x0 x1 x2 i) := rfl

-- %22 = stablehlo.broadcast_in_dim %20, dims = [0] : (tensor<4096xi32>) -> tensor<4096x1xi32>
def val_main_v22 : (⟨S4096x1, .i32⟩ : BufTy).Contents (Elt F) :=
  broadcastInDim S4096x1 ![0] bcast_S4096_S4096x1_0 (val_main_v20 (F := F))
abbrev idx_main_v22 (i : S4096x1.Idx) : S4096.Idx := fun a => match a with
  | ⟨0, _⟩ => ⟨(i 0).val, (i 0).isLt⟩
theorem val_main_v22_apply (i : S4096x1.Idx) :
    val_main_v22 (F := F) i = val_main_v20 (F := F) (idx_main_v22 i) := by
  unfold val_main_v22
  generalize val_main_v20 (F := F) = y
  exact broadcastInDim_apply _ bcast_S4096_S4096x1_0 y i (idx_main_v22 i) (fun a => match a with
    | ⟨0, _⟩ => by show (i 0).val = if (4096 : Nat) = 1 then 0 else (i 0).val; rw [if_neg (by decide)])

-- @take_along_axis's %c = stablehlo.constant dense<0> : tensor<i32>, in %23 = func.call @take_along_axis(…) (record main_call1)
def val_main_call1_c : (⟨S_, .i32⟩ : BufTy).Contents (Elt F) :=
  constantI S_ 32 0#32
theorem val_main_call1_c_apply (i : S_.Idx) :
    val_main_call1_c (F := F) i = 0#32 := rfl

-- @take_along_axis's %0 = stablehlo.broadcast_in_dim %c, dims = [] : (tensor<i32>) -> tensor<4096x1xi32>, in %23 = func.call @take_along_axis(…) (record main_call1)
def val_main_call1_v0 : (⟨S4096x1, .i32⟩ : BufTy).Contents (Elt F) :=
  broadcastInDim S4096x1 ![] bcast_S_S4096x1 (val_main_call1_c (F := F))
abbrev idx_main_call1_v0 (i : S4096x1.Idx) : S_.Idx := fun a => a.elim0
theorem val_main_call1_v0_apply (i : S4096x1.Idx) :
    val_main_call1_v0 (F := F) i = val_main_call1_c (F := F) (idx_main_call1_v0 i) := by
  unfold val_main_call1_v0
  generalize val_main_call1_c (F := F) = y
  exact broadcastInDim_apply _ bcast_S_S4096x1 y i (idx_main_call1_v0 i) (fun a => a.elim0)

-- @take_along_axis's %1 = stablehlo.compare LT, %arg1, %0, SIGNED : (tensor<4096x1xi32>, tensor<4096x1xi32>) -> tensor<4096x1xi1>, in %23 = func.call @take_along_axis(…) (record main_call1)
def val_main_call1_v1 : (⟨S4096x1, .i1⟩ : BufTy).Contents (Elt F) :=
  cmpi .slt (val_main_v22 (F := F)) (val_main_call1_v0 (F := F))
theorem val_main_call1_v1_apply (i : S4096x1.Idx) :
    val_main_call1_v1 (F := F) i = IntOp.cmpi .slt (val_main_v22 (F := F) i) (val_main_call1_v0 (F := F) i) := rfl

-- @take_along_axis's %c_0 = stablehlo.constant dense<8192> : tensor<i32>, in %23 = func.call @take_along_axis(…) (record main_call1)
def val_main_call1_c_0 : (⟨S_, .i32⟩ : BufTy).Contents (Elt F) :=
  constantI S_ 32 8192#32
theorem val_main_call1_c_0_apply (i : S_.Idx) :
    val_main_call1_c_0 (F := F) i = 8192#32 := rfl

-- @take_along_axis's %2 = stablehlo.broadcast_in_dim %c_0, dims = [] : (tensor<i32>) -> tensor<4096x1xi32>, in %23 = func.call @take_along_axis(…) (record main_call1)
def val_main_call1_v2 : (⟨S4096x1, .i32⟩ : BufTy).Contents (Elt F) :=
  broadcastInDim S4096x1 ![] bcast_S_S4096x1 (val_main_call1_c_0 (F := F))
abbrev idx_main_call1_v2 (i : S4096x1.Idx) : S_.Idx := fun a => a.elim0
theorem val_main_call1_v2_apply (i : S4096x1.Idx) :
    val_main_call1_v2 (F := F) i = val_main_call1_c_0 (F := F) (idx_main_call1_v2 i) := by
  unfold val_main_call1_v2
  generalize val_main_call1_c_0 (F := F) = y
  exact broadcastInDim_apply _ bcast_S_S4096x1 y i (idx_main_call1_v2 i) (fun a => a.elim0)

-- @take_along_axis's %3 = stablehlo.add %arg1, %2 : tensor<4096x1xi32>, in %23 = func.call @take_along_axis(…) (record main_call1)
def val_main_call1_v3 : (⟨S4096x1, .i32⟩ : BufTy).Contents (Elt F) :=
  addi (val_main_v22 (F := F)) (val_main_call1_v2 (F := F))
theorem val_main_call1_v3_apply (i : S4096x1.Idx) :
    val_main_call1_v3 (F := F) i = IntOp.addi (val_main_v22 (F := F) i) (val_main_call1_v2 (F := F) i) := rfl

-- @take_along_axis's %4 = stablehlo.select %1, %3, %arg1 : tensor<4096x1xi1>, tensor<4096x1xi32>, in %23 = func.call @take_along_axis(…) (record main_call1)
def val_main_call1_v4 : (⟨S4096x1, .i32⟩ : BufTy).Contents (Elt F) :=
  select (val_main_call1_v1 (F := F)) (val_main_call1_v3 (F := F)) (val_main_v22 (F := F))
theorem val_main_call1_v4_apply (i : S4096x1.Idx) :
    val_main_call1_v4 (F := F) i = Scalar.select (val_main_call1_v1 (F := F) i) (val_main_call1_v3 (F := F) i) (val_main_v22 (F := F) i) := rfl

-- @take_along_axis's %5 = stablehlo.reshape %4 : (tensor<4096x1xi32>) -> tensor<4096x1x1xi32>, in %23 = func.call @take_along_axis(…) (record main_call1)
def val_main_call1_v5 : (⟨S4096x1x1, .i32⟩ : BufTy).Contents (Elt F) :=
  shapeCast _ (val_main_call1_v4 (F := F)) shapeCasts_S4096x1_S4096x1x1
abbrev idx_main_call1_v5 (i : S4096x1x1.Idx) : S4096x1.Idx := fun a => match a with
  | ⟨0, _⟩ => ⟨(((i 0).val * 1 + (i 1).val) * 1 + (i 2).val) / 1, by have h0 : (i 0).val < 4096 := (i 0).isLt; have h1 : (i 1).val < 1 := (i 1).isLt; have h2 : (i 2).val < 1 := (i 2).isLt; show (((i 0).val * 1 + (i 1).val) * 1 + (i 2).val) / 1 < 4096; omega⟩
  | ⟨1, _⟩ => ⟨0, Nat.one_pos⟩
theorem val_main_call1_v5_apply (i : S4096x1x1.Idx) :
    val_main_call1_v5 (F := F) i = val_main_call1_v4 (F := F) (idx_main_call1_v5 i) := by
  unfold val_main_call1_v5
  generalize val_main_call1_v4 (F := F) = y
  exact shapeCast_apply y shapeCasts_S4096x1_S4096x1x1 i (idx_main_call1_v5 i)
    (by rewrite [Shape.rowMajor_val_two, Shape.rowMajor_val_three]; have h0 : (i 0).val < 4096 := (i 0).isLt; have h1 : (i 1).val < 1 := (i 1).isLt; have h2 : (i 2).val < 1 := (i 2).isLt; show (((i 0).val * 1 + (i 1).val) * 1 + (i 2).val) / 1 * 1 + 0 = ((i 0).val * 1 + (i 1).val) * 1 + (i 2).val; omega)

-- @take_along_axis's %c_1 = stablehlo.constant dense<8191> : tensor<1xi32>, in %23 = func.call @take_along_axis(…) (record main_call1)
def val_main_call1_c_1 : (⟨S1, .i32⟩ : BufTy).Contents (Elt F) :=
  constantI S1 32 8191#32
theorem val_main_call1_c_1_apply (i : S1.Idx) :
    val_main_call1_c_1 (F := F) i = 8191#32 := rfl

-- @take_along_axis's %c_2 = stablehlo.constant dense<0> : tensor<i32>, in %23 = func.call @take_along_axis(…) (record main_call1)
def val_main_call1_c_2 : (⟨S_, .i32⟩ : BufTy).Contents (Elt F) :=
  constantI S_ 32 0#32
theorem val_main_call1_c_2_apply (i : S_.Idx) :
    val_main_call1_c_2 (F := F) i = 0#32 := rfl

-- @take_along_axis's %6 = stablehlo.broadcast_in_dim %c_2, dims = [] : (tensor<i32>) -> tensor<4096x1x1xi32>, in %23 = func.call @take_along_axis(…) (record main_call1)
def val_main_call1_v6 : (⟨S4096x1x1, .i32⟩ : BufTy).Contents (Elt F) :=
  broadcastInDim S4096x1x1 ![] bcast_S_S4096x1x1 (val_main_call1_c_2 (F := F))
abbrev idx_main_call1_v6 (i : S4096x1x1.Idx) : S_.Idx := fun a => a.elim0
theorem val_main_call1_v6_apply (i : S4096x1x1.Idx) :
    val_main_call1_v6 (F := F) i = val_main_call1_c_2 (F := F) (idx_main_call1_v6 i) := by
  unfold val_main_call1_v6
  generalize val_main_call1_c_2 (F := F) = y
  exact broadcastInDim_apply _ bcast_S_S4096x1x1 y i (idx_main_call1_v6 i) (fun a => a.elim0)

-- @take_along_axis's %7 = stablehlo.compare GE, %5, %6, SIGNED : (tensor<4096x1x1xi32>, tensor<4096x1x1xi32>) -> tensor<4096x1x1xi1>, in %23 = func.call @take_along_axis(…) (record main_call1)
def val_main_call1_v7 : (⟨S4096x1x1, .i1⟩ : BufTy).Contents (Elt F) :=
  cmpi .sge (val_main_call1_v5 (F := F)) (val_main_call1_v6 (F := F))
theorem val_main_call1_v7_apply (i : S4096x1x1.Idx) :
    val_main_call1_v7 (F := F) i = IntOp.cmpi .sge (val_main_call1_v5 (F := F) i) (val_main_call1_v6 (F := F) i) := rfl

-- @take_along_axis's %8 = stablehlo.broadcast_in_dim %c_1, dims = [2] : (tensor<1xi32>) -> tensor<1x1x1xi32>, in %23 = func.call @take_along_axis(…) (record main_call1)
def val_main_call1_v8 : (⟨S1x1x1, .i32⟩ : BufTy).Contents (Elt F) :=
  broadcastInDim S1x1x1 ![2] bcast_S1_S1x1x1_2 (val_main_call1_c_1 (F := F))
abbrev idx_main_call1_v8 (i : S1x1x1.Idx) : S1.Idx := fun a => match a with
  | ⟨0, _⟩ => ⟨0, Nat.one_pos⟩
theorem val_main_call1_v8_apply (i : S1x1x1.Idx) :
    val_main_call1_v8 (F := F) i = val_main_call1_c_1 (F := F) (idx_main_call1_v8 i) := by
  unfold val_main_call1_v8
  generalize val_main_call1_c_1 (F := F) = y
  exact broadcastInDim_apply _ bcast_S1_S1x1x1_2 y i (idx_main_call1_v8 i) (fun a => match a with
    | ⟨0, _⟩ => by show 0 = if (1 : Nat) = 1 then 0 else (i 2).val; rw [if_pos rfl])

-- @take_along_axis's %9 = stablehlo.broadcast_in_dim %8, dims = [0, 1, 2] : (tensor<1x1x1xi32>) -> tensor<4096x1x1xi32>, in %23 = func.call @take_along_axis(…) (record main_call1)
def val_main_call1_v9 : (⟨S4096x1x1, .i32⟩ : BufTy).Contents (Elt F) :=
  broadcastInDim S4096x1x1 ![0, 1, 2] bcast_S1x1x1_S4096x1x1_0_1_2 (val_main_call1_v8 (F := F))
abbrev idx_main_call1_v9 (i : S4096x1x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call1_v9_apply (i : S4096x1x1.Idx) :
    val_main_call1_v9 (F := F) i = val_main_call1_v8 (F := F) (idx_main_call1_v9 i) := by
  unfold val_main_call1_v9
  generalize val_main_call1_v8 (F := F) = y
  exact broadcastInDim_apply _ bcast_S1x1x1_S4096x1x1_0_1_2 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis's %10 = stablehlo.compare LE, %5, %9, SIGNED : (tensor<4096x1x1xi32>, tensor<4096x1x1xi32>) -> tensor<4096x1x1xi1>, in %23 = func.call @take_along_axis(…) (record main_call1)
def val_main_call1_v10 : (⟨S4096x1x1, .i1⟩ : BufTy).Contents (Elt F) :=
  cmpi .sle (val_main_call1_v5 (F := F)) (val_main_call1_v9 (F := F))
theorem val_main_call1_v10_apply (i : S4096x1x1.Idx) :
    val_main_call1_v10 (F := F) i = IntOp.cmpi .sle (val_main_call1_v5 (F := F) i) (val_main_call1_v9 (F := F) i) := rfl

-- @take_along_axis's %11 = stablehlo.and %7, %10 : tensor<4096x1x1xi1>, in %23 = func.call @take_along_axis(…) (record main_call1)
def val_main_call1_v11 : (⟨S4096x1x1, .i1⟩ : BufTy).Contents (Elt F) :=
  andi (val_main_call1_v7 (F := F)) (val_main_call1_v10 (F := F))
theorem val_main_call1_v11_apply (i : S4096x1x1.Idx) :
    val_main_call1_v11 (F := F) i = IntOp.andi (val_main_call1_v7 (F := F) i) (val_main_call1_v10 (F := F) i) := rfl

-- @take_along_axis's %c_3 = stablehlo.constant dense<true> : tensor<i1>, in %23 = func.call @take_along_axis(…) (record main_call1)
def val_main_call1_c_3 : (⟨S_, .i1⟩ : BufTy).Contents (Elt F) :=
  constantI S_ 1 1#1
theorem val_main_call1_c_3_apply (i : S_.Idx) :
    val_main_call1_c_3 (F := F) i = 1#1 := rfl

-- @take_along_axis's %12 = stablehlo.reduce(%11 init: %c_3) applies stablehlo.and across dimensions = [2] : (tensor<4096x1x1xi1>, tensor<i1>) -> tensor<4096x1xi1> {, in %23 = func.call @take_along_axis(…) (record main_call1)
def val_main_call1_v12 : (⟨S4096x1, .i1⟩ : BufTy).Contents (Elt F) :=
  Host.reduce IntOp.andi (val_main_call1_v11 (F := F)) (val_main_call1_c_3 (F := F)) reducesTo_S4096x1x1_S4096x1_d2 h_S_

-- @take_along_axis's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<4096x8192xf32>, tensor<4096x1x1xi32>) -> tensor<4096x1xf32>, in %23 = func.call @take_along_axis(…) (record main_call1)
def val_main_call1_v13 (x0 x1 x2 : (⟨S4096x1024, .f32⟩ : BufTy).Contents (Elt F)) : (⟨S4096x1, .f32⟩ : BufTy).Contents (Elt F) :=
  Host.gather gather_S4096x8192_S4096x1x1_S4096x1_n_1_0_0_1_2_11 (val_main_v21 (F := F) x0 x1 x2) (val_main_call1_v5 (F := F))

-- @take_along_axis's %cst = stablehlo.constant dense<0x7FC00000> : tensor<f32>, in %23 = func.call @take_along_axis(…) (record main_call1)
def val_main_call1_cst : (⟨S_, .f32⟩ : BufTy).Contents (Elt F) :=
  constant S_ .f32 0x7FC00000#32
theorem val_main_call1_cst_apply (i : S_.Idx) :
    val_main_call1_cst (F := F) i = FloatOps.ofBits .f32 0x7FC00000#32 := rfl

-- @take_along_axis's %14 = stablehlo.broadcast_in_dim %cst, dims = [] : (tensor<f32>) -> tensor<4096x1xf32>, in %23 = func.call @take_along_axis(…) (record main_call1)
def val_main_call1_v14 : (⟨S4096x1, .f32⟩ : BufTy).Contents (Elt F) :=
  broadcastInDim S4096x1 ![] bcast_S_S4096x1 (val_main_call1_cst (F := F))
abbrev idx_main_call1_v14 (i : S4096x1.Idx) : S_.Idx := fun a => a.elim0
theorem val_main_call1_v14_apply (i : S4096x1.Idx) :
    val_main_call1_v14 (F := F) i = val_main_call1_cst (F := F) (idx_main_call1_v14 i) := by
  unfold val_main_call1_v14
  generalize val_main_call1_cst (F := F) = y
  exact broadcastInDim_apply _ bcast_S_S4096x1 y i (idx_main_call1_v14 i) (fun a => a.elim0)

-- %23 = func.call @take_along_axis(…) (record main_call1) result 0: @take_along_axis's %15 = stablehlo.select %12, %13, %14 : tensor<4096x1xi1>, tensor<4096x1xf32>
def val_main_v23 (x0 x1 x2 : (⟨S4096x1024, .f32⟩ : BufTy).Contents (Elt F)) : (⟨S4096x1, .f32⟩ : BufTy).Contents (Elt F) :=
  select (val_main_call1_v12 (F := F)) (val_main_call1_v13 (F := F) x0 x1 x2) (val_main_call1_v14 (F := F))
theorem val_main_v23_apply (x0 x1 x2 : (⟨S4096x1024, .f32⟩ : BufTy).Contents (Elt F)) (i : S4096x1.Idx) :
    val_main_v23 (F := F) x0 x1 x2 i = Scalar.select (val_main_call1_v12 (F := F) i) (val_main_call1_v13 (F := F) x0 x1 x2 i) (val_main_call1_v14 (F := F) i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %24 = stablehlo.reduce(%23 init: %cst_4) applies stablehlo.add across dimensions = [0, 1] : (tensor<4096x1xf32>, tensor<f32>) -> tensor<f32> {
def val_main_v24 (x0 x1 x2 : (⟨S4096x1024, .f32⟩ : BufTy).Contents (Elt F)) : (⟨S_, .f32⟩ : BufTy).Contents (Elt F) :=
  Host.reduceAdd (val_main_v23 (F := F) x0 x1 x2) (val_main_cst_4 (F := F)) reducesTo_S4096x1_S_d0_1 h_S_
/-- Stated at `F := Ideal`, where the host's float sum is this sum; at a bit-exact instance it is an opaque function of its operand. -/
theorem val_main_v24_apply (x0 x1 x2 : (⟨S4096x1024, .f32⟩ : BufTy).Contents (Elt Ideal)) (i : S_.Idx) :
    val_main_v24 (F := Ideal) x0 x1 x2 i = (val_main_cst_4 (F := Ideal)) (Shape.Idx.first h_S_) + ∑ j : S4096x1.Idx, (val_main_v23 (F := Ideal) x0 x1 x2) j := by
  unfold val_main_v24
  generalize val_main_v23 (F := Ideal) x0 x1 x2 = y0
  simp only [Host.reduceAdd, Ideal.hostReduceAdd_def]
  exact Ideal.hostReduceAdd_total reducesTo_S4096x1_S_d0_1 (fun b => b.elim0) y0 _ i

-- %cst_5 = stablehlo.constant dense<4.096000e+03> : tensor<f32>
def val_main_cst_5 : (⟨S_, .f32⟩ : BufTy).Contents (Elt F) :=
  constant S_ .f32 0x45800000#32
theorem val_main_cst_5_apply (i : S_.Idx) :
    val_main_cst_5 (F := F) i = FloatOps.ofBits .f32 0x45800000#32 := rfl

-- %25 = stablehlo.divide %24, %cst_5 : tensor<f32>
def val_main_v25 (x0 x1 x2 : (⟨S4096x1024, .f32⟩ : BufTy).Contents (Elt F)) : (⟨S_, .f32⟩ : BufTy).Contents (Elt F) :=
  Host.divf (val_main_v24 (F := F) x0 x1 x2) (val_main_cst_5 (F := F))
theorem val_main_v25_apply (x0 x1 x2 : (⟨S4096x1024, .f32⟩ : BufTy).Contents (Elt F)) (i : S_.Idx) :
    val_main_v25 (F := F) x0 x1 x2 i = FloatOps.hostDivf (val_main_v24 (F := F) x0 x1 x2 i) (val_main_cst_5 (F := F) i) := rfl

-- %26 = stablehlo.negate %25 : tensor<f32>
def val_main_v26 (x0 x1 x2 : (⟨S4096x1024, .f32⟩ : BufTy).Contents (Elt F)) : (⟨S_, .f32⟩ : BufTy).Contents (Elt F) :=
  Host.negf (val_main_v25 (F := F) x0 x1 x2)
theorem val_main_v26_apply (x0 x1 x2 : (⟨S4096x1024, .f32⟩ : BufTy).Contents (Elt F)) (i : S_.Idx) :
    val_main_v26 (F := F) x0 x1 x2 i = FloatOps.hostNegf (val_main_v25 (F := F) x0 x1 x2 i) := rfl

end Cert.ReferenceIdeal.RefRead

end
-- ==== Proof.RefResult.lean ====
/-
  The reference's result is its last stage.  The 69 operations are followed one at a time: after each, the
  buffer it wrote holds its stage (the operation applied to the stages of its operands) and every buffer still
  to be read keeps what it held.
-/
import proofs.«148176_j63874753626759_2_alg».proof.Proof.RefRead

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 40000000 in
/-- From any contents V0 of the buffers that holds the three arguments, the operations leave the result buffer
    at the last stage. -/
theorem after_ops (x0 x1 x2 : (⟨S4096x1024, .f32⟩ : BufTy).Contents (Elt F)) (V0 : Valuation τ sig (Elt F))
    (h_main_arg0 : V0 (Proc.devRef .tc main_arg0) = x0) (h_main_arg1 : V0 (Proc.devRef .tc main_arg1) = x1)
    (h_main_arg2 : V0 (Proc.devRef .tc main_arg2) = x2) :
    StableHlo.after (RefSide.ops (F := F)) V0 (Proc.devRef .tc main_v26) = val_main_v26 (F := F) x0 x1 x2 := by
  -- main_v0
  rw [after_cons]
  generalize hV : HloOp.result _ V0 = V1
  have h_main_v0' : V1 (Proc.devRef .tc main_v0) = val_main_v0 (F := F) x0 := by
    rw [← hV, binary_result]
    rw [h_main_arg0]
    rfl
  have h_main_arg0' : V1 (Proc.devRef .tc main_arg0) = x0 := by
    rw [← hV, binary_result_ne]
    · exact h_main_arg0
    · decide
  have h_main_arg1' : V1 (Proc.devRef .tc main_arg1) = x1 := by
    rw [← hV, binary_result_ne]
    · exact h_main_arg1
    · decide
  have h_main_arg2' : V1 (Proc.devRef .tc main_arg2) = x2 := by
    rw [← hV, binary_result_ne]
    · exact h_main_arg2
    · decide
  clear hV h_main_arg0 h_main_arg1 h_main_arg2
  rename' h_main_arg0' => h_main_arg0
  rename' h_main_arg1' => h_main_arg1
  rename' h_main_arg2' => h_main_arg2
  rename' h_main_v0' => h_main_v0
  -- main_cst
  rw [after_cons]
  generalize hV : HloOp.result _ V1 = V2
  have h_main_cst' : V2 (Proc.devRef .tc main_cst) = val_main_cst (F := F) := by
    rw [← hV, nullary_result]
    rfl
  have h_main_arg0' : V2 (Proc.devRef .tc main_arg0) = x0 := by
    rw [← hV, nullary_result_ne]
    · exact h_main_arg0
    · decide
  have h_main_arg1' : V2 (Proc.devRef .tc main_arg1) = x1 := by
    rw [← hV, nullary_result_ne]
    · exact h_main_arg1
    · decide
  have h_main_arg2' : V2 (Proc.devRef .tc main_arg2) = x2 := by
    rw [← hV, nullary_result_ne]
    · exact h_main_arg2
    · decide
  have h_main_v0' : V2 (Proc.devRef .tc main_v0) = val_main_v0 (F := F) x0 := by
    rw [← hV, nullary_result_ne]
    · exact h_main_v0
    · decide
  clear hV h_main_arg0 h_main_arg1 h_main_arg2 h_main_v0
  rename' h_main_arg0' => h_main_arg0
  rename' h_main_arg1' => h_main_arg1
  rename' h_main_arg2' => h_main_arg2
  rename' h_main_v0' => h_main_v0
  rename' h_main_cst' => h_main_cst
  -- main_v1
  rw [after_cons]
  generalize hV : HloOp.result _ V2 = V3
  have h_main_v1' : V3 (Proc.devRef .tc main_v1) = val_main_v1 (F := F) x0 := by
    rw [← hV, binary_result]
    rw [h_main_v0, h_main_cst]
    rfl
  have h_main_arg0' : V3 (Proc.devRef .tc main_arg0) = x0 := by
    rw [← hV, binary_result_ne]
    · exact h_main_arg0
    · decide
  have h_main_arg1' : V3 (Proc.devRef .tc main_arg1) = x1 := by
    rw [← hV, binary_result_ne]
    · exact h_main_arg1
    · decide
  have h_main_arg2' : V3 (Proc.devRef .tc main_arg2) = x2 := by
    rw [← hV, binary_result_ne]
    · exact h_main_arg2
    · decide
  clear hV h_main_arg0 h_main_arg1 h_main_arg2 h_main_v0 h_main_cst
  rename' h_main_arg0' => h_main_arg0
  rename' h_main_arg1' => h_main_arg1
  rename' h_main_arg2' => h_main_arg2
  rename' h_main_v1' => h_main_v1
  -- main_v2
  rw [after_cons]
  generalize hV : HloOp.result _ V3 = V4
  have h_main_v2' : V4 (Proc.devRef .tc main_v2) = val_main_v2 (F := F) x0 := by
    rw [← hV, unary_result]
    rw [h_main_v1]
    rfl
  have h_main_arg0' : V4 (Proc.devRef .tc main_arg0) = x0 := by
    rw [← hV, unary_result_ne]
    · exact h_main_arg0
    · decide
  have h_main_arg1' : V4 (Proc.devRef .tc main_arg1) = x1 := by
    rw [← hV, unary_result_ne]
    · exact h_main_arg1
    · decide
  have h_main_arg2' : V4 (Proc.devRef .tc main_arg2) = x2 := by
    rw [← hV, unary_result_ne]
    · exact h_main_arg2
    · decide
  clear hV h_main_arg0 h_main_arg1 h_main_arg2 h_main_v1
  rename' h_main_arg0' => h_main_arg0
  rename' h_main_arg1' => h_main_arg1
  rename' h_main_arg2' => h_main_arg2
  rename' h_main_v2' => h_main_v2
  -- main_v3
  rw [after_cons]
  generalize hV : HloOp.result _ V4 = V5
  have h_main_v3' : V5 (Proc.devRef .tc main_v3) = val_main_v3 (F := F) x0 := by
    rw [← hV, unary_result]
    rw [h_main_v2]
    rfl
  have h_main_arg0' : V5 (Proc.devRef .tc main_arg0) = x0 := by
    rw [← hV, unary_result_ne]
    · exact h_main_arg0
    · decide
  have h_main_arg1' : V5 (Proc.devRef .tc main_arg1) = x1 := by
    rw [← hV, unary_result_ne]
    · exact h_main_arg1
    · decide
  have h_main_arg2' : V5 (Proc.devRef .tc main_arg2) = x2 := by
    rw [← hV, unary_result_ne]
    · exact h_main_arg2
    · decide
  clear hV h_main_arg0 h_main_arg1 h_main_arg2 h_main_v2
  rename' h_main_arg0' => h_main_arg0
  rename' h_main_arg1' => h_main_arg1
  rename' h_main_arg2' => h_main_arg2
  rename' h_main_v3' => h_main_v3
  -- main_cst_0
  rw [after_cons]
  generalize hV : HloOp.result _ V5 = V6
  have h_main_cst_0' : V6 (Proc.devRef .tc main_cst_0) = val_main_cst_0 (F := F) := by
    rw [← hV, nullary_result]
    rfl
  have h_main_arg0' : V6 (Proc.devRef .tc main_arg0) = x0 := by
    rw [← hV, nullary_result_ne]
    · exact h_main_arg0
    · decide
  have h_main_arg1' : V6 (Proc.devRef .tc main_arg1) = x1 := by
    rw [← hV, nullary_result_ne]
    · exact h_main_arg1
    · decide
  have h_main_arg2' : V6 (Proc.devRef .tc main_arg2) = x2 := by
    rw [← hV, nullary_result_ne]
    · exact h_main_arg2
    · decide
  have h_main_v3' : V6 (Proc.devRef .tc main_v3) = val_main_v3 (F := F) x0 := by
    rw [← hV, nullary_result_ne]
    · exact h_main_v3
    · decide
  clear hV h_main_arg0 h_main_arg1 h_main_arg2 h_main_v3
  rename' h_main_arg0' => h_main_arg0
  rename' h_main_arg1' => h_main_arg1
  rename' h_main_arg2' => h_main_arg2
  rename' h_main_v3' => h_main_v3
  rename' h_main_cst_0' => h_main_cst_0
  -- main_v4
  rw [after_cons]
  generalize hV : HloOp.result _ V6 = V7
  have h_main_v4' : V7 (Proc.devRef .tc main_v4) = val_main_v4 (F := F) := by
    rw [← hV, unary_result]
    rw [h_main_cst_0]
    rfl
  have h_main_arg0' : V7 (Proc.devRef .tc main_arg0) = x0 := by
    rw [← hV, unary_result_ne]
    · exact h_main_arg0
    · decide
  have h_main_arg1' : V7 (Proc.devRef .tc main_arg1) = x1 := by
    rw [← hV, unary_result_ne]
    · exact h_main_arg1
    · decide
  have h_main_arg2' : V7 (Proc.devRef .tc main_arg2) = x2 := by
    rw [← hV, unary_result_ne]
    · exact h_main_arg2
    · decide
  have h_main_v3' : V7 (Proc.devRef .tc main_v3) = val_main_v3 (F := F) x0 := by
    rw [← hV, unary_result_ne]
    · exact h_main_v3
    · decide
  clear hV h_main_arg0 h_main_arg1 h_main_arg2 h_main_v3 h_main_cst_0
  rename' h_main_arg0' => h_main_arg0
  rename' h_main_arg1' => h_main_arg1
  rename' h_main_arg2' => h_main_arg2
  rename' h_main_v3' => h_main_v3
  rename' h_main_v4' => h_main_v4
  -- main_v5
  rw [after_cons]
  generalize hV : HloOp.result _ V7 = V8
  have h_main_v5' : V8 (Proc.devRef .tc main_v5) = val_main_v5 (F := F) x0 := by
    rw [← hV, binary_result]
    rw [h_main_v3, h_main_v4]
    rfl
  have h_main_arg0' : V8 (Proc.devRef .tc main_arg0) = x0 := by
    rw [← hV, binary_result_ne]
    · exact h_main_arg0
    · decide
  have h_main_arg1' : V8 (Proc.devRef .tc main_arg1) = x1 := by
    rw [← hV, binary_result_ne]
    · exact h_main_arg1
    · decide
  have h_main_arg2' : V8 (Proc.devRef .tc main_arg2) = x2 := by
    rw [← hV, binary_result_ne]
    · exact h_main_arg2
    · decide
  clear hV h_main_arg0 h_main_arg1 h_main_arg2 h_main_v3 h_main_v4
  rename' h_main_arg0' => h_main_arg0
  rename' h_main_arg1' => h_main_arg1
  rename' h_main_arg2' => h_main_arg2
  rename' h_main_v5' => h_main_v5
  -- main_v6
  rw [after_cons]
  generalize hV : HloOp.result _ V8 = V9
  have h_main_v6' : V9 (Proc.devRef .tc main_v6) = val_main_v6 (F := F) x0 := by
    rw [← hV, unary_result]
    rw [h_main_v5]
    rfl
  have h_main_arg0' : V9 (Proc.devRef .tc main_arg0) = x0 := by
    rw [← hV, unary_result_ne]
    · exact h_main_arg0
    · decide
  have h_main_arg1' : V9 (Proc.devRef .tc main_arg1) = x1 := by
    rw [← hV, unary_result_ne]
    · exact h_main_arg1
    · decide
  have h_main_arg2' : V9 (Proc.devRef .tc main_arg2) = x2 := by
    rw [← hV, unary_result_ne]
    · exact h_main_arg2
    · decide
  clear hV h_main_arg0 h_main_arg1 h_main_arg2 h_main_v5
  rename' h_main_arg0' => h_main_arg0
  rename' h_main_arg1' => h_main_arg1
  rename' h_main_arg2' => h_main_arg2
  rename' h_main_v6' => h_main_v6
  -- main_v7
  rw [after_cons]
  generalize hV : HloOp.result _ V9 = V10
  have h_main_v7' : V10 (Proc.devRef .tc main_v7) = val_main_v7 (F := F) x0 := by
    rw [← hV, binary_result]
    rw [h_main_arg0, h_main_v6]
    rfl
  have h_main_arg1' : V10 (Proc.devRef .tc main_arg1) = x1 := by
    rw [← hV, binary_result_ne]
    · exact h_main_arg1
    · decide
  have h_main_arg2' : V10 (Proc.devRef .tc main_arg2) = x2 := by
    rw [← hV, binary_result_ne]
    · exact h_main_arg2
    · decide
  clear hV h_main_arg0 h_main_arg1 h_main_arg2 h_main_v6
  rename' h_main_arg1' => h_main_arg1
  rename' h_main_arg2' => h_main_arg2
  rename' h_main_v7' => h_main_v7
  -- main_v8
  rw [after_cons]
  generalize hV : HloOp.result _ V10 = V11
  have h_main_v8' : V11 (Proc.devRef .tc main_v8) = val_main_v8 (F := F) x1 x2 := by
    rw [← hV, binary_result]
    rw [h_main_arg1, h_main_arg2]
    rfl
  have h_main_v7' : V11 (Proc.devRef .tc main_v7) = val_main_v7 (F := F) x0 := by
    rw [← hV, binary_result_ne]
    · exact h_main_v7
    · decide
  clear hV h_main_arg1 h_main_arg2 h_main_v7
  rename' h_main_v7' => h_main_v7
  rename' h_main_v8' => h_main_v8
  -- main_v9
  rw [after_cons]
  generalize hV : HloOp.result _ V11 = V12
  have h_main_v9' : V12 (Proc.devRef .tc main_v9) = val_main_v9 (F := F) x1 x2 := by
    rw [← hV, binary_result]
    rw [h_main_v8]
    rfl
  have h_main_v7' : V12 (Proc.devRef .tc main_v7) = val_main_v7 (F := F) x0 := by
    rw [← hV, binary_result_ne]
    · exact h_main_v7
    · decide
  have h_main_v8' : V12 (Proc.devRef .tc main_v8) = val_main_v8 (F := F) x1 x2 := by
    rw [← hV, binary_result_ne]
    · exact h_main_v8
    · decide
  clear hV h_main_v7 h_main_v8
  rename' h_main_v7' => h_main_v7
  rename' h_main_v8' => h_main_v8
  rename' h_main_v9' => h_main_v9
  -- main_cst_1
  rw [after_cons]
  generalize hV : HloOp.result _ V12 = V13
  have h_main_cst_1' : V13 (Proc.devRef .tc main_cst_1) = val_main_cst_1 (F := F) := by
    rw [← hV, nullary_result]
    rfl
  have h_main_v7' : V13 (Proc.devRef .tc main_v7) = val_main_v7 (F := F) x0 := by
    rw [← hV, nullary_result_ne]
    · exact h_main_v7
    · decide
  have h_main_v8' : V13 (Proc.devRef .tc main_v8) = val_main_v8 (F := F) x1 x2 := by
    rw [← hV, nullary_result_ne]
    · exact h_main_v8
    · decide
  have h_main_v9' : V13 (Proc.devRef .tc main_v9) = val_main_v9 (F := F) x1 x2 := by
    rw [← hV, nullary_result_ne]
    · exact h_main_v9
    · decide
  clear hV h_main_v7 h_main_v8 h_main_v9
  rename' h_main_v7' => h_main_v7
  rename' h_main_v8' => h_main_v8
  rename' h_main_v9' => h_main_v9
  rename' h_main_cst_1' => h_main_cst_1
  -- main_v10
  rw [after_cons]
  generalize hV : HloOp.result _ V13 = V14
  have h_main_v10' : V14 (Proc.devRef .tc main_v10) = val_main_v10 (F := F) x1 x2 := by
    rw [← hV, binary_result]
    rw [h_main_v9, h_main_cst_1]
    rfl
  have h_main_v7' : V14 (Proc.devRef .tc main_v7) = val_main_v7 (F := F) x0 := by
    rw [← hV, binary_result_ne]
    · exact h_main_v7
    · decide
  have h_main_v8' : V14 (Proc.devRef .tc main_v8) = val_main_v8 (F := F) x1 x2 := by
    rw [← hV, binary_result_ne]
    · exact h_main_v8
    · decide
  clear hV h_main_v7 h_main_v8 h_main_v9 h_main_cst_1
  rename' h_main_v7' => h_main_v7
  rename' h_main_v8' => h_main_v8
  rename' h_main_v10' => h_main_v10
  -- main_v11
  rw [after_cons]
  generalize hV : HloOp.result _ V14 = V15
  have h_main_v11' : V15 (Proc.devRef .tc main_v11) = val_main_v11 (F := F) x1 x2 := by
    rw [← hV, unary_result]
    rw [h_main_v10]
    rfl
  have h_main_v7' : V15 (Proc.devRef .tc main_v7) = val_main_v7 (F := F) x0 := by
    rw [← hV, unary_result_ne]
    · exact h_main_v7
    · decide
  have h_main_v8' : V15 (Proc.devRef .tc main_v8) = val_main_v8 (F := F) x1 x2 := by
    rw [← hV, unary_result_ne]
    · exact h_main_v8
    · decide
  clear hV h_main_v7 h_main_v8 h_main_v10
  rename' h_main_v7' => h_main_v7
  rename' h_main_v8' => h_main_v8
  rename' h_main_v11' => h_main_v11
  -- main_v12
  rw [after_cons]
  generalize hV : HloOp.result _ V15 = V16
  have h_main_v12' : V16 (Proc.devRef .tc main_v12) = val_main_v12 (F := F) x1 x2 := by
    rw [← hV, unary_result]
    rw [h_main_v11]
    rfl
  have h_main_v7' : V16 (Proc.devRef .tc main_v7) = val_main_v7 (F := F) x0 := by
    rw [← hV, unary_result_ne]
    · exact h_main_v7
    · decide
  have h_main_v8' : V16 (Proc.devRef .tc main_v8) = val_main_v8 (F := F) x1 x2 := by
    rw [← hV, unary_result_ne]
    · exact h_main_v8
    · decide
  clear hV h_main_v7 h_main_v8 h_main_v11
  rename' h_main_v7' => h_main_v7
  rename' h_main_v8' => h_main_v8
  rename' h_main_v12' => h_main_v12
  -- main_cst_2
  rw [after_cons]
  generalize hV : HloOp.result _ V16 = V17
  have h_main_cst_2' : V17 (Proc.devRef .tc main_cst_2) = val_main_cst_2 (F := F) := by
    rw [← hV, nullary_result]
    rfl
  have h_main_v7' : V17 (Proc.devRef .tc main_v7) = val_main_v7 (F := F) x0 := by
    rw [← hV, nullary_result_ne]
    · exact h_main_v7
    · decide
  have h_main_v8' : V17 (Proc.devRef .tc main_v8) = val_main_v8 (F := F) x1 x2 := by
    rw [← hV, nullary_result_ne]
    · exact h_main_v8
    · decide
  have h_main_v12' : V17 (Proc.devRef .tc main_v12) = val_main_v12 (F := F) x1 x2 := by
    rw [← hV, nullary_result_ne]
    · exact h_main_v12
    · decide
  clear hV h_main_v7 h_main_v8 h_main_v12
  rename' h_main_v7' => h_main_v7
  rename' h_main_v8' => h_main_v8
  rename' h_main_v12' => h_main_v12
  rename' h_main_cst_2' => h_main_cst_2
  -- main_v13
  rw [after_cons]
  generalize hV : HloOp.result _ V17 = V18
  have h_main_v13' : V18 (Proc.devRef .tc main_v13) = val_main_v13 (F := F) := by
    rw [← hV, unary_result]
    rw [h_main_cst_2]
    rfl
  have h_main_v7' : V18 (Proc.devRef .tc main_v7) = val_main_v7 (F := F) x0 := by
    rw [← hV, unary_result_ne]
    · exact h_main_v7
    · decide
  have h_main_v8' : V18 (Proc.devRef .tc main_v8) = val_main_v8 (F := F) x1 x2 := by
    rw [← hV, unary_result_ne]
    · exact h_main_v8
    · decide
  have h_main_v12' : V18 (Proc.devRef .tc main_v12) = val_main_v12 (F := F) x1 x2 := by
    rw [← hV, unary_result_ne]
    · exact h_main_v12
    · decide
  clear hV h_main_v7 h_main_v8 h_main_v12 h_main_cst_2
  rename' h_main_v7' => h_main_v7
  rename' h_main_v8' => h_main_v8
  rename' h_main_v12' => h_main_v12
  rename' h_main_v13' => h_main_v13
  -- main_v14
  rw [after_cons]
  generalize hV : HloOp.result _ V18 = V19
  have h_main_v14' : V19 (Proc.devRef .tc main_v14) = val_main_v14 (F := F) x1 x2 := by
    rw [← hV, binary_result]
    rw [h_main_v12, h_main_v13]
    rfl
  have h_main_v7' : V19 (Proc.devRef .tc main_v7) = val_main_v7 (F := F) x0 := by
    rw [← hV, binary_result_ne]
    · exact h_main_v7
    · decide
  have h_main_v8' : V19 (Proc.devRef .tc main_v8) = val_main_v8 (F := F) x1 x2 := by
    rw [← hV, binary_result_ne]
    · exact h_main_v8
    · decide
  clear hV h_main_v7 h_main_v8 h_main_v12 h_main_v13
  rename' h_main_v7' => h_main_v7
  rename' h_main_v8' => h_main_v8
  rename' h_main_v14' => h_main_v14
  -- main_v15
  rw [after_cons]
  generalize hV : HloOp.result _ V19 = V20
  have h_main_v15' : V20 (Proc.devRef .tc main_v15) = val_main_v15 (F := F) x1 x2 := by
    rw [← hV, unary_result]
    rw [h_main_v14]
    rfl
  have h_main_v7' : V20 (Proc.devRef .tc main_v7) = val_main_v7 (F := F) x0 := by
    rw [← hV, unary_result_ne]
    · exact h_main_v7
    · decide
  have h_main_v8' : V20 (Proc.devRef .tc main_v8) = val_main_v8 (F := F) x1 x2 := by
    rw [← hV, unary_result_ne]
    · exact h_main_v8
    · decide
  clear hV h_main_v7 h_main_v8 h_main_v14
  rename' h_main_v7' => h_main_v7
  rename' h_main_v8' => h_main_v8
  rename' h_main_v15' => h_main_v15
  -- main_v16
  rw [after_cons]
  generalize hV : HloOp.result _ V20 = V21
  have h_main_v16' : V21 (Proc.devRef .tc main_v16) = val_main_v16 (F := F) x1 x2 := by
    rw [← hV, binary_result]
    rw [h_main_v8, h_main_v15]
    rfl
  have h_main_v7' : V21 (Proc.devRef .tc main_v7) = val_main_v7 (F := F) x0 := by
    rw [← hV, binary_result_ne]
    · exact h_main_v7
    · decide
  clear hV h_main_v7 h_main_v8 h_main_v15
  rename' h_main_v7' => h_main_v7
  rename' h_main_v16' => h_main_v16
  -- main_v17
  rw [after_cons]
  generalize hV : HloOp.result _ V21 = V22
  have h_main_v17' : V22 (Proc.devRef .tc main_v17) = val_main_v17 (F := F) x0 x1 x2 := by
    rw [← hV, binary_result]
    rw [h_main_v7, h_main_v16]
    rfl
  clear hV h_main_v7 h_main_v16
  rename' h_main_v17' => h_main_v17
  -- main_cst_3
  rw [after_cons]
  generalize hV : HloOp.result _ V22 = V23
  have h_main_cst_3' : V23 (Proc.devRef .tc main_cst_3) = val_main_cst_3 (F := F) := by
    rw [← hV, nullary_result]
    rfl
  have h_main_v17' : V23 (Proc.devRef .tc main_v17) = val_main_v17 (F := F) x0 x1 x2 := by
    rw [← hV, nullary_result_ne]
    · exact h_main_v17
    · decide
  clear hV h_main_v17
  rename' h_main_v17' => h_main_v17
  rename' h_main_cst_3' => h_main_cst_3
  -- main_v18
  rw [after_cons]
  generalize hV : HloOp.result _ V23 = V24
  have h_main_v18' : V24 (Proc.devRef .tc main_v18) = val_main_v18 (F := F) := by
    rw [← hV, unary_result]
    rw [h_main_cst_3]
    rfl
  have h_main_v17' : V24 (Proc.devRef .tc main_v17) = val_main_v17 (F := F) x0 x1 x2 := by
    rw [← hV, unary_result_ne]
    · exact h_main_v17
    · decide
  clear hV h_main_v17 h_main_cst_3
  rename' h_main_v17' => h_main_v17
  rename' h_main_v18' => h_main_v18
  -- main_v19
  rw [after_cons]
  generalize hV : HloOp.result _ V24 = V25
  have h_main_v19' : V25 (Proc.devRef .tc main_v19) = val_main_v19 (F := F) x0 x1 x2 := by
    rw [← hV, binary_result]
    rw [h_main_v18, h_main_v17]
    rfl
  clear hV h_main_v17 h_main_v18
  rename' h_main_v19' => h_main_v19
  -- main_v20
  rw [after_cons]
  generalize hV : HloOp.result _ V25 = V26
  have h_main_v20' : V26 (Proc.devRef .tc main_v20) = val_main_v20 (F := F) := by
    rw [← hV, nullary_result]
    rfl
  have h_main_v19' : V26 (Proc.devRef .tc main_v19) = val_main_v19 (F := F) x0 x1 x2 := by
    rw [← hV, nullary_result_ne]
    · exact h_main_v19
    · decide
  clear hV h_main_v19
  rename' h_main_v19' => h_main_v19
  rename' h_main_v20' => h_main_v20
  -- main_call0_cst
  rw [after_cons]
  generalize hV : HloOp.result _ V26 = V27
  have h_main_call0_cst' : V27 (Proc.devRef .tc main_call0_cst) = val_main_call0_cst (F := F) := by
    rw [← hV, nullary_result]
    rfl
  have h_main_v19' : V27 (Proc.devRef .tc main_v19) = val_main_v19 (F := F) x0 x1 x2 := by
    rw [← hV, nullary_result_ne]
    · exact h_main_v19
    · decide
  have h_main_v20' : V27 (Proc.devRef .tc main_v20) = val_main_v20 (F := F) := by
    rw [← hV, nullary_result_ne]
    · exact h_main_v20
    · decide
  clear hV h_main_v19 h_main_v20
  rename' h_main_v19' => h_main_v19
  rename' h_main_v20' => h_main_v20
  rename' h_main_call0_cst' => h_main_call0_cst
  -- main_call0_v0
  rw [after_cons]
  generalize hV : HloOp.result _ V27 = V28
  have h_main_call0_v0' : V28 (Proc.devRef .tc main_call0_v0) = val_main_call0_v0 (F := F) x0 x1 x2 := by
    rw [← hV, binary_result]
    rw [h_main_v19, h_main_call0_cst]
    unfold val_main_call0_v0
    refine (cast_eq _ _).trans ?_
    congr 1 <;> exact cast_eq _ _
  have h_main_v19' : V28 (Proc.devRef .tc main_v19) = val_main_v19 (F := F) x0 x1 x2 := by
    rw [← hV, binary_result_ne]
    · exact h_main_v19
    · decide
  have h_main_v20' : V28 (Proc.devRef .tc main_v20) = val_main_v20 (F := F) := by
    rw [← hV, binary_result_ne]
    · exact h_main_v20
    · decide
  clear hV h_main_v19 h_main_v20 h_main_call0_cst
  rename' h_main_v19' => h_main_v19
  rename' h_main_v20' => h_main_v20
  rename' h_main_call0_v0' => h_main_call0_v0
  -- main_call0_cst_0
  rw [after_cons]
  generalize hV : HloOp.result _ V28 = V29
  have h_main_call0_cst_0' : V29 (Proc.devRef .tc main_call0_cst_0) = val_main_call0_cst_0 (F := F) := by
    rw [← hV, nullary_result]
    rfl
  have h_main_v19' : V29 (Proc.devRef .tc main_v19) = val_main_v19 (F := F) x0 x1 x2 := by
    rw [← hV, nullary_result_ne]
    · exact h_main_v19
    · decide
  have h_main_v20' : V29 (Proc.devRef .tc main_v20) = val_main_v20 (F := F) := by
    rw [← hV, nullary_result_ne]
    · exact h_main_v20
    · decide
  have h_main_call0_v0' : V29 (Proc.devRef .tc main_call0_v0) = val_main_call0_v0 (F := F) x0 x1 x2 := by
    rw [← hV, nullary_result_ne]
    · exact h_main_call0_v0
    · decide
  clear hV h_main_v19 h_main_v20 h_main_call0_v0
  rename' h_main_v19' => h_main_v19
  rename' h_main_v20' => h_main_v20
  rename' h_main_call0_v0' => h_main_call0_v0
  rename' h_main_call0_cst_0' => h_main_call0_cst_0
  -- main_call0_v1
  rw [after_cons]
  generalize hV : HloOp.result _ V29 = V30
  have h_main_call0_v1' : V30 (Proc.devRef .tc main_call0_v1) = val_main_call0_v1 (F := F) := by
    rw [← hV, unary_result]
    rw [h_main_call0_cst_0]
    rfl
  have h_main_v19' : V30 (Proc.devRef .tc main_v19) = val_main_v19 (F := F) x0 x1 x2 := by
    rw [← hV, unary_result_ne]
    · exact h_main_v19
    · decide
  have h_main_v20' : V30 (Proc.devRef .tc main_v20) = val_main_v20 (F := F) := by
    rw [← hV, unary_result_ne]
    · exact h_main_v20
    · decide
  have h_main_call0_v0' : V30 (Proc.devRef .tc main_call0_v0) = val_main_call0_v0 (F := F) x0 x1 x2 := by
    rw [← hV, unary_result_ne]
    · exact h_main_call0_v0
    · decide
  clear hV h_main_v19 h_main_v20 h_main_call0_v0 h_main_call0_cst_0
  rename' h_main_v19' => h_main_v19
  rename' h_main_v20' => h_main_v20
  rename' h_main_call0_v0' => h_main_call0_v0
  rename' h_main_call0_v1' => h_main_call0_v1
  -- main_call0_v2
  rw [after_cons]
  generalize hV : HloOp.result _ V30 = V31
  have h_main_call0_v2' : V31 (Proc.devRef .tc main_call0_v2) = val_main_call0_v2 (F := F) x0 x1 x2 := by
    rw [← hV, binary_result]
    rw [h_main_call0_v1, h_main_call0_v0]
    unfold val_main_call0_v2
    refine (cast_eq _ _).trans ?_
    exact congrArg₂ (maximumf (F := F)) (cast_eq _ _) (cast_eq _ _)
  have h_main_v19' : V31 (Proc.devRef .tc main_v19) = val_main_v19 (F := F) x0 x1 x2 := by
    rw [← hV, binary_result_ne]
    · exact h_main_v19
    · decide
  have h_main_v20' : V31 (Proc.devRef .tc main_v20) = val_main_v20 (F := F) := by
    rw [← hV, binary_result_ne]
    · exact h_main_v20
    · decide
  clear hV h_main_v19 h_main_v20 h_main_call0_v0 h_main_call0_v1
  rename' h_main_v19' => h_main_v19
  rename' h_main_v20' => h_main_v20
  rename' h_main_call0_v2' => h_main_call0_v2
  -- main_call0_v3
  rw [after_cons]
  generalize hV : HloOp.result _ V31 = V32
  have h_main_call0_v3' : V32 (Proc.devRef .tc main_call0_v3) = val_main_call0_v3 (F := F) x0 x1 x2 := by
    rw [← hV, unary_result]
    rw [h_main_call0_v2]
    rfl
  have h_main_v19' : V32 (Proc.devRef .tc main_v19) = val_main_v19 (F := F) x0 x1 x2 := by
    rw [← hV, unary_result_ne]
    · exact h_main_v19
    · decide
  have h_main_v20' : V32 (Proc.devRef .tc main_v20) = val_main_v20 (F := F) := by
    rw [← hV, unary_result_ne]
    · exact h_main_v20
    · decide
  clear hV h_main_v19 h_main_v20 h_main_call0_v2
  rename' h_main_v19' => h_main_v19
  rename' h_main_v20' => h_main_v20
  rename' h_main_call0_v3' => h_main_call0_v3
  -- main_call0_v4
  rw [after_cons]
  generalize hV : HloOp.result _ V32 = V33
  have h_main_call0_v4' : V33 (Proc.devRef .tc main_call0_v4) = val_main_call0_v4 (F := F) x0 x1 x2 := by
    rw [← hV, unary_result]
    rw [h_main_call0_v3]
    rfl
  have h_main_v19' : V33 (Proc.devRef .tc main_v19) = val_main_v19 (F := F) x0 x1 x2 := by
    rw [← hV, unary_result_ne]
    · exact h_main_v19
    · decide
  have h_main_v20' : V33 (Proc.devRef .tc main_v20) = val_main_v20 (F := F) := by
    rw [← hV, unary_result_ne]
    · exact h_main_v20
    · decide
  clear hV h_main_v19 h_main_v20 h_main_call0_v3
  rename' h_main_v19' => h_main_v19
  rename' h_main_v20' => h_main_v20
  rename' h_main_call0_v4' => h_main_call0_v4
  -- main_call0_v5
  rw [after_cons]
  generalize hV : HloOp.result _ V33 = V34
  have h_main_call0_v5' : V34 (Proc.devRef .tc main_call0_v5) = val_main_call0_v5 (F := F) x0 x1 x2 := by
    rw [← hV, binary_result]
    rw [h_main_v19, h_main_call0_v4]
    rfl
  have h_main_v20' : V34 (Proc.devRef .tc main_v20) = val_main_v20 (F := F) := by
    rw [← hV, binary_result_ne]
    · exact h_main_v20
    · decide
  clear hV h_main_v19 h_main_v20 h_main_call0_v4
  rename' h_main_v20' => h_main_v20
  rename' h_main_call0_v5' => h_main_call0_v5
  -- main_call0_v6
  rw [after_cons]
  generalize hV : HloOp.result _ V34 = V35
  have h_main_call0_v6' : V35 (Proc.devRef .tc main_call0_v6) = val_main_call0_v6 (F := F) x0 x1 x2 := by
    rw [← hV, unary_result]
    rw [h_main_call0_v5]
    rfl
  have h_main_v20' : V35 (Proc.devRef .tc main_v20) = val_main_v20 (F := F) := by
    rw [← hV, unary_result_ne]
    · exact h_main_v20
    · decide
  have h_main_call0_v5' : V35 (Proc.devRef .tc main_call0_v5) = val_main_call0_v5 (F := F) x0 x1 x2 := by
    rw [← hV, unary_result_ne]
    · exact h_main_call0_v5
    · decide
  clear hV h_main_v20 h_main_call0_v5
  rename' h_main_v20' => h_main_v20
  rename' h_main_call0_v5' => h_main_call0_v5
  rename' h_main_call0_v6' => h_main_call0_v6
  -- main_call0_cst_1
  rw [after_cons]
  generalize hV : HloOp.result _ V35 = V36
  have h_main_call0_cst_1' : V36 (Proc.devRef .tc main_call0_cst_1) = val_main_call0_cst_1 (F := F) := by
    rw [← hV, nullary_result]
    rfl
  have h_main_v20' : V36 (Proc.devRef .tc main_v20) = val_main_v20 (F := F) := by
    rw [← hV, nullary_result_ne]
    · exact h_main_v20
    · decide
  have h_main_call0_v5' : V36 (Proc.devRef .tc main_call0_v5) = val_main_call0_v5 (F := F) x0 x1 x2 := by
    rw [← hV, nullary_result_ne]
    · exact h_main_call0_v5
    · decide
  have h_main_call0_v6' : V36 (Proc.devRef .tc main_call0_v6) = val_main_call0_v6 (F := F) x0 x1 x2 := by
    rw [← hV, nullary_result_ne]
    · exact h_main_call0_v6
    · decide
  clear hV h_main_v20 h_main_call0_v5 h_main_call0_v6
  rename' h_main_v20' => h_main_v20
  rename' h_main_call0_v5' => h_main_call0_v5
  rename' h_main_call0_v6' => h_main_call0_v6
  rename' h_main_call0_cst_1' => h_main_call0_cst_1
  -- main_call0_v7
  rw [after_cons]
  generalize hV : HloOp.result _ V36 = V37
  have h_main_call0_v7' : V37 (Proc.devRef .tc main_call0_v7) = val_main_call0_v7 (F := F) x0 x1 x2 := by
    rw [← hV, binary_result]
    rw [h_main_call0_v6, h_main_call0_cst_1]
    rfl
  have h_main_v20' : V37 (Proc.devRef .tc main_v20) = val_main_v20 (F := F) := by
    rw [← hV, binary_result_ne]
    · exact h_main_v20
    · decide
  have h_main_call0_v5' : V37 (Proc.devRef .tc main_call0_v5) = val_main_call0_v5 (F := F) x0 x1 x2 := by
    rw [← hV, binary_result_ne]
    · exact h_main_call0_v5
    · decide
  clear hV h_main_v20 h_main_call0_v5 h_main_call0_v6 h_main_call0_cst_1
  rename' h_main_v20' => h_main_v20
  rename' h_main_call0_v5' => h_main_call0_v5
  rename' h_main_call0_v7' => h_main_call0_v7
  -- main_call0_v8
  rw [after_cons]
  generalize hV : HloOp.result _ V37 = V38
  have h_main_call0_v8' : V38 (Proc.devRef .tc main_call0_v8) = val_main_call0_v8 (F := F) x0 x1 x2 := by
    rw [← hV, unary_result]
    rw [h_main_call0_v7]
    rfl
  have h_main_v20' : V38 (Proc.devRef .tc main_v20) = val_main_v20 (F := F) := by
    rw [← hV, unary_result_ne]
    · exact h_main_v20
    · decide
  have h_main_call0_v5' : V38 (Proc.devRef .tc main_call0_v5) = val_main_call0_v5 (F := F) x0 x1 x2 := by
    rw [← hV, unary_result_ne]
    · exact h_main_call0_v5
    · decide
  clear hV h_main_v20 h_main_call0_v5 h_main_call0_v7
  rename' h_main_v20' => h_main_v20
  rename' h_main_call0_v5' => h_main_call0_v5
  rename' h_main_call0_v8' => h_main_call0_v8
  -- main_call0_v9
  rw [after_cons]
  generalize hV : HloOp.result _ V38 = V39
  have h_main_call0_v9' : V39 (Proc.devRef .tc main_call0_v9) = val_main_call0_v9 (F := F) x0 x1 x2 := by
    rw [← hV, unary_result]
    rw [h_main_call0_v8]
    rfl
  have h_main_v20' : V39 (Proc.devRef .tc main_v20) = val_main_v20 (F := F) := by
    rw [← hV, unary_result_ne]
    · exact h_main_v20
    · decide
  have h_main_call0_v5' : V39 (Proc.devRef .tc main_call0_v5) = val_main_call0_v5 (F := F) x0 x1 x2 := by
    rw [← hV, unary_result_ne]
    · exact h_main_call0_v5
    · decide
  clear hV h_main_v20 h_main_call0_v5 h_main_call0_v8
  rename' h_main_v20' => h_main_v20
  rename' h_main_call0_v5' => h_main_call0_v5
  rename' h_main_call0_v9' => h_main_call0_v9
  -- main_call0_v10
  rw [after_cons]
  generalize hV : HloOp.result _ V39 = V40
  have h_main_call0_v10' : V40 (Proc.devRef .tc main_call0_v10) = val_main_call0_v10 (F := F) x0 x1 x2 := by
    rw [← hV, unary_result]
    rw [h_main_call0_v9]
    rfl
  have h_main_v20' : V40 (Proc.devRef .tc main_v20) = val_main_v20 (F := F) := by
    rw [← hV, unary_result_ne]
    · exact h_main_v20
    · decide
  have h_main_call0_v5' : V40 (Proc.devRef .tc main_call0_v5) = val_main_call0_v5 (F := F) x0 x1 x2 := by
    rw [← hV, unary_result_ne]
    · exact h_main_call0_v5
    · decide
  clear hV h_main_v20 h_main_call0_v5 h_main_call0_v9
  rename' h_main_v20' => h_main_v20
  rename' h_main_call0_v5' => h_main_call0_v5
  rename' h_main_call0_v10' => h_main_call0_v10
  -- main_v21
  rw [after_cons]
  generalize hV : HloOp.result _ V40 = V41
  have h_main_v21' : V41 (Proc.devRef .tc main_v21) = val_main_v21 (F := F) x0 x1 x2 := by
    rw [← hV, binary_result]
    rw [h_main_call0_v5, h_main_call0_v10]
    rfl
  have h_main_v20' : V41 (Proc.devRef .tc main_v20) = val_main_v20 (F := F) := by
    rw [← hV, binary_result_ne]
    · exact h_main_v20
    · decide
  clear hV h_main_v20 h_main_call0_v5 h_main_call0_v10
  rename' h_main_v20' => h_main_v20
  rename' h_main_v21' => h_main_v21
  -- main_v22
  rw [after_cons]
  generalize hV : HloOp.result _ V41 = V42
  have h_main_v22' : V42 (Proc.devRef .tc main_v22) = val_main_v22 (F := F) := by
    rw [← hV, unary_result]
    rw [h_main_v20]
    rfl
  have h_main_v21' : V42 (Proc.devRef .tc main_v21) = val_main_v21 (F := F) x0 x1 x2 := by
    rw [← hV, unary_result_ne]
    · exact h_main_v21
    · decide
  clear hV h_main_v20 h_main_v21
  rename' h_main_v21' => h_main_v21
  rename' h_main_v22' => h_main_v22
  -- main_call1_c
  rw [after_cons]
  generalize hV : HloOp.result _ V42 = V43
  have h_main_call1_c' : V43 (Proc.devRef .tc main_call1_c) = val_main_call1_c (F := F) := by
    rw [← hV, nullary_result]
    rfl
  have h_main_v21' : V43 (Proc.devRef .tc main_v21) = val_main_v21 (F := F) x0 x1 x2 := by
    rw [← hV, nullary_result_ne]
    · exact h_main_v21
    · decide
  have h_main_v22' : V43 (Proc.devRef .tc main_v22) = val_main_v22 (F := F) := by
    rw [← hV, nullary_result_ne]
    · exact h_main_v22
    · decide
  clear hV h_main_v21 h_main_v22
  rename' h_main_v21' => h_main_v21
  rename' h_main_v22' => h_main_v22
  rename' h_main_call1_c' => h_main_call1_c
  -- main_call1_v0
  rw [after_cons]
  generalize hV : HloOp.result _ V43 = V44
  have h_main_call1_v0' : V44 (Proc.devRef .tc main_call1_v0) = val_main_call1_v0 (F := F) := by
    rw [← hV, unary_result]
    rw [h_main_call1_c]
    rfl
  have h_main_v21' : V44 (Proc.devRef .tc main_v21) = val_main_v21 (F := F) x0 x1 x2 := by
    rw [← hV, unary_result_ne]
    · exact h_main_v21
    · decide
  have h_main_v22' : V44 (Proc.devRef .tc main_v22) = val_main_v22 (F := F) := by
    rw [← hV, unary_result_ne]
    · exact h_main_v22
    · decide
  clear hV h_main_v21 h_main_v22 h_main_call1_c
  rename' h_main_v21' => h_main_v21
  rename' h_main_v22' => h_main_v22
  rename' h_main_call1_v0' => h_main_call1_v0
  -- main_call1_v1
  rw [after_cons]
  generalize hV : HloOp.result _ V44 = V45
  have h_main_call1_v1' : V45 (Proc.devRef .tc main_call1_v1) = val_main_call1_v1 (F := F) := by
    rw [← hV, binary_result]
    rw [h_main_v22, h_main_call1_v0]
    rfl
  have h_main_v21' : V45 (Proc.devRef .tc main_v21) = val_main_v21 (F := F) x0 x1 x2 := by
    rw [← hV, binary_result_ne]
    · exact h_main_v21
    · decide
  have h_main_v22' : V45 (Proc.devRef .tc main_v22) = val_main_v22 (F := F) := by
    rw [← hV, binary_result_ne]
    · exact h_main_v22
    · decide
  clear hV h_main_v21 h_main_v22 h_main_call1_v0
  rename' h_main_v21' => h_main_v21
  rename' h_main_v22' => h_main_v22
  rename' h_main_call1_v1' => h_main_call1_v1
  -- main_call1_c_0
  rw [after_cons]
  generalize hV : HloOp.result _ V45 = V46
  have h_main_call1_c_0' : V46 (Proc.devRef .tc main_call1_c_0) = val_main_call1_c_0 (F := F) := by
    rw [← hV, nullary_result]
    rfl
  have h_main_v21' : V46 (Proc.devRef .tc main_v21) = val_main_v21 (F := F) x0 x1 x2 := by
    rw [← hV, nullary_result_ne]
    · exact h_main_v21
    · decide
  have h_main_v22' : V46 (Proc.devRef .tc main_v22) = val_main_v22 (F := F) := by
    rw [← hV, nullary_result_ne]
    · exact h_main_v22
    · decide
  have h_main_call1_v1' : V46 (Proc.devRef .tc main_call1_v1) = val_main_call1_v1 (F := F) := by
    rw [← hV, nullary_result_ne]
    · exact h_main_call1_v1
    · decide
  clear hV h_main_v21 h_main_v22 h_main_call1_v1
  rename' h_main_v21' => h_main_v21
  rename' h_main_v22' => h_main_v22
  rename' h_main_call1_v1' => h_main_call1_v1
  rename' h_main_call1_c_0' => h_main_call1_c_0
  -- main_call1_v2
  rw [after_cons]
  generalize hV : HloOp.result _ V46 = V47
  have h_main_call1_v2' : V47 (Proc.devRef .tc main_call1_v2) = val_main_call1_v2 (F := F) := by
    rw [← hV, unary_result]
    rw [h_main_call1_c_0]
    rfl
  have h_main_v21' : V47 (Proc.devRef .tc main_v21) = val_main_v21 (F := F) x0 x1 x2 := by
    rw [← hV, unary_result_ne]
    · exact h_main_v21
    · decide
  have h_main_v22' : V47 (Proc.devRef .tc main_v22) = val_main_v22 (F := F) := by
    rw [← hV, unary_result_ne]
    · exact h_main_v22
    · decide
  have h_main_call1_v1' : V47 (Proc.devRef .tc main_call1_v1) = val_main_call1_v1 (F := F) := by
    rw [← hV, unary_result_ne]
    · exact h_main_call1_v1
    · decide
  clear hV h_main_v21 h_main_v22 h_main_call1_v1 h_main_call1_c_0
  rename' h_main_v21' => h_main_v21
  rename' h_main_v22' => h_main_v22
  rename' h_main_call1_v1' => h_main_call1_v1
  rename' h_main_call1_v2' => h_main_call1_v2
  -- main_call1_v3
  rw [after_cons]
  generalize hV : HloOp.result _ V47 = V48
  have h_main_call1_v3' : V48 (Proc.devRef .tc main_call1_v3) = val_main_call1_v3 (F := F) := by
    rw [← hV, binary_result]
    rw [h_main_v22, h_main_call1_v2]
    rfl
  have h_main_v21' : V48 (Proc.devRef .tc main_v21) = val_main_v21 (F := F) x0 x1 x2 := by
    rw [← hV, binary_result_ne]
    · exact h_main_v21
    · decide
  have h_main_v22' : V48 (Proc.devRef .tc main_v22) = val_main_v22 (F := F) := by
    rw [← hV, binary_result_ne]
    · exact h_main_v22
    · decide
  have h_main_call1_v1' : V48 (Proc.devRef .tc main_call1_v1) = val_main_call1_v1 (F := F) := by
    rw [← hV, binary_result_ne]
    · exact h_main_call1_v1
    · decide
  clear hV h_main_v21 h_main_v22 h_main_call1_v1 h_main_call1_v2
  rename' h_main_v21' => h_main_v21
  rename' h_main_v22' => h_main_v22
  rename' h_main_call1_v1' => h_main_call1_v1
  rename' h_main_call1_v3' => h_main_call1_v3
  -- main_call1_v4
  rw [after_cons]
  generalize hV : HloOp.result _ V48 = V49
  have h_main_call1_v4' : V49 (Proc.devRef .tc main_call1_v4) = val_main_call1_v4 (F := F) := by
    rw [← hV, ternary_result]
    rw [h_main_call1_v1, h_main_call1_v3, h_main_v22]
    rfl
  have h_main_v21' : V49 (Proc.devRef .tc main_v21) = val_main_v21 (F := F) x0 x1 x2 := by
    rw [← hV, ternary_result_ne]
    · exact h_main_v21
    · decide
  clear hV h_main_v21 h_main_v22 h_main_call1_v1 h_main_call1_v3
  rename' h_main_v21' => h_main_v21
  rename' h_main_call1_v4' => h_main_call1_v4
  -- main_call1_v5
  rw [after_cons]
  generalize hV : HloOp.result _ V49 = V50
  have h_main_call1_v5' : V50 (Proc.devRef .tc main_call1_v5) = val_main_call1_v5 (F := F) := by
    rw [← hV, reshape_result]
    rw [h_main_call1_v4]
    rfl
  have h_main_v21' : V50 (Proc.devRef .tc main_v21) = val_main_v21 (F := F) x0 x1 x2 := by
    rw [← hV, reshape_result_ne]
    · exact h_main_v21
    · decide
  clear hV h_main_v21 h_main_call1_v4
  rename' h_main_v21' => h_main_v21
  rename' h_main_call1_v5' => h_main_call1_v5
  -- main_call1_c_1
  rw [after_cons]
  generalize hV : HloOp.result _ V50 = V51
  have h_main_call1_c_1' : V51 (Proc.devRef .tc main_call1_c_1) = val_main_call1_c_1 (F := F) := by
    rw [← hV, nullary_result]
    rfl
  have h_main_v21' : V51 (Proc.devRef .tc main_v21) = val_main_v21 (F := F) x0 x1 x2 := by
    rw [← hV, nullary_result_ne]
    · exact h_main_v21
    · decide
  have h_main_call1_v5' : V51 (Proc.devRef .tc main_call1_v5) = val_main_call1_v5 (F := F) := by
    rw [← hV, nullary_result_ne]
    · exact h_main_call1_v5
    · decide
  clear hV h_main_v21 h_main_call1_v5
  rename' h_main_v21' => h_main_v21
  rename' h_main_call1_v5' => h_main_call1_v5
  rename' h_main_call1_c_1' => h_main_call1_c_1
  -- main_call1_c_2
  rw [after_cons]
  generalize hV : HloOp.result _ V51 = V52
  have h_main_call1_c_2' : V52 (Proc.devRef .tc main_call1_c_2) = val_main_call1_c_2 (F := F) := by
    rw [← hV, nullary_result]
    rfl
  have h_main_v21' : V52 (Proc.devRef .tc main_v21) = val_main_v21 (F := F) x0 x1 x2 := by
    rw [← hV, nullary_result_ne]
    · exact h_main_v21
    · decide
  have h_main_call1_v5' : V52 (Proc.devRef .tc main_call1_v5) = val_main_call1_v5 (F := F) := by
    rw [← hV, nullary_result_ne]
    · exact h_main_call1_v5
    · decide
  have h_main_call1_c_1' : V52 (Proc.devRef .tc main_call1_c_1) = val_main_call1_c_1 (F := F) := by
    rw [← hV, nullary_result_ne]
    · exact h_main_call1_c_1
    · decide
  clear hV h_main_v21 h_main_call1_v5 h_main_call1_c_1
  rename' h_main_v21' => h_main_v21
  rename' h_main_call1_v5' => h_main_call1_v5
  rename' h_main_call1_c_1' => h_main_call1_c_1
  rename' h_main_call1_c_2' => h_main_call1_c_2
  -- main_call1_v6
  rw [after_cons]
  generalize hV : HloOp.result _ V52 = V53
  have h_main_call1_v6' : V53 (Proc.devRef .tc main_call1_v6) = val_main_call1_v6 (F := F) := by
    rw [← hV, unary_result]
    rw [h_main_call1_c_2]
    rfl
  have h_main_v21' : V53 (Proc.devRef .tc main_v21) = val_main_v21 (F := F) x0 x1 x2 := by
    rw [← hV, unary_result_ne]
    · exact h_main_v21
    · decide
  have h_main_call1_v5' : V53 (Proc.devRef .tc main_call1_v5) = val_main_call1_v5 (F := F) := by
    rw [← hV, unary_result_ne]
    · exact h_main_call1_v5
    · decide
  have h_main_call1_c_1' : V53 (Proc.devRef .tc main_call1_c_1) = val_main_call1_c_1 (F := F) := by
    rw [← hV, unary_result_ne]
    · exact h_main_call1_c_1
    · decide
  clear hV h_main_v21 h_main_call1_v5 h_main_call1_c_1 h_main_call1_c_2
  rename' h_main_v21' => h_main_v21
  rename' h_main_call1_v5' => h_main_call1_v5
  rename' h_main_call1_c_1' => h_main_call1_c_1
  rename' h_main_call1_v6' => h_main_call1_v6
  -- main_call1_v7
  rw [after_cons]
  generalize hV : HloOp.result _ V53 = V54
  have h_main_call1_v7' : V54 (Proc.devRef .tc main_call1_v7) = val_main_call1_v7 (F := F) := by
    rw [← hV, binary_result]
    rw [h_main_call1_v5, h_main_call1_v6]
    rfl
  have h_main_v21' : V54 (Proc.devRef .tc main_v21) = val_main_v21 (F := F) x0 x1 x2 := by
    rw [← hV, binary_result_ne]
    · exact h_main_v21
    · decide
  have h_main_call1_v5' : V54 (Proc.devRef .tc main_call1_v5) = val_main_call1_v5 (F := F) := by
    rw [← hV, binary_result_ne]
    · exact h_main_call1_v5
    · decide
  have h_main_call1_c_1' : V54 (Proc.devRef .tc main_call1_c_1) = val_main_call1_c_1 (F := F) := by
    rw [← hV, binary_result_ne]
    · exact h_main_call1_c_1
    · decide
  clear hV h_main_v21 h_main_call1_v5 h_main_call1_c_1 h_main_call1_v6
  rename' h_main_v21' => h_main_v21
  rename' h_main_call1_v5' => h_main_call1_v5
  rename' h_main_call1_c_1' => h_main_call1_c_1
  rename' h_main_call1_v7' => h_main_call1_v7
  -- main_call1_v8
  rw [after_cons]
  generalize hV : HloOp.result _ V54 = V55
  have h_main_call1_v8' : V55 (Proc.devRef .tc main_call1_v8) = val_main_call1_v8 (F := F) := by
    rw [← hV, unary_result]
    rw [h_main_call1_c_1]
    rfl
  have h_main_v21' : V55 (Proc.devRef .tc main_v21) = val_main_v21 (F := F) x0 x1 x2 := by
    rw [← hV, unary_result_ne]
    · exact h_main_v21
    · decide
  have h_main_call1_v5' : V55 (Proc.devRef .tc main_call1_v5) = val_main_call1_v5 (F := F) := by
    rw [← hV, unary_result_ne]
    · exact h_main_call1_v5
    · decide
  have h_main_call1_v7' : V55 (Proc.devRef .tc main_call1_v7) = val_main_call1_v7 (F := F) := by
    rw [← hV, unary_result_ne]
    · exact h_main_call1_v7
    · decide
  clear hV h_main_v21 h_main_call1_v5 h_main_call1_c_1 h_main_call1_v7
  rename' h_main_v21' => h_main_v21
  rename' h_main_call1_v5' => h_main_call1_v5
  rename' h_main_call1_v7' => h_main_call1_v7
  rename' h_main_call1_v8' => h_main_call1_v8
  -- main_call1_v9
  rw [after_cons]
  generalize hV : HloOp.result _ V55 = V56
  have h_main_call1_v9' : V56 (Proc.devRef .tc main_call1_v9) = val_main_call1_v9 (F := F) := by
    rw [← hV, unary_result]
    rw [h_main_call1_v8]
    rfl
  have h_main_v21' : V56 (Proc.devRef .tc main_v21) = val_main_v21 (F := F) x0 x1 x2 := by
    rw [← hV, unary_result_ne]
    · exact h_main_v21
    · decide
  have h_main_call1_v5' : V56 (Proc.devRef .tc main_call1_v5) = val_main_call1_v5 (F := F) := by
    rw [← hV, unary_result_ne]
    · exact h_main_call1_v5
    · decide
  have h_main_call1_v7' : V56 (Proc.devRef .tc main_call1_v7) = val_main_call1_v7 (F := F) := by
    rw [← hV, unary_result_ne]
    · exact h_main_call1_v7
    · decide
  clear hV h_main_v21 h_main_call1_v5 h_main_call1_v7 h_main_call1_v8
  rename' h_main_v21' => h_main_v21
  rename' h_main_call1_v5' => h_main_call1_v5
  rename' h_main_call1_v7' => h_main_call1_v7
  rename' h_main_call1_v9' => h_main_call1_v9
  -- main_call1_v10
  rw [after_cons]
  generalize hV : HloOp.result _ V56 = V57
  have h_main_call1_v10' : V57 (Proc.devRef .tc main_call1_v10) = val_main_call1_v10 (F := F) := by
    rw [← hV, binary_result]
    rw [h_main_call1_v5, h_main_call1_v9]
    rfl
  have h_main_v21' : V57 (Proc.devRef .tc main_v21) = val_main_v21 (F := F) x0 x1 x2 := by
    rw [← hV, binary_result_ne]
    · exact h_main_v21
    · decide
  have h_main_call1_v5' : V57 (Proc.devRef .tc main_call1_v5) = val_main_call1_v5 (F := F) := by
    rw [← hV, binary_result_ne]
    · exact h_main_call1_v5
    · decide
  have h_main_call1_v7' : V57 (Proc.devRef .tc main_call1_v7) = val_main_call1_v7 (F := F) := by
    rw [← hV, binary_result_ne]
    · exact h_main_call1_v7
    · decide
  clear hV h_main_v21 h_main_call1_v5 h_main_call1_v7 h_main_call1_v9
  rename' h_main_v21' => h_main_v21
  rename' h_main_call1_v5' => h_main_call1_v5
  rename' h_main_call1_v7' => h_main_call1_v7
  rename' h_main_call1_v10' => h_main_call1_v10
  -- main_call1_v11
  rw [after_cons]
  generalize hV : HloOp.result _ V57 = V58
  have h_main_call1_v11' : V58 (Proc.devRef .tc main_call1_v11) = val_main_call1_v11 (F := F) := by
    rw [← hV, binary_result]
    rw [h_main_call1_v7, h_main_call1_v10]
    rfl
  have h_main_v21' : V58 (Proc.devRef .tc main_v21) = val_main_v21 (F := F) x0 x1 x2 := by
    rw [← hV, binary_result_ne]
    · exact h_main_v21
    · decide
  have h_main_call1_v5' : V58 (Proc.devRef .tc main_call1_v5) = val_main_call1_v5 (F := F) := by
    rw [← hV, binary_result_ne]
    · exact h_main_call1_v5
    · decide
  clear hV h_main_v21 h_main_call1_v5 h_main_call1_v7 h_main_call1_v10
  rename' h_main_v21' => h_main_v21
  rename' h_main_call1_v5' => h_main_call1_v5
  rename' h_main_call1_v11' => h_main_call1_v11
  -- main_call1_c_3
  rw [after_cons]
  generalize hV : HloOp.result _ V58 = V59
  have h_main_call1_c_3' : V59 (Proc.devRef .tc main_call1_c_3) = val_main_call1_c_3 (F := F) := by
    rw [← hV, nullary_result]
    rfl
  have h_main_v21' : V59 (Proc.devRef .tc main_v21) = val_main_v21 (F := F) x0 x1 x2 := by
    rw [← hV, nullary_result_ne]
    · exact h_main_v21
    · decide
  have h_main_call1_v5' : V59 (Proc.devRef .tc main_call1_v5) = val_main_call1_v5 (F := F) := by
    rw [← hV, nullary_result_ne]
    · exact h_main_call1_v5
    · decide
  have h_main_call1_v11' : V59 (Proc.devRef .tc main_call1_v11) = val_main_call1_v11 (F := F) := by
    rw [← hV, nullary_result_ne]
    · exact h_main_call1_v11
    · decide
  clear hV h_main_v21 h_main_call1_v5 h_main_call1_v11
  rename' h_main_v21' => h_main_v21
  rename' h_main_call1_v5' => h_main_call1_v5
  rename' h_main_call1_v11' => h_main_call1_v11
  rename' h_main_call1_c_3' => h_main_call1_c_3
  -- main_call1_v12
  rw [after_cons]
  generalize hV : HloOp.result _ V59 = V60
  have h_main_call1_v12' : V60 (Proc.devRef .tc main_call1_v12) = val_main_call1_v12 (F := F) := by
    rw [← hV, binary_result]
    rw [h_main_call1_v11, h_main_call1_c_3]
    rfl
  have h_main_v21' : V60 (Proc.devRef .tc main_v21) = val_main_v21 (F := F) x0 x1 x2 := by
    rw [← hV, binary_result_ne]
    · exact h_main_v21
    · decide
  have h_main_call1_v5' : V60 (Proc.devRef .tc main_call1_v5) = val_main_call1_v5 (F := F) := by
    rw [← hV, binary_result_ne]
    · exact h_main_call1_v5
    · decide
  clear hV h_main_v21 h_main_call1_v5 h_main_call1_v11 h_main_call1_c_3
  rename' h_main_v21' => h_main_v21
  rename' h_main_call1_v5' => h_main_call1_v5
  rename' h_main_call1_v12' => h_main_call1_v12
  -- main_call1_v13
  rw [after_cons]
  generalize hV : HloOp.result _ V60 = V61
  have h_main_call1_v13' : V61 (Proc.devRef .tc main_call1_v13) = val_main_call1_v13 (F := F) x0 x1 x2 := by
    rw [← hV, binary_result]
    rw [h_main_v21, h_main_call1_v5]
    rfl
  have h_main_call1_v12' : V61 (Proc.devRef .tc main_call1_v12) = val_main_call1_v12 (F := F) := by
    rw [← hV, binary_result_ne]
    · exact h_main_call1_v12
    · decide
  clear hV h_main_v21 h_main_call1_v5 h_main_call1_v12
  rename' h_main_call1_v12' => h_main_call1_v12
  rename' h_main_call1_v13' => h_main_call1_v13
  -- main_call1_cst
  rw [after_cons]
  generalize hV : HloOp.result _ V61 = V62
  have h_main_call1_cst' : V62 (Proc.devRef .tc main_call1_cst) = val_main_call1_cst (F := F) := by
    rw [← hV, nullary_result]
    rfl
  have h_main_call1_v12' : V62 (Proc.devRef .tc main_call1_v12) = val_main_call1_v12 (F := F) := by
    rw [← hV, nullary_result_ne]
    · exact h_main_call1_v12
    · decide
  have h_main_call1_v13' : V62 (Proc.devRef .tc main_call1_v13) = val_main_call1_v13 (F := F) x0 x1 x2 := by
    rw [← hV, nullary_result_ne]
    · exact h_main_call1_v13
    · decide
  clear hV h_main_call1_v12 h_main_call1_v13
  rename' h_main_call1_v12' => h_main_call1_v12
  rename' h_main_call1_v13' => h_main_call1_v13
  rename' h_main_call1_cst' => h_main_call1_cst
  -- main_call1_v14
  rw [after_cons]
  generalize hV : HloOp.result _ V62 = V63
  have h_main_call1_v14' : V63 (Proc.devRef .tc main_call1_v14) = val_main_call1_v14 (F := F) := by
    rw [← hV, unary_result]
    rw [h_main_call1_cst]
    rfl
  have h_main_call1_v12' : V63 (Proc.devRef .tc main_call1_v12) = val_main_call1_v12 (F := F) := by
    rw [← hV, unary_result_ne]
    · exact h_main_call1_v12
    · decide
  have h_main_call1_v13' : V63 (Proc.devRef .tc main_call1_v13) = val_main_call1_v13 (F := F) x0 x1 x2 := by
    rw [← hV, unary_result_ne]
    · exact h_main_call1_v13
    · decide
  clear hV h_main_call1_v12 h_main_call1_v13 h_main_call1_cst
  rename' h_main_call1_v12' => h_main_call1_v12
  rename' h_main_call1_v13' => h_main_call1_v13
  rename' h_main_call1_v14' => h_main_call1_v14
  -- main_v23
  rw [after_cons]
  generalize hV : HloOp.result _ V63 = V64
  have h_main_v23' : V64 (Proc.devRef .tc main_v23) = val_main_v23 (F := F) x0 x1 x2 := by
    rw [← hV, ternary_result]
    rw [h_main_call1_v12, h_main_call1_v13, h_main_call1_v14]
    rfl
  clear hV h_main_call1_v12 h_main_call1_v13 h_main_call1_v14
  rename' h_main_v23' => h_main_v23
  -- main_cst_4
  rw [after_cons]
  generalize hV : HloOp.result _ V64 = V65
  have h_main_cst_4' : V65 (Proc.devRef .tc main_cst_4) = val_main_cst_4 (F := F) := by
    rw [← hV, nullary_result]
    rfl
  have h_main_v23' : V65 (Proc.devRef .tc main_v23) = val_main_v23 (F := F) x0 x1 x2 := by
    rw [← hV, nullary_result_ne]
    · exact h_main_v23
    · decide
  clear hV h_main_v23
  rename' h_main_v23' => h_main_v23
  rename' h_main_cst_4' => h_main_cst_4
  -- main_v24
  rw [after_cons]
  generalize hV : HloOp.result _ V65 = V66
  have h_main_v24' : V66 (Proc.devRef .tc main_v24) = val_main_v24 (F := F) x0 x1 x2 := by
    rw [← hV, binary_result]
    rw [h_main_v23, h_main_cst_4]
    rfl
  clear hV h_main_v23 h_main_cst_4
  rename' h_main_v24' => h_main_v24
  -- main_cst_5
  rw [after_cons]
  generalize hV : HloOp.result _ V66 = V67
  have h_main_cst_5' : V67 (Proc.devRef .tc main_cst_5) = val_main_cst_5 (F := F) := by
    rw [← hV, nullary_result]
    rfl
  have h_main_v24' : V67 (Proc.devRef .tc main_v24) = val_main_v24 (F := F) x0 x1 x2 := by
    rw [← hV, nullary_result_ne]
    · exact h_main_v24
    · decide
  clear hV h_main_v24
  rename' h_main_v24' => h_main_v24
  rename' h_main_cst_5' => h_main_cst_5
  -- main_v25
  rw [after_cons]
  generalize hV : HloOp.result _ V67 = V68
  have h_main_v25' : V68 (Proc.devRef .tc main_v25) = val_main_v25 (F := F) x0 x1 x2 := by
    rw [← hV, binary_result]
    rw [h_main_v24, h_main_cst_5]
    rfl
  clear hV h_main_v24 h_main_cst_5
  rename' h_main_v25' => h_main_v25
  -- main_v26
  rw [after_cons]
  generalize hV : HloOp.result _ V68 = V69
  have h_main_v26' : V69 (Proc.devRef .tc main_v26) = val_main_v26 (F := F) x0 x1 x2 := by
    rw [← hV, unary_result]
    rw [h_main_v25]
    rfl
  clear hV h_main_v25
  rename' h_main_v26' => h_main_v26
  rw [after_nil]
  exact h_main_v26

/-- The reference's result is the last stage, at the launch contents of the three arguments. -/
theorem result_eq (m : (ℓ : Loc nD τ sig) → Buf (Elt F) ℓ) (c : Dev nD) :
    Cert.ReferenceIdeal.RefSide.result m c = val_main_v26 (F := F) (m ((c.tc : Thread nD τ).loc main_arg0)) (m ((c.tc : Thread nD τ).loc main_arg1)) (m ((c.tc : Thread nD τ).loc main_arg2)) :=
  after_ops _ _ _ _ rfl rfl rfl

end Cert.ReferenceIdeal.RefRead

end
-- ==== Proof.RefValue.lean ====
/-
  The reference read to a closed form on the extended reals: its score matrix entry (r, c') is the shared score
  of query row r against document c' of positives ++ negatives; row r of the log-softmax subtracts a row
  maximum M r and the logarithm of the row's sum of exponentials; the gather takes the diagonal entry.
-/
import proofs.«148176_j63874753626759_2_alg».proof.Proof.RefRead
import proofs.«148176_j63874753626759_2_alg».proof.Proof.Spec
import Idealize.ShloMosaic.PureOps.Reduce

set_option maxRecDepth 16384

noncomputable section

namespace Cert.ReferenceIdeal.RefValue

open Cert.ReferenceIdeal Cert.ReferenceIdeal.Gen Cert.ReferenceIdeal.RefRead
open Idealize.ShloMosaic Idealize.ShloMosaic.ValueIdx Idealize.ShloMosaic.TcCoe Idealize.SL.Sem Cert.Spec

variable (x0 x1 x2 : (⟨S4096x1024, .f32⟩ : BufTy).Contents (Elt Ideal))

theorem rowE_fin (X : (⟨2, ![4096, 1024]⟩ : Shape).Idx → EReal) (r : Fin 4096) (k : Fin 1024) : rowE X r.val k = X (ix2 r k) := by
  unfold rowE; rw [dif_pos r.isLt]

/-! ## The normalized queries -/

theorem v7_eq (r : Fin 4096) (k : Fin 1024) : val_main_v7 (F := Ideal) x0 (ix2 r k) = hatE (rowE x0 r.val) k := by
  rw [val_main_v7_apply, val_main_v6_apply, val_main_v5_apply, val_main_v3_apply, val_main_v2_apply, val_main_v1_apply,
    val_main_v4_apply, val_main_cst_0_apply, val_main_cst_apply]
  have e : ∀ k', idx_main_v1 (idx_main_v2 (idx_main_v6 (ix2 r k))) k' = ix2 r k' := fun k' =>
    funext fun a => Fin.ext (by match a with | ⟨0, _⟩ => rfl | ⟨1, _⟩ => rfl)
  simp only [e, val_main_v0_apply, Ideal.hostDivf_def, Ideal.hostUnary_sqrt_def, Ideal.maximumf_def, Ideal.mulf_def,
    Ideal.ofBits_def, Ideal.ofBits_zero_f32, zero_add]
  unfold hatE
  simp only [rowE_fin]

/-! ## The concatenated, normalized documents -/

set_option maxRecDepth 65536 in
theorem v8_eq (c' : Fin 8192) (k : Fin 1024) :
    val_main_v8 (F := Ideal) x1 x2 (ix2 c' k) = (if c'.val < 4096 then rowE x1 c'.val else rowE x2 (c'.val - 4096)) k := by
  have hc := c'.isLt
  unfold val_main_v8
  split
  · next h =>
    rw [show rowE x1 c'.val k = x1 (ix2 ⟨c'.val, h⟩ k) from rowE_fin x1 ⟨c'.val, h⟩ k]
    exact concatenate_pair_apply_left (0 : Fin 2) x1 x2 concatenates_S4096x1024_S4096x1024_S8192x1024_d0 (ix2 c' k) rfl
      (ix2 ⟨c'.val, h⟩ k) (fun b => match b with | ⟨0, _⟩ => rfl | ⟨1, _⟩ => rfl)
  · next h =>
    have h' : c'.val - 4096 < 4096 := by omega
    rw [show rowE x2 (c'.val - 4096) k = x2 (ix2 ⟨c'.val - 4096, h'⟩ k) from rowE_fin x2 ⟨c'.val - 4096, h'⟩ k]
    exact concatenate_pair_apply_right (0 : Fin 2) x1 x2 concatenates_S4096x1024_S4096x1024_S8192x1024_d0 (ix2 c' k) rfl rfl
      (ix2 ⟨c'.val - 4096, h'⟩ k) (fun b hb => match b with | ⟨0, _⟩ => absurd rfl hb | ⟨1, _⟩ => rfl)
      (by show (c'.val - 4096) + 4096 = c'.val; omega)

theorem v16_eq (c' : Fin 8192) (k : Fin 1024) : val_main_v16 (F := Ideal) x1 x2 (ix2 c' k) = docE x1 x2 c'.val k := by
  rw [val_main_v16_apply, val_main_v15_apply, val_main_v14_apply, val_main_v12_apply, val_main_v11_apply, val_main_v10_apply,
    val_main_v13_apply, val_main_cst_2_apply, val_main_cst_1_apply]
  have e : ∀ k', idx_main_v10 (idx_main_v11 (idx_main_v15 (ix2 c' k))) k' = ix2 c' k' := fun k' =>
    funext fun a => Fin.ext (by match a with | ⟨0, _⟩ => rfl | ⟨1, _⟩ => rfl)
  simp only [e, val_main_v9_apply, v8_eq, Ideal.hostDivf_def, Ideal.hostUnary_sqrt_def, Ideal.maximumf_def, Ideal.mulf_def,
    Ideal.ofBits_def, Ideal.ofBits_zero_f32, zero_add]
  unfold docE hatE
  split <;> rfl

/-! ## The score matrix -/

theorem v19_eq (r : Fin 4096) (c' : Fin 8192) : val_main_v19 (F := Ideal) x0 x1 x2 (ix2 r c') = scoreE x0 x1 x2 r.val c'.val := by
  rw [val_main_v19_apply, val_main_v18_apply, val_main_cst_3_apply, val_main_v17_apply]
  have el : ∀ k, lidx_main_v17 (ix2 r c') k = ix2 r k := fun k =>
    funext fun a => Fin.ext (by match a with | ⟨0, _⟩ => rfl | ⟨1, _⟩ => rfl)
  have er : ∀ k, ridx_main_v17 (ix2 r c') k = ix2 c' k := fun k =>
    funext fun a => Fin.ext (by match a with | ⟨0, _⟩ => rfl | ⟨1, _⟩ => rfl)
  simp only [el, er, v7_eq, v16_eq, Ideal.mulf_def, Ideal.ofBits_def]
  unfold scoreE
  exact mul_comm _ _

/-! ## The log-softmax row by row -/

/-- The row maximum the log-softmax subtracts (the maximum of -∞ and the row's reduce-max). -/
def rowShift (r : Fin 4096) : EReal := val_main_call0_v2 (F := Ideal) x0 x1 x2 (ix1 r)

theorem v5_eq (r : Fin 4096) (c' : Fin 8192) :
    val_main_call0_v5 (F := Ideal) x0 x1 x2 (ix2 r c') = scoreE x0 x1 x2 r.val c'.val - rowShift x0 x1 x2 r := by
  rw [val_main_call0_v5_apply, val_main_call0_v4_apply, val_main_call0_v3_apply, v19_eq]
  have e : idx_main_call0_v3 (idx_main_call0_v4 (ix2 r c')) = ix1 r :=
    funext fun a => Fin.ext (by match a with | ⟨0, _⟩ => rfl)
  rw [e]
  rfl

theorem v21_eq (r : Fin 4096) (c' : Fin 8192) :
    val_main_v21 (F := Ideal) x0 x1 x2 (ix2 r c')
      = (scoreE x0 x1 x2 r.val c'.val - rowShift x0 x1 x2 r)
        - Ideal.log (0 + ∑ k : Fin 8192, Ideal.exp (scoreE x0 x1 x2 r.val k.val - rowShift x0 x1 x2 r)) := by
  rw [val_main_v21_apply, val_main_call0_v10_apply, val_main_call0_v9_apply, val_main_call0_v8_apply, val_main_call0_v7_apply,
    val_main_call0_cst_1_apply, v5_eq]
  have e : ∀ k, idx_main_call0_v7 (idx_main_call0_v8 (idx_main_call0_v10 (ix2 r c'))) k = ix2 r k := fun k =>
    funext fun a => Fin.ext (by match a with | ⟨0, _⟩ => rfl | ⟨1, _⟩ => rfl)
  simp only [e, val_main_call0_v6_apply, v5_eq, Ideal.subf_def, Ideal.hostUnary_log_def, Ideal.hostUnary_exp_def, Ideal.ofBits_def,
    Ideal.ofBits_zero_f32]

/-- With real scores along the row, the shift is a real number. -/
theorem rowShift_real (r : Fin 4096) (a : Fin 8192 → ℝ) (ha : ∀ c' : Fin 8192, scoreE x0 x1 x2 r.val c'.val = (a c' : EReal)) :
    ∃ M : ℝ, rowShift x0 x1 x2 r = (M : EReal) := by
  unfold rowShift
  rw [val_main_call0_v2_apply, val_main_call0_v1_apply, val_main_call0_cst_0_apply]
  unfold val_main_call0_v0
  rw [Host.reduce_eq_fold]
  have hset : (Finset.univ.filter fun i : S4096x8192.Idx => reducesTo_S4096x8192_S4096_d1.drop i = ix1 r)
      = Finset.univ.image (fun c' : Fin 8192 => (ix2 r c' : S4096x8192.Idx)) := by
    ext i
    simp only [Finset.mem_filter, Finset.mem_univ, true_and, Finset.mem_image]
    constructor
    · intro h
      refine ⟨i 1, ?_⟩
      have h0 : (reducesTo_S4096x8192_S4096_d1.drop i 0 : ℕ) = i 0 := reducesTo_S4096x8192_S4096_d1.drop_apply_val_of_eq i 0 0
      have h1 : (reducesTo_S4096x8192_S4096_d1.drop i 0 : ℕ) = r.val := by rw [h]
      refine ((eq_ix2 i).trans ?_).symm
      congr 1
      exact Fin.ext (h0.symm.trans h1)
    · rintro ⟨c', rfl⟩
      funext b
      match b with
      | ⟨0, _⟩ => exact Fin.ext (reducesTo_S4096x8192_S4096_d1.drop_apply_val_of_eq (ix2 r c') 0 0)
  rw [hset, Finset.fold_image (fun x _ y _ h => by
    have := congrFun h 1; exact this)]
  have hf : (fun c' : Fin 8192 => val_main_v19 (F := Ideal) x0 x1 x2 (ix2 r c')) = fun c' => ((a c' : ℝ) : EReal) :=
    funext fun c' => (v19_eq x0 x1 x2 r c').trans (ha c')
  rw [show ((val_main_v19 (F := Ideal) x0 x1 x2) ∘ fun c' : Fin 8192 => (ix2 r c' : S4096x8192.Idx)) = fun c' => ((a c' : ℝ) : EReal) from hf]
  have hb : FloatOps.ofBits (F := Ideal) .f32 0xFF800000#32 = (⊥ : EReal) := by simp [Ideal.ofBits, Ideal.ieee]
  rw [val_main_call0_cst_apply, hb]
  obtain ⟨x, hx⟩ := fold_max_real a Finset.univ ⟨⟨0, by norm_num⟩, Finset.mem_univ _⟩
  refine ⟨x, ?_⟩
  have hfold : Finset.univ.fold (FloatOps.maximumf (F := Ideal) (φ := .f32)) (⊥ : EReal) (fun c' : Fin 8192 => ((a c' : ℝ) : EReal)) = (x : EReal) := hx
  rw [hfold]
  exact max_eq_right bot_le

/-! ## The gather of the diagonal -/

abbrev GD := gather_S4096x8192_S4096x1x1_S4096x1_n_1_0_0_1_2_11

/-- The gather reads row r of the operand at the column its start index names, clamped into the row. -/
theorem gather_apply {α : Type} (x : S4096x8192.Idx → α) (idx : IVec S4096x1x1 32) (r : Fin 4096) (z : Fin 1) :
    Host.gather GD x idx (ix2 r z) = x (ix2 r ⟨min (idx (ix3 r z 0)).toInt.toNat 8191, by omega⟩) := by
  unfold Host.gather
  congr 1
  funext a
  refine Fin.ext ?_
  show GD.start (ix2 r z) idx a + GD.batchCoord (ix2 r z) a + GD.offCoord (ix2 r z) a = _
  fin_cases a
  · show GD.start (ix2 r z) idx (0 : Fin 2) + GD.batchCoord (ix2 r z) (0 : Fin 2) + GD.offCoord (ix2 r z) (0 : Fin 2) = r.val
    rw [GD.offCoord_eq_zero _ _ (by decide)]
    unfold GatherDims.start; rw [dif_neg (by decide)]
    unfold GatherDims.batchCoord; rw [dif_pos (by decide)]
    simp only [Nat.zero_add, Nat.add_zero]
    rfl
  · show GD.start (ix2 r z) idx (1 : Fin 2) + GD.batchCoord (ix2 r z) (1 : Fin 2) + GD.offCoord (ix2 r z) (1 : Fin 2) = min (idx (ix3 r z 0)).toInt.toNat 8191
    rw [GD.batchCoord_eq_zero _ _ (by decide), GD.offCoord_eq_zero _ _ (by decide)]
    unfold GatherDims.start; rw [dif_pos (by decide)]
    have hsi : GD.siIdx (ix2 r z) ⟨List.idxOf (1 : Fin 2) GD.startIndexMap, List.idxOf_lt_length_iff.2 (by decide)⟩ = ix3 r z 0 := by
      funext b; refine Fin.ext ?_
      match b with
      | ⟨0, _⟩ => rfl
      | ⟨1, _⟩ => rfl
      | ⟨2, _⟩ => rfl
    rw [hsi]
    rfl

/-- Row numbers as 32-bit words: non-negative, at most 8191, and read back as themselves. -/
theorem int_facts : ∀ r : Fin 4096,
    IntOp.cmpi .slt (BitVec.ofNat 32 r.val) 0#32 = 0#1
    ∧ IntOp.cmpi .sge (BitVec.ofNat 32 r.val) 0#32 = 1#1
    ∧ IntOp.cmpi .sle (BitVec.ofNat 32 r.val) 8191#32 = 1#1
    ∧ (BitVec.ofNat 32 r.val).toInt.toNat = r.val := by decide +kernel

/-- The gather's start index of row r is r itself. -/
theorem start_eq (r : Fin 4096) (z w : Fin 1) : val_main_call1_v5 (F := Ideal) (ix3 r z w) = BitVec.ofNat 32 r.val := by
  have hz := z.isLt
  have hw := w.isLt
  have e5 : idx_main_call1_v5 (ix3 r z w) = ix2 r z :=
    funext fun a => Fin.ext (by
      match a with
      | ⟨0, _⟩ => show ((r.val * 1 + z.val) * 1 + w.val) / 1 = r.val; omega
      | ⟨1, _⟩ => show 0 = z.val; omega)
  have e22 : idx_main_v22 (ix2 r z) = ix1 r :=
    funext fun a => Fin.ext (by match a with | ⟨0, _⟩ => rfl)
  have h22 : val_main_v22 (F := Ideal) (ix2 r z) = BitVec.ofNat 32 r.val := by
    rw [val_main_v22_apply, e22, val_main_v20_apply]
  rw [val_main_call1_v5_apply, e5, val_main_call1_v4_apply, val_main_call1_v1_apply, h22, val_main_call1_v0_apply,
    val_main_call1_c_apply, (int_facts r).1]
  exact select_zero _ _

theorem fold_andi_one {ι : Type} (s : Finset ι) (f : ι → BitVec 1) (h : ∀ i ∈ s, f i = 1#1) :
    s.fold IntOp.andi 1#1 f = 1#1 := by
  classical
  induction s using Finset.induction_on with
  | empty => rfl
  | insert a s ha ih =>
    rw [Finset.fold_insert ha, h a (Finset.mem_insert_self a s), ih (fun i hi => h i (Finset.mem_insert_of_mem hi))]
    decide

/-- Every start index is in range: the mask is all ones. -/
theorem mask_one (j : S4096x1.Idx) : val_main_call1_v12 (F := Ideal) j = 1#1 := by
  unfold val_main_call1_v12
  rw [Host.reduce_eq_fold, val_main_call1_c_3_apply]
  refine fold_andi_one _ _ (fun i _ => ?_)
  obtain ⟨r, z, w, rfl⟩ : ∃ (r : Fin 4096) (z w : Fin 1), i = ix3 r z w := ⟨i 0, i 1, i 2, eq_ix3 i⟩
  rw [val_main_call1_v11_apply, val_main_call1_v7_apply, val_main_call1_v10_apply, start_eq, val_main_call1_v6_apply,
    val_main_call1_c_2_apply, val_main_call1_v9_apply, val_main_call1_v8_apply, val_main_call1_c_1_apply,
    (int_facts r).2.1, (int_facts r).2.2.1]
  decide

/-- The selected entry of row r is the diagonal entry of the log-softmax. -/
theorem v23_diag (r : Fin 4096) (z : Fin 1) :
    val_main_v23 (F := Ideal) x0 x1 x2 (ix2 r z) = val_main_v21 (F := Ideal) x0 x1 x2 (ix2 r ⟨r.val, by have := r.isLt; omega⟩) := by
  rw [val_main_v23_apply, mask_one, select_one]
  unfold val_main_call1_v13
  rw [gather_apply]
  refine congrArg _ (congrArg (ix2 r) (Fin.ext ?_))
  show min (val_main_call1_v5 (F := Ideal) (ix3 r z 0)).toInt.toNat 8191 = r.val
  rw [start_eq, (int_facts r).2.2.2]
  have := r.isLt; omega

/-! ## The result -/

theorem total_apply (j : S_.Idx) :
    val_main_v26 (F := Ideal) x0 x1 x2 j
      = -(Ideal.div (Ideal.ofBits .f32 0x00000000#32 + ∑ j' : S4096x1.Idx, val_main_v23 (F := Ideal) x0 x1 x2 j')
          (Ideal.ofBits .f32 0x45800000#32)) := by
  rw [val_main_v26_apply, val_main_v25_apply, val_main_v24_apply, val_main_cst_4_apply, val_main_cst_5_apply]
  rfl

section Finite

variable {eps : ℝ} (he : 0 < eps) (heps : epsE = (eps : EReal))
variable {QR PR NR : (⟨2, ![4096, 1024]⟩ : Shape).Idx → ℝ}
variable (hQ : ∀ i, x0 i = (QR i : EReal)) (hP : ∀ i, x1 i = (PR i : EReal)) (hN : ∀ i, x2 i = (NR i : EReal))

include he heps hQ hP hN

set_option maxRecDepth 65536 in
/-- With finite inputs, the reference's entry for row r is score r r minus the log of the row's sum of
    exponentials. -/
theorem v23_eq (r : Fin 4096) (z : Fin 1) :
    val_main_v23 (F := Ideal) x0 x1 x2 (ix2 r z)
      = ((scoreR eps QR PR NR r.val r.val - Real.log (∑ x ∈ Finset.range 8192, Real.exp (scoreR eps QR PR NR r.val x)) : ℝ) : EReal) := by
  have hs : ∀ c' : Fin 8192, scoreE x0 x1 x2 r.val c'.val = ((scoreR eps QR PR NR r.val c'.val : ℝ) : EReal) :=
    fun c' => scoreE_coe he heps hQ hP hN r.val c'.val
  obtain ⟨M, hM⟩ := rowShift_real x0 x1 x2 r (fun c' => scoreR eps QR PR NR r.val c'.val) hs
  rw [v23_diag, v21_eq, hM, hs ⟨r.val, by have := r.isLt; omega⟩]
  have hsum : (∑ k : Fin 8192, Ideal.exp (scoreE x0 x1 x2 r.val k.val - (M : EReal)))
      = ∑ k : Fin 8192, Ideal.exp (((scoreR eps QR PR NR r.val k.val : ℝ) : EReal) - (M : EReal)) :=
    Finset.sum_congr rfl fun k _ => by rw [hs k]
  rw [hsum]
  have h := shifted_row (by norm_num : 0 < 8192) (fun c' : Fin 8192 => scoreR eps QR PR NR r.val c'.val) ⟨r.val, by have := r.isLt; omega⟩ M
  rw [Fin.sum_univ_eq_sum_range (fun x => Real.exp (scoreR eps QR PR NR r.val x)) 8192] at h
  exact h

end Finite

end Cert.ReferenceIdeal.RefValue

end
-- ==== Proof.Finite.lean ====
/-
  What the precondition says: every entry of the three argument arrays is a real number.
  The printed predicate compares |x| with +∞ at every entry, takes the conjunction over each array by an
  and-reduction from true, and conjoins the three; it is all ones exactly when no entry is infinite.
-/
import proofs.«148176_j63874753626759_2_alg».proof.Pre_finite_inputs
import proofs.«148176_j63874753626759_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.Proof.Finite

open Idealize.ShloMosaic Idealize.ShloMosaic.ValueIdx Cert.Pre_finite_inputs Cert.Pre_finite_inputs.Facts

instance : Subsingleton Cert.Pre_finite_inputs.S_.Idx := ⟨fun a b => funext fun d => d.elim0⟩

theorem posInf_eq : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One array's conjunct: the and-reduction of the entrywise comparisons is one only if every entry is real. -/
theorem entries_real (x : FVec Ideal S4096x1024 .f32)
    (h : Host.reduce IntOp.andi (cmpf (F := Ideal) .olt (Host.absf (F := Ideal) x)
        (broadcastInDim S4096x1024 ![] bcast_S_S4096x1024 (constant (F := Ideal) S_ .f32 0x7F800000#32)))
      (constantI S_ 1 1#1) reducesTo_S4096x1024_S_d0_1 h_S_ ix0 = 1#1) (i : S4096x1024.Idx) :
    ∃ r : ℝ, x i = (r : EReal) := by
  have hi := Host.reduce_andi_all _ _ reducesTo_S4096x1024_S_d0_1 h_S_ ix0 h i
  have hb : broadcastInDim S4096x1024 ![] bcast_S_S4096x1024 (constant (F := Ideal) S_ .f32 0x7F800000#32) i
      = Ideal.ofBits .f32 0x7F800000#32 :=
    broadcastInDim_apply _ bcast_S_S4096x1024 _ i (fun a => a.elim0) (fun a => a.elim0)
  have hc : Ideal.cmp .olt (max (x i) (-(x i))) (⊤ : EReal) = 1#1 := by
    have := hi
    rw [cmpf_apply, hb, posInf_eq] at this
    exact this
  refine real_of_abs_lt_top (x i) ?_
  by_contra hlt
  simp [Ideal.cmp, hlt] at hc

theorem finite_of_pre (x0 x1 x2 : FVec Ideal S4096x1024 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.mp (show IntOp.andi _ _ = 1#1 from h0)
  obtain ⟨h0', h1⟩ := IntOp.andi_eq_one.mp (show IntOp.andi _ _ = 1#1 from h01)
  exact ⟨entries_real x0 h0', entries_real x1 h1, entries_real x2 h2⟩

end Cert.Proof.Finite

end
-- ==== Proof.Algebraic.lean ====
/-
  The value claim.  From memories that agree on the three arguments, finite by the precondition:
  the kernel ends at minus the mean over the 4096 rows of (positive score - log-sum-exp), where the positive
  score of row r is score r r and its log-sum-exp, accumulated online over sixteen column tiles, is
  log Σ_{c' < 8192} exp(score r c'); the reference ends at minus the mean of the diagonal of the log-softmax,
  whose row r at the diagonal is (score r r - M) - log Σ exp(score r c' - M) for the row's maximum M, which is
  score r r - log Σ exp(score r c') for any real M.  Row by row the two are the same real number.
-/
import proofs.«148176_j63874753626759_2_alg».proof.Defs
import proofs.«148176_j63874753626759_2_alg».proof.Proof.KI.Rows
import proofs.«148176_j63874753626759_2_alg».proof.Proof.RefResult
import proofs.«148176_j63874753626759_2_alg».proof.Proof.RefValue
import proofs.«148176_j63874753626759_2_alg».proof.Proof.Finite

set_option maxRecDepth 16384

noncomputable section

namespace Cert.Proof.Algebraic

open Idealize.ShloMosaic Idealize.ShloMosaic.TcCoe Idealize.ShloMosaic.ValueIdx Idealize.SL.Sem
open Cert.Spec Cert.KernelIdeal.KFinal Cert.KernelIdeal.KRows Cert.KernelIdeal.KValue
open Cert.KernelIdeal Cert.KernelIdeal.Gen

/-- A length-4096 index is its one coordinate. -/
def idxEquiv1 : (⟨1, ![4096]⟩ : Shape).Idx ≃ Fin 4096 where
  toFun i := i 0
  invFun a := ix1 a
  left_inv i := (eq_ix1 i).symm
  right_inv _ := rfl

/-- The host lines after the region, at the one result index. -/
theorem tailOf_apply (A3 A4 : S4096x1.Idx → EReal) (j : S_.Idx) :
    tailOf A3 A4 j = -(Ideal.div (Ideal.ofBits .f32 0x00000000#32 + ∑ a : Fin 4096, (A4 (ix2 a 0) - A3 (ix2 a 0)))
      (Ideal.ofBits .f32 0x45800000#32)) := by
  unfold tailOf
  show -(Ideal.div (Host.reduceAdd (F := Ideal) _ _ reducesTo_S4096_S_d0 h_S_ j) _) = _
  simp only [Host.reduceAdd, Ideal.hostReduceAdd_def]
  rw [Ideal.hostReduceAdd_total reducesTo_S4096_S_d0 (fun b => b.elim0)]
  congr 2
  refine congrArg (_ + ·) ?_
  refine (Fintype.sum_equiv idxEquiv1 _ (fun a : Fin 4096 => A4 (ix2 a 0) - A3 (ix2 a 0)) (fun i => ?_))
  show shapeCast S4096 A4 _ i - shapeCast S4096 A3 _ i = _
  have e : ∀ (A : S4096x1.Idx → EReal), shapeCast S4096 A shapeCasts_S4096x1_S4096 i = A (ix2 (i 0) 0) := fun A =>
    shapeCast_apply A _ i (ix2 (i 0) 0) (by
      rw [Shape.rowMajor_val_one, Shape.rowMajor_val_two]
      show (i 0).val * 1 + 0 = (i 0).val
      omega)
  rw [e, e]
  rfl

set_option maxHeartbeats 8000000 in
theorem algebraic : Cert.algebraic_KernelIdeal_ReferenceIdeal := by
  intro m ρ m' ρ' hpre hagree
  refine ⟨fun c => tailOf (fun i => lseRow m c (i 0).val) (fun i => posRow m c (i 0).val), Cert.KernelIdeal.KFinal.run m ρ, ?_⟩
  refine (θ_run Cert.ReferenceIdeal.defs _ _).mono (fun _ h c => ⟨(h c).1.trans ?_, (h c).2⟩)
    (Cert.ReferenceIdeal.RefSide.run (F := Ideal) m' ρ')
  rw [Cert.ReferenceIdeal.RefRead.result_eq, (hagree c).1, (hagree c).2.1, (hagree c).2.2]
  obtain ⟨hQ, hP, hN⟩ := Cert.Proof.Finite.finite_of_pre _ _ _ (hpre c)
  choose QR hQ using hQ
  choose PR hP using hP
  choose NR hN using hN
  obtain ⟨eps, he, heps⟩ := eps_val
  funext j
  show _ = tailOf (fun i => lseRow m c (i 0).val) (fun i => posRow m c (i 0).val) j
  rw [Cert.ReferenceIdeal.RefValue.total_apply, tailOf_apply]
  congr 2
  refine congrArg (_ + ·) ?_
  rw [sum_idx2]
  refine Finset.sum_congr rfl fun a _ => ?_
  rw [Fin.sum_univ_one]
  rw [Cert.ReferenceIdeal.RefValue.v23_eq _ _ _ he heps hQ hP hN a 0]
  show _ = posRow m c a.val - lseRow m c a.val
  rw [posRow_eq m c he heps hQ hP hN a.val a.isLt, lseRow_eq m c he heps hQ hP hN a.val a.isLt, ← EReal.coe_sub]

end Cert.Proof.Algebraic

end
-- ==== Proof.lean ====
/-
  The certificate of the in-batch ranking loss kernel against its jnp reference.
  Kernel: one pipelined region over an 8 × 16 grid of 512-row query tiles and 512-row document tiles that
  normalizes the rows, forms the scaled cosine scores tile by tile and keeps an online maximum and sum of
  exponentials per query row; the diagonal tile gives the positive score, the last tile of a row the
  log-sum-exp; the host then takes minus the mean of (positive score - log-sum-exp).
  Reference: normalized queries against the concatenated normalized documents in one product, a log-softmax,
  the diagonal gathered, minus the mean.
  The three frames and the idealization ledger are in Proof/Frames.lean (the body obligation in Proof/K and
  Proof/KI, the reference's run in Proof/RefSide.lean); the value claim is in Proof/Algebraic.lean, over the
  kernel's arrays row by row (Proof/KI/Read, Value, Final, Rows), the reference read stage by stage
  (Proof/RefRead, RefResult, RefValue), the finiteness the precondition gives (Proof/Finite) and the shared
  mathematics (Proof/Spec).
-/
import proofs.«148176_j63874753626759_2_alg».proof.Defs
import proofs.«148176_j63874753626759_2_alg».proof.Proof.Frames
import proofs.«148176_j63874753626759_2_alg».proof.Proof.Algebraic
import proofs.«148176_j63874753626759_2_alg».proof.Proof.Gen.Kernel
import proofs.«148176_j63874753626759_2_alg».proof.Proof.Gen.KernelIdeal
import proofs.«148176_j63874753626759_2_alg».proof.Proof.Gen.ReferenceIdeal
import proofs.«148176_j63874753626759_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_reference, Frames.preserves, Algebraic.algebraic⟩

end Cert.Proof

end
